-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x1024 : Shape := ⟨2, ![2048, 1024]⟩
abbrev S1024x1024 : Shape := ⟨2, ![1024, 1024]⟩
abbrev S1024 : Shape := ⟨1, ![1024]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16384x2048 .f32) (main_arg1 : FVec F S2048x1024 .f32) (main_arg2 : FVec F S1024x1024 .f32) (main_arg3 : FVec F S1024 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16384x2048 : Shape := ⟨2, ![16384, 2048]⟩
abbrev S2048x1024 : Shape := ⟨2, ![2048, 1024]⟩
abbrev S1024x1024 : Shape := ⟨2, ![1024, 1024]⟩
abbrev S1024 : Shape := ⟨1, ![1024]⟩
abbrev S1x1024 : Shape := ⟨2, ![1, 1024]⟩
abbrev S16384x1024 : Shape := ⟨2, ![16384, 1024]⟩
abbrev S512x2048 : Shape := ⟨2, ![512, 2048]⟩
abbrev S512x1024 : Shape := ⟨2, ![512, 1024]⟩
abbrev S_ : Shape := ⟨0, ![]⟩
abbrev S16384x1 : Shape := ⟨2, ![16384, 1]⟩
abbrev S16384x1x1 : Shape := ⟨3, ![16384, 1, 1]⟩
abbrev S16384x1x2 : Shape := ⟨3, ![16384, 1, 2]⟩
abbrev S16384x2 : Shape := ⟨2, ![16384, 2]⟩
abbrev S16384x2x1 : Shape := ⟨3, ![16384, 2, 1]⟩
abbrev S16384x2x2 : Shape := ⟨3, ![16384, 2, 2]⟩
abbrev S16384x4 : Shape := ⟨2, ![16384, 4]⟩
abbrev S16384x4x1 : Shape := ⟨3, ![16384, 4, 1]⟩
abbrev S16384x4x2 : Shape := ⟨3, ![16384, 4, 2]⟩
abbrev S16384x8 : Shape := ⟨2, ![16384, 8]⟩
abbrev S16384x8x1 : Shape := ⟨3, ![16384, 8, 1]⟩
abbrev S16384x8x2 : Shape := ⟨3, ![16384, 8, 2]⟩
abbrev S16384x16 : Shape := ⟨2, ![16384, 16]⟩
abbrev S16384x16x1 : Shape := ⟨3, ![16384, 16, 1]⟩
abbrev S16384x16x2 : Shape := ⟨3, ![16384, 16, 2]⟩
abbrev S16384x32 : Shape := ⟨2, ![16384, 32]⟩
abbrev S16384x32x1 : Shape := ⟨3, ![16384, 32, 1]⟩
abbrev S16384x32x2 : Shape := ⟨3, ![16384, 32, 2]⟩
abbrev S16384x64 : Shape := ⟨2, ![16384, 64]⟩
abbrev S16384x64x1 : Shape := ⟨3, ![16384, 64, 1]⟩
abbrev S16384x64x2 : Shape := ⟨3, ![16384, 64, 2]⟩
abbrev S16384x128 : Shape := ⟨2, ![16384, 128]⟩
abbrev S16384x128x1 : Shape := ⟨3, ![16384, 128, 1]⟩
abbrev S16384x128x2 : Shape := ⟨3, ![16384, 128, 2]⟩
abbrev S16384x256 : Shape := ⟨2, ![16384, 256]⟩
abbrev S16384x256x1 : Shape := ⟨3, ![16384, 256, 1]⟩
abbrev S16384x256x2 : Shape := ⟨3, ![16384, 256, 2]⟩
abbrev S16384x512 : Shape := ⟨2, ![16384, 512]⟩
abbrev S16384x512x1 : Shape := ⟨3, ![16384, 512, 1]⟩
abbrev S16384x512x2 : Shape := ⟨3, ![16384, 512, 2]⟩

abbrev nBuf : Space → Nat
  | .hbm => 111
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S16384x1024, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1x1, .f32⟩
  | .hbm, ⟨18, _⟩ => ⟨S16384x1x1, .f32⟩
  | .hbm, ⟨19, _⟩ => ⟨S16384x1x2, .f32⟩
  | .hbm, ⟨20, _⟩ => ⟨S16384x2, .f32⟩
  | .hbm, ⟨21, _⟩ => ⟨S16384x2, .f32⟩
  | .hbm, ⟨22, _⟩ => ⟨S16384x2, .f32⟩
  | .hbm, ⟨23, _⟩ => ⟨S_, .f32⟩
  | .hbm, ⟨24, _⟩ => ⟨S16384x2, .f32⟩
  | .hbm, ⟨25, _⟩ => ⟨S16384x2, .f32⟩
  | .hbm, ⟨26, _⟩ => ⟨S16384x2, .f32⟩
  | .hbm, ⟨27, _⟩ => ⟨S16384x2x1, .f32⟩
  | .hbm, ⟨28, _⟩ => ⟨S16384x2x1, .f32⟩
  | .hbm, ⟨29, _⟩ => ⟨S16384x2x2, .f32⟩
  | .hbm, ⟨30, _⟩ => ⟨S16384x4, .f32⟩
  | .hbm, ⟨31, _⟩ => ⟨S16384x4, .f32⟩
  | .hbm, ⟨32, _⟩ => ⟨S16384x4, .f32⟩
  | .hbm, ⟨33, _⟩ => ⟨S_, .f32⟩
  | .hbm, ⟨34, _⟩ => ⟨S16384x4, .f32⟩
  | .hbm, ⟨35, _⟩ => ⟨S16384x4, .f32⟩
  | .hbm, ⟨36, _⟩ => ⟨S16384x4, .f32⟩
  | .hbm, ⟨37, _⟩ => ⟨S16384x4x1, .f32⟩
  | .hbm, ⟨38, _⟩ => ⟨S16384x4x1, .f32⟩
  | .hbm, ⟨39, _⟩ => ⟨S16384x4x2, .f32⟩
  | .hbm, ⟨40, _⟩ => ⟨S16384x8, .f32⟩
  | .hbm, ⟨41, _⟩ => ⟨S16384x8, .f32⟩
  | .hbm, ⟨42, _⟩ => ⟨S16384x8, .f32⟩
  | .hbm, ⟨43, _⟩ => ⟨S_, .f32⟩
  | .hbm, ⟨44, _⟩ => ⟨S16384x8, .f32⟩
  | .hbm, ⟨45, _⟩ => ⟨S16384x8, .f32⟩
  | .hbm, ⟨46, _⟩ => ⟨S16384x8, .f32⟩
  | .hbm, ⟨47, _⟩ => ⟨S16384x8x1, .f32⟩
  | .hbm, ⟨48, _⟩ => ⟨S16384x8x1, .f32⟩
  | .hbm, ⟨49, _⟩ => ⟨S16384x8x2, .f32⟩
  | .hbm, ⟨50, _⟩ => ⟨S16384x16, .f32⟩
  | .hbm, ⟨51, _⟩ => ⟨S16384x16, .f32⟩
  | .hbm, ⟨52, _⟩ => ⟨S16384x16, .f32⟩
  | .hbm, ⟨53, _⟩ => ⟨S_, .f32⟩
  | .hbm, ⟨54, _⟩ => ⟨S16384x16, .f32⟩
  | .hbm, ⟨55, _⟩ => ⟨S16384x16, .f32⟩
  | .hbm, ⟨56, _⟩ => ⟨S16384x16, .f32⟩
  | .hbm, ⟨57, _⟩ => ⟨S16384x16x1, .f32⟩
  | .hbm, ⟨58, _⟩ => ⟨S16384x16x1, .f32⟩
  | .hbm, ⟨59, _⟩ => ⟨S16384x16x2, .f32⟩
  | .hbm, ⟨60, _⟩ => ⟨S16384x32, .f32⟩
  | .hbm, ⟨61, _⟩ => ⟨S16384x32, .f32⟩
  | .hbm, ⟨62, _⟩ => ⟨S16384x32, .f32⟩
  | .hbm, ⟨63, _⟩ => ⟨S_, .f32⟩
  | .hbm, ⟨64, _⟩ => ⟨S16384x32, .f32⟩
  | .hbm, ⟨65, _⟩ => ⟨S16384x32, .f32⟩
  | .hbm, ⟨66, _⟩ => ⟨S16384x32, .f32⟩
  | .hbm, ⟨67, _⟩ => ⟨S16384x32x1, .f32⟩
  | .hbm, ⟨68, _⟩ => ⟨S16384x32x1, .f32⟩
  | .hbm, ⟨69, _⟩ => ⟨S16384x32x2, .f32⟩
  | .hbm, ⟨70, _⟩ => ⟨S16384x64, .f32⟩
  | .hbm, ⟨71, _⟩ => ⟨S16384x64, .f32⟩
  | .hbm, ⟨72, _⟩ => ⟨S16384x64, .f32⟩
  | .hbm, ⟨73, _⟩ => ⟨S_, .f32⟩
  | .hbm, ⟨74, _⟩ => ⟨S16384x64, .f32⟩
  | .hbm, ⟨75, _⟩ => ⟨S16384x64, .f32⟩
  | .hbm, ⟨76, _⟩ => ⟨S16384x64, .f32⟩
  | .hbm, ⟨77, _⟩ => ⟨S16384x64x1, .f32⟩
  | .hbm, ⟨78, _⟩ => ⟨S16384x64x1, .f32⟩
  | .hbm, ⟨79, _⟩ => ⟨S16384x64x2, .f32⟩
  | .hbm, ⟨80, _⟩ => ⟨S16384x128, .f32⟩
  | .hbm, ⟨81, _⟩ => ⟨S16384x128, .f32⟩
  | .hbm, ⟨82, _⟩ => ⟨S16384x128, .f32⟩
  | .hbm, ⟨83, _⟩ => ⟨S_, .f32⟩
  | .hbm, ⟨84, _⟩ => ⟨S16384x128, .f32⟩
  | .hbm, ⟨85, _⟩ => ⟨S16384x128, .f32⟩
  | .hbm, ⟨86, _⟩ => ⟨S16384x128, .f32⟩
  | .hbm, ⟨87, _⟩ => ⟨S16384x128x1, .f32⟩
  | .hbm, ⟨88, _⟩ => ⟨S16384x128x1, .f32⟩
  | .hbm, ⟨89, _⟩ => ⟨S16384x128x2, .f32⟩
  | .hbm, ⟨90, _⟩ => ⟨S16384x256, .f32⟩
  | .hbm, ⟨91, _⟩ => ⟨S16384x256, .f32⟩
  | .hbm, ⟨92, _⟩ => ⟨S16384x256, .f32⟩
  | .hbm, ⟨93, _⟩ => ⟨S_, .f32⟩
  | .hbm, ⟨94, _⟩ => ⟨S16384x256, .f32⟩
  | .hbm, ⟨95, _⟩ => ⟨S16384x256, .f32⟩
  | .hbm, ⟨96, _⟩ => ⟨S16384x256, .f32⟩
  | .hbm, ⟨97, _⟩ => ⟨S16384x256x1, .f32⟩
  | .hbm, ⟨98, _⟩ => ⟨S16384x256x1, .f32⟩
  | .hbm, ⟨99, _⟩ => ⟨S16384x256x2, .f32⟩
  | .hbm, ⟨100, _⟩ => ⟨S16384x512, .f32⟩
  | .hbm, ⟨101, _⟩ => ⟨S16384x512, .f32⟩
  | .hbm, ⟨102, _⟩ => ⟨S16384x512, .f32⟩
  | .hbm, ⟨103, _⟩ => ⟨S_, .f32⟩
  | .hbm, ⟨104, _⟩ => ⟨S16384x512, .f32⟩
  | .hbm, ⟨105, _⟩ => ⟨S16384x512, .f32⟩
  | .hbm, ⟨106, _⟩ => ⟨S16384x512, .f32⟩
  | .hbm, ⟨107, _⟩ => ⟨S16384x512x1, .f32⟩
  | .hbm, ⟨108, _⟩ => ⟨S16384x512x1, .f32⟩
  | .hbm, ⟨109, _⟩ => ⟨S16384x512x2, .f32⟩
  | .hbm, ⟨110, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S2048x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_4 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_6 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_cst_7 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_cst_8 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_cst_9 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x2048_S512x2048_0_0 : ∀ a, (![0, 0] : Fin 2 → Nat) a + S512x2048.size a ≤ S512x2048.size a
  h_S512x2048 : 0 < S512x2048.numel
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  bcast_S_S16384x1 : S_.BroadcastsInDim S16384x1 (![] : Fin 0 → Fin S16384x1.rank)
  slices_S16384x1024_S16384x1_0_1 : S16384x1024.Slices ![0, 1] S16384x1
  bcast_S16384x1_S16384x1x1_0_1 : S16384x1.BroadcastsInDim S16384x1x1 (![0, 1] : Fin 2 → Fin S16384x1x1.rank)
  concatenates_S16384x1x1_S16384x1x1_S16384x1x2_d2 : Shape.Concatenates [S16384x1x1, S16384x1x1] S16384x1x2 2
  shapeCasts_S16384x1x2_S16384x2 : S16384x1x2.ShapeCasts S16384x2
  slices_S16384x1024_S16384x2_0_2 : S16384x1024.Slices ![0, 2] S16384x2
  bcast_S_S16384x2 : S_.BroadcastsInDim S16384x2 (![] : Fin 0 → Fin S16384x2.rank)
  bcast_S16384x2_S16384x2x1_0_1 : S16384x2.BroadcastsInDim S16384x2x1 (![0, 1] : Fin 2 → Fin S16384x2x1.rank)
  concatenates_S16384x2x1_S16384x2x1_S16384x2x2_d2 : Shape.Concatenates [S16384x2x1, S16384x2x1] S16384x2x2 2
  shapeCasts_S16384x2x2_S16384x4 : S16384x2x2.ShapeCasts S16384x4
  slices_S16384x1024_S16384x4_0_4 : S16384x1024.Slices ![0, 4] S16384x4
  bcast_S_S16384x4 : S_.BroadcastsInDim S16384x4 (![] : Fin 0 → Fin S16384x4.rank)
  bcast_S16384x4_S16384x4x1_0_1 : S16384x4.BroadcastsInDim S16384x4x1 (![0, 1] : Fin 2 → Fin S16384x4x1.rank)
  concatenates_S16384x4x1_S16384x4x1_S16384x4x2_d2 : Shape.Concatenates [S16384x4x1, S16384x4x1] S16384x4x2 2
  shapeCasts_S16384x4x2_S16384x8 : S16384x4x2.ShapeCasts S16384x8
  slices_S16384x1024_S16384x8_0_8 : S16384x1024.Slices ![0, 8] S16384x8
  bcast_S_S16384x8 : S_.BroadcastsInDim S16384x8 (![] : Fin 0 → Fin S16384x8.rank)
  bcast_S16384x8_S16384x8x1_0_1 : S16384x8.BroadcastsInDim S16384x8x1 (![0, 1] : Fin 2 → Fin S16384x8x1.rank)
  concatenates_S16384x8x1_S16384x8x1_S16384x8x2_d2 : Shape.Concatenates [S16384x8x1, S16384x8x1] S16384x8x2 2
  shapeCasts_S16384x8x2_S16384x16 : S16384x8x2.ShapeCasts S16384x16
  slices_S16384x1024_S16384x16_0_16 : S16384x1024.Slices ![0, 16] S16384x16
  bcast_S_S16384x16 : S_.BroadcastsInDim S16384x16 (![] : Fin 0 → Fin S16384x16.rank)
  bcast_S16384x16_S16384x16x1_0_1 : S16384x16.BroadcastsInDim S16384x16x1 (![0, 1] : Fin 2 → Fin S16384x16x1.rank)
  concatenates_S16384x16x1_S16384x16x1_S16384x16x2_d2 : Shape.Concatenates [S16384x16x1, S16384x16x1] S16384x16x2 2
  shapeCasts_S16384x16x2_S16384x32 : S16384x16x2.ShapeCasts S16384x32
  slices_S16384x1024_S16384x32_0_32 : S16384x1024.Slices ![0, 32] S16384x32
  bcast_S_S16384x32 : S_.BroadcastsInDim S16384x32 (![] : Fin 0 → Fin S16384x32.rank)
  bcast_S16384x32_S16384x32x1_0_1 : S16384x32.BroadcastsInDim S16384x32x1 (![0, 1] : Fin 2 → Fin S16384x32x1.rank)
  concatenates_S16384x32x1_S16384x32x1_S16384x32x2_d2 : Shape.Concatenates [S16384x32x1, S16384x32x1] S16384x32x2 2
  shapeCasts_S16384x32x2_S16384x64 : S16384x32x2.ShapeCasts S16384x64
  slices_S16384x1024_S16384x64_0_64 : S16384x1024.Slices ![0, 64] S16384x64
  bcast_S_S16384x64 : S_.BroadcastsInDim S16384x64 (![] : Fin 0 → Fin S16384x64.rank)
  bcast_S16384x64_S16384x64x1_0_1 : S16384x64.BroadcastsInDim S16384x64x1 (![0, 1] : Fin 2 → Fin S16384x64x1.rank)
  concatenates_S16384x64x1_S16384x64x1_S16384x64x2_d2 : Shape.Concatenates [S16384x64x1, S16384x64x1] S16384x64x2 2
  shapeCasts_S16384x64x2_S16384x128 : S16384x64x2.ShapeCasts S16384x128
  slices_S16384x1024_S16384x128_0_128 : S16384x1024.Slices ![0, 128] S16384x128
  bcast_S_S16384x128 : S_.BroadcastsInDim S16384x128 (![] : Fin 0 → Fin S16384x128.rank)
  bcast_S16384x128_S16384x128x1_0_1 : S16384x128.BroadcastsInDim S16384x128x1 (![0, 1] : Fin 2 → Fin S16384x128x1.rank)
  concatenates_S16384x128x1_S16384x128x1_S16384x128x2_d2 : Shape.Concatenates [S16384x128x1, S16384x128x1] S16384x128x2 2
  shapeCasts_S16384x128x2_S16384x256 : S16384x128x2.ShapeCasts S16384x256
  slices_S16384x1024_S16384x256_0_256 : S16384x1024.Slices ![0, 256] S16384x256
  bcast_S_S16384x256 : S_.BroadcastsInDim S16384x256 (![] : Fin 0 → Fin S16384x256.rank)
  bcast_S16384x256_S16384x256x1_0_1 : S16384x256.BroadcastsInDim S16384x256x1 (![0, 1] : Fin 2 → Fin S16384x256x1.rank)
  concatenates_S16384x256x1_S16384x256x1_S16384x256x2_d2 : Shape.Concatenates [S16384x256x1, S16384x256x1] S16384x256x2 2
  shapeCasts_S16384x256x2_S16384x512 : S16384x256x2.ShapeCasts S16384x512
  slices_S16384x1024_S16384x512_0_512 : S16384x1024.Slices ![0, 512] S16384x512
  bcast_S_S16384x512 : S_.BroadcastsInDim S16384x512 (![] : Fin 0 → Fin S16384x512.rank)
  bcast_S16384x512_S16384x512x1_0_1 : S16384x512.BroadcastsInDim S16384x512x1 (![0, 1] : Fin 2 → Fin S16384x512x1.rank)
  concatenates_S16384x512x1_S16384x512x1_S16384x512x2_d2 : Shape.Concatenates [S16384x512x1, S16384x512x1] S16384x512x2 2
  shapeCasts_S16384x512x2_S16384x1024 : S16384x512x2.ShapeCasts S16384x1024
  dot_S2048x1024_S1024x1024_S2048x1024_1_0_0_1_n_n_wf : DotDims.WF S2048x1024 S1024x1024 S2048x1024 [1] [0] [0] [1] [] []
  dot_S512x2048_S2048x1024_S512x1024_1_0_0_1_n_n_wf : DotDims.WF S512x2048 S2048x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x1024.size a
  hwx0_3 : ∀ i : grid0.Coords, EltTy.bits .f32 = 32 ∨ (Rect.block (s := S16384x1024) S512x1024.size (cc0_transform_3 i) (hinb0_3 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S512x2048_S2048x1024_S512x1024_1_0_0_1_n_n : DotDims S512x2048 S2048x1024 S512x1024 where
  lhsContracting := [1]
  rhsContracting := [0]
  lhsNonContracting := [0]
  rhsNonContracting := [1]
  lhsBatch := []
  rhsBatch := []
  wf := dot_S512x2048_S2048x1024_S512x1024_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S2048x1024 : Shape := ⟨2, ![2048, 1024]⟩
abbrev S1024x1024 : Shape := ⟨2, ![1024, 1024]⟩
abbrev S1024 : Shape := ⟨1, ![1024]⟩
abbrev S16384x1024 : Shape := ⟨2, ![16384, 1024]⟩
abbrev S1x1024 : Shape := ⟨2, ![1, 1024]⟩
abbrev S_ : Shape := ⟨0, ![]⟩
abbrev S16384x1024x1 : Shape := ⟨3, ![16384, 1024, 1]⟩
abbrev S16384x1024x2 : Shape := ⟨3, ![16384, 1024, 2]⟩
abbrev S16384x1x1 : Shape := ⟨3, ![16384, 1, 1]⟩
abbrev S16384x1x1x2 : Shape := ⟨4, ![16384, 1, 1, 2]⟩
abbrev S16384x1x2 : Shape := ⟨3, ![16384, 1, 2]⟩
abbrev S16384x2x1 : Shape := ⟨3, ![16384, 2, 1]⟩
abbrev S16384x2x1x2 : Shape := ⟨4, ![16384, 2, 1, 2]⟩
abbrev S16384x2x2 : Shape := ⟨3, ![16384, 2, 2]⟩
abbrev S16384x4x1 : Shape := ⟨3, ![16384, 4, 1]⟩
abbrev S16384x4x1x2 : Shape := ⟨4, ![16384, 4, 1, 2]⟩
abbrev S16384x4x2 : Shape := ⟨3, ![16384, 4, 2]⟩
abbrev S16384x8x1 : Shape := ⟨3, ![16384, 8, 1]⟩
abbrev S16384x8x1x2 : Shape := ⟨4, ![16384, 8, 1, 2]⟩
abbrev S16384x8x2 : Shape := ⟨3, ![16384, 8, 2]⟩
abbrev S16384x16x1 : Shape := ⟨3, ![16384, 16, 1]⟩
abbrev S16384x16x1x2 : Shape := ⟨4, ![16384, 16, 1, 2]⟩
abbrev S16384x16x2 : Shape := ⟨3, ![16384, 16, 2]⟩
abbrev S16384x32x1 : Shape := ⟨3, ![16384, 32, 1]⟩
abbrev S16384x32x1x2 : Shape := ⟨4, ![16384, 32, 1, 2]⟩
abbrev S16384x32x2 : Shape := ⟨3, ![16384, 32, 2]⟩
abbrev S16384x64x1 : Shape := ⟨3, ![16384, 64, 1]⟩
abbrev S16384x64x1x2 : Shape := ⟨4, ![16384, 64, 1, 2]⟩
abbrev S16384x64x2 : Shape := ⟨3, ![16384, 64, 2]⟩
abbrev S16384x128x1 : Shape := ⟨3, ![16384, 128, 1]⟩
abbrev S16384x128x1x2 : Shape := ⟨4, ![16384, 128, 1, 2]⟩
abbrev S16384x128x2 : Shape := ⟨3, ![16384, 128, 2]⟩
abbrev S16384x256x1 : Shape := ⟨3, ![16384, 256, 1]⟩
abbrev S16384x256x1x2 : Shape := ⟨4, ![16384, 256, 1, 2]⟩
abbrev S16384x256x2 : Shape := ⟨3, ![16384, 256, 2]⟩
abbrev S16384x512x1 : Shape := ⟨3, ![16384, 512, 1]⟩
abbrev S16384x512x1x2 : Shape := ⟨4, ![16384, 512, 1, 2]⟩
abbrev S16384x512x2 : Shape := ⟨3, ![16384, 512, 2]⟩

abbrev nBuf : Space → Nat
  | .hbm => 76
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x1024, .f32⟩
  | .hbm, ⟨2, _⟩ => ⟨S1024x1024, .f32⟩
  | .hbm, ⟨3, _⟩ => ⟨S1024, .f32⟩
  | .hbm, ⟨4, _⟩ => ⟨S16384x1024, .f32⟩
  | .hbm, ⟨5, _⟩ => ⟨S1024x1024, .f32⟩
  | .hbm, ⟨6, _⟩ => ⟨S16384x1024, .f32⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024x1, .f32⟩
  | .hbm, ⟨22, _⟩ => ⟨S16384x1024x1, .f32⟩
  | .hbm, ⟨23, _⟩ => ⟨S16384x1024x2, .f32⟩
  | .hbm, ⟨24, _⟩ => ⟨S_, .f32⟩
  | .hbm, ⟨25, _⟩ => ⟨S16384x1x1, .f32⟩
  | .hbm, ⟨26, _⟩ => ⟨S16384x1x1x2, .f32⟩
  | .hbm, ⟨27, _⟩ => ⟨S16384x1x2, .f32⟩
  | .hbm, ⟨28, _⟩ => ⟨S16384x1x2, .f32⟩
  | .hbm, ⟨29, _⟩ => ⟨S16384x1x2, .f32⟩
  | .hbm, ⟨30, _⟩ => ⟨S16384x2x1, .f32⟩
  | .hbm, ⟨31, _⟩ => ⟨S16384x2x1x2, .f32⟩
  | .hbm, ⟨32, _⟩ => ⟨S16384x2x2, .f32⟩
  | .hbm, ⟨33, _⟩ => ⟨S16384x2x2, .f32⟩
  | .hbm, ⟨34, _⟩ => ⟨S16384x2x2, .f32⟩
  | .hbm, ⟨35, _⟩ => ⟨S16384x4x1, .f32⟩
  | .hbm, ⟨36, _⟩ => ⟨S16384x4x1x2, .f32⟩
  | .hbm, ⟨37, _⟩ => ⟨S16384x4x2, .f32⟩
  | .hbm, ⟨38, _⟩ => ⟨S16384x4x2, .f32⟩
  | .hbm, ⟨39, _⟩ => ⟨S16384x4x2, .f32⟩
  | .hbm, ⟨40, _⟩ => ⟨S16384x8x1, .f32⟩
  | .hbm, ⟨41, _⟩ => ⟨S16384x8x1x2, .f32⟩
  | .hbm, ⟨42, _⟩ => ⟨S16384x8x2, .f32⟩
  | .hbm, ⟨43, _⟩ => ⟨S16384x8x2, .f32⟩
  | .hbm, ⟨44, _⟩ => ⟨S16384x8x2, .f32⟩
  | .hbm, ⟨45, _⟩ => ⟨S16384x16x1, .f32⟩
  | .hbm, ⟨46, _⟩ => ⟨S16384x16x1x2, .f32⟩
  | .hbm, ⟨47, _⟩ => ⟨S16384x16x2, .f32⟩
  | .hbm, ⟨48, _⟩ => ⟨S16384x16x2, .f32⟩
  | .hbm, ⟨49, _⟩ => ⟨S16384x16x2, .f32⟩
  | .hbm, ⟨50, _⟩ => ⟨S16384x32x1, .f32⟩
  | .hbm, ⟨51, _⟩ => ⟨S16384x32x1x2, .f32⟩
  | .hbm, ⟨52, _⟩ => ⟨S16384x32x2, .f32⟩
  | .hbm, ⟨53, _⟩ => ⟨S16384x32x2, .f32⟩
  | .hbm, ⟨54, _⟩ => ⟨S16384x32x2, .f32⟩
  | .hbm, ⟨55, _⟩ => ⟨S16384x64x1, .f32⟩
  | .hbm, ⟨56, _⟩ => ⟨S16384x64x1x2, .f32⟩
  | .hbm, ⟨57, _⟩ => ⟨S16384x64x2, .f32⟩
  | .hbm, ⟨58, _⟩ => ⟨S16384x64x2, .f32⟩
  | .hbm, ⟨59, _⟩ => ⟨S16384x64x2, .f32⟩
  | .hbm, ⟨60, _⟩ => ⟨S16384x128x1, .f32⟩
  | .hbm, ⟨61, _⟩ => ⟨S16384x128x1x2, .f32⟩
  | .hbm, ⟨62, _⟩ => ⟨S16384x128x2, .f32⟩
  | .hbm, ⟨63, _⟩ => ⟨S16384x128x2, .f32⟩
  | .hbm, ⟨64, _⟩ => ⟨S16384x128x2, .f32⟩
  | .hbm, ⟨65, _⟩ => ⟨S16384x256x1, .f32⟩
  | .hbm, ⟨66, _⟩ => ⟨S16384x256x1x2, .f32⟩
  | .hbm, ⟨67, _⟩ => ⟨S16384x256x2, .f32⟩
  | .hbm, ⟨68, _⟩ => ⟨S16384x256x2, .f32⟩
  | .hbm, ⟨69, _⟩ => ⟨S16384x256x2, .f32⟩
  | .hbm, ⟨70, _⟩ => ⟨S16384x512x1, .f32⟩
  | .hbm, ⟨71, _⟩ => ⟨S16384x512x1x2, .f32⟩
  | .hbm, ⟨72, _⟩ => ⟨S16384x512x2, .f32⟩
  | .hbm, ⟨73, _⟩ => ⟨S16384x512x2, .f32⟩
  | .hbm, ⟨74, _⟩ => ⟨S16384x512x2, .f32⟩
  | .hbm, ⟨75, _⟩ => ⟨S16384x1024, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩

abbrev nD : Nat := 1
abbrev τ : Topo := Topo.v7x

variable {F : FTy → Type} [FloatOps F]

class Facts₀ : Prop where
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S16384x1024_S16384x1024x1_0_1 : S16384x1024.BroadcastsInDim S16384x1024x1 (![0, 1] : Fin 2 → Fin S16384x1024x1.rank)
  concatenates_S16384x1024x1_S16384x1024x1_S16384x1024x2_d2 : Shape.Concatenates [S16384x1024x1, S16384x1024x1] S16384x1024x2 2
  bcast_S_S16384x1x1 : S_.BroadcastsInDim S16384x1x1 (![] : Fin 0 → Fin S16384x1x1.rank)
  bcast_S16384x1x1_S16384x1x1x2_0_1_2 : S16384x1x1.BroadcastsInDim S16384x1x1x2 (![0, 1, 2] : Fin 3 → Fin S16384x1x1x2.rank)
  shapeCasts_S16384x1x1x2_S16384x1x2 : S16384x1x1x2.ShapeCasts S16384x1x2
  slices_S16384x1024x2_S16384x1x2_0_1_0 : S16384x1024x2.Slices ![0, 1, 0] S16384x1x2
  shapeCasts_S16384x1x2_S16384x2x1 : S16384x1x2.ShapeCasts S16384x2x1
  bcast_S16384x2x1_S16384x2x1x2_0_1_2 : S16384x2x1.BroadcastsInDim S16384x2x1x2 (![0, 1, 2] : Fin 3 → Fin S16384x2x1x2.rank)
  shapeCasts_S16384x2x1x2_S16384x2x2 : S16384x2x1x2.ShapeCasts S16384x2x2
  slices_S16384x1024x2_S16384x2x2_0_2_0 : S16384x1024x2.Slices ![0, 2, 0] S16384x2x2
  shapeCasts_S16384x2x2_S16384x4x1 : S16384x2x2.ShapeCasts S16384x4x1
  bcast_S16384x4x1_S16384x4x1x2_0_1_2 : S16384x4x1.BroadcastsInDim S16384x4x1x2 (![0, 1, 2] : Fin 3 → Fin S16384x4x1x2.rank)
  shapeCasts_S16384x4x1x2_S16384x4x2 : S16384x4x1x2.ShapeCasts S16384x4x2
  slices_S16384x1024x2_S16384x4x2_0_4_0 : S16384x1024x2.Slices ![0, 4, 0] S16384x4x2
  shapeCasts_S16384x4x2_S16384x8x1 : S16384x4x2.ShapeCasts S16384x8x1
  bcast_S16384x8x1_S16384x8x1x2_0_1_2 : S16384x8x1.BroadcastsInDim S16384x8x1x2 (![0, 1, 2] : Fin 3 → Fin S16384x8x1x2.rank)
  shapeCasts_S16384x8x1x2_S16384x8x2 : S16384x8x1x2.ShapeCasts S16384x8x2
  slices_S16384x1024x2_S16384x8x2_0_8_0 : S16384x1024x2.Slices ![0, 8, 0] S16384x8x2
  shapeCasts_S16384x8x2_S16384x16x1 : S16384x8x2.ShapeCasts S16384x16x1
  bcast_S16384x16x1_S16384x16x1x2_0_1_2 : S16384x16x1.BroadcastsInDim S16384x16x1x2 (![0, 1, 2] : Fin 3 → Fin S16384x16x1x2.rank)
  shapeCasts_S16384x16x1x2_S16384x16x2 : S16384x16x1x2.ShapeCasts S16384x16x2
  slices_S16384x1024x2_S16384x16x2_0_16_0 : S16384x1024x2.Slices ![0, 16, 0] S16384x16x2
  shapeCasts_S16384x16x2_S16384x32x1 : S16384x16x2.ShapeCasts S16384x32x1
  bcast_S16384x32x1_S16384x32x1x2_0_1_2 : S16384x32x1.BroadcastsInDim S16384x32x1x2 (![0, 1, 2] : Fin 3 → Fin S16384x32x1x2.rank)
  shapeCasts_S16384x32x1x2_S16384x32x2 : S16384x32x1x2.ShapeCasts S16384x32x2
  slices_S16384x1024x2_S16384x32x2_0_32_0 : S16384x1024x2.Slices ![0, 32, 0] S16384x32x2
  shapeCasts_S16384x32x2_S16384x64x1 : S16384x32x2.ShapeCasts S16384x64x1
  bcast_S16384x64x1_S16384x64x1x2_0_1_2 : S16384x64x1.BroadcastsInDim S16384x64x1x2 (![0, 1, 2] : Fin 3 → Fin S16384x64x1x2.rank)
  shapeCasts_S16384x64x1x2_S16384x64x2 : S16384x64x1x2.ShapeCasts S16384x64x2
  slices_S16384x1024x2_S16384x64x2_0_64_0 : S16384x1024x2.Slices ![0, 64, 0] S16384x64x2
  shapeCasts_S16384x64x2_S16384x128x1 : S16384x64x2.ShapeCasts S16384x128x1
  bcast_S16384x128x1_S16384x128x1x2_0_1_2 : S16384x128x1.BroadcastsInDim S16384x128x1x2 (![0, 1, 2] : Fin 3 → Fin S16384x128x1x2.rank)
  shapeCasts_S16384x128x1x2_S16384x128x2 : S16384x128x1x2.ShapeCasts S16384x128x2
  slices_S16384x1024x2_S16384x128x2_0_128_0 : S16384x1024x2.Slices ![0, 128, 0] S16384x128x2
  shapeCasts_S16384x128x2_S16384x256x1 : S16384x128x2.ShapeCasts S16384x256x1
  bcast_S16384x256x1_S16384x256x1x2_0_1_2 : S16384x256x1.BroadcastsInDim S16384x256x1x2 (![0, 1, 2] : Fin 3 → Fin S16384x256x1x2.rank)
  shapeCasts_S16384x256x1x2_S16384x256x2 : S16384x256x1x2.ShapeCasts S16384x256x2
  slices_S16384x1024x2_S16384x256x2_0_256_0 : S16384x1024x2.Slices ![0, 256, 0] S16384x256x2
  shapeCasts_S16384x256x2_S16384x512x1 : S16384x256x2.ShapeCasts S16384x512x1
  bcast_S16384x512x1_S16384x512x1x2_0_1_2 : S16384x512x1.BroadcastsInDim S16384x512x1x2 (![0, 1, 2] : Fin 3 → Fin S16384x512x1x2.rank)
  shapeCasts_S16384x512x1x2_S16384x512x2 : S16384x512x1x2.ShapeCasts S16384x512x2
  slices_S16384x1024x2_S16384x512x2_0_512_0 : S16384x1024x2.Slices ![0, 512, 0] S16384x512x2
  shapeCasts_S16384x512x2_S16384x1024 : S16384x512x2.ShapeCasts S16384x1024
  dot_S16384x2048_S2048x1024_S16384x1024_1_0_0_1_n_n_wf : DotDims.WF S16384x2048 S2048x1024 S16384x1024 [1] [0] [0] [1] [] []
  dot_S16384x1024_S1024x1024_S16384x1024_1_0_0_1_n_n_wf : DotDims.WF S16384x1024 S1024x1024 S16384x1024 [1] [0] [0] [1] [] []

variable [Facts₀]

def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.Spec.lean ====
/-
  The routing weights of a depth-10 soft decision tree, as one function of the decision probabilities.

  A row `b` of decision probabilities `d b k` (k = 1 … 1023, node k's probability of going left) gives each node of
  the tree the product of the branch probabilities along its path from the root: at level `n` the `2^n` nodes
  `j = 0 … 2^n - 1` carry `route d n b j`; node `j` of level `n + 1` is child `j % 2` of node `j / 2` of level `n`,
  whose decision probability is entry `2^n + j / 2`: the left child takes that probability, the right child one minus
  it, each multiplied on the right of the parent's weight. Level 10 is the 1024 leaf probabilities.

  Arrays of literal shapes are tied to this function by `Reads2` / `Reads3`: the array at coordinates is the function
  at the coordinates' values.
-/
import Idealize.ShloMosaic.PureOps.Ideal
import Idealize.ShloMosaic.Lib.ValueIdx

noncomputable section

namespace Cert.Route

open Idealize.ShloMosaic Idealize.ShloMosaic.ValueIdx

/-- The f32 word of 1.0, read at the ideal instance (the same word on both sides: never evaluated). -/
def one : EReal := Ideal.ofBits .f32 0x3F800000#32

/-- The weight of node `j` of level `n` in row `b`: the parent's weight times this node's branch probability. -/
def route (d : ℕ → ℕ → EReal) : ℕ → ℕ → ℕ → EReal
  | 0, _, _ => one
  | n + 1, b, j => route d n b (j / 2) * (if j % 2 = 0 then d b (2 ^ n + j / 2) else one - d b (2 ^ n + j / 2))

theorem route_zero (d : ℕ → ℕ → EReal) (b j : ℕ) : route d 0 b j = one := rfl

theorem route_succ (d : ℕ → ℕ → EReal) (n b j : ℕ) :
    route d (n + 1) b j = route d n b (j / 2) * (if j % 2 = 0 then d b (2 ^ n + j / 2) else one - d b (2 ^ n + j / 2)) := rfl

/-- A rank-2 array as a function of two naturals (zero outside the array). -/
def nat2 {n0 n1 : ℕ} (D : (⟨2, ![n0, n1]⟩ : Shape).Idx → EReal) (b k : ℕ) : EReal :=
  if h : b < n0 ∧ k < n1 then D (ix2 ⟨b, h.1⟩ ⟨k, h.2⟩) else 0

theorem nat2_of_lt {n0 n1 : ℕ} (D : (⟨2, ![n0, n1]⟩ : Shape).Idx → EReal) (b : Fin n0) (k : ℕ) (hk : k < n1) :
    nat2 D b.val k = D (ix2 b ⟨k, hk⟩) := by
  unfold nat2
  rw [dif_pos ⟨b.isLt, hk⟩]

/-- The rank-2 array `A` holds `f` at its coordinates' values. -/
def Reads2 {n0 n1 : ℕ} (A : (⟨2, ![n0, n1]⟩ : Shape).Idx → EReal) (f : ℕ → ℕ → EReal) : Prop :=
  ∀ (b : Fin n0) (j : Fin n1), A (ix2 b j) = f b.val j.val

/-- The rank-3 array `A` holds `f` at its coordinates' values. -/
def Reads3 {n0 n1 n2 : ℕ} (A : (⟨3, ![n0, n1, n2]⟩ : Shape).Idx → EReal) (f : ℕ → ℕ → ℕ → EReal) : Prop :=
  ∀ (b : Fin n0) (j : Fin n1) (s : Fin n2), A (ix3 b j s) = f b.val j.val s.val

/-- Two arrays of one shape that hold the same function are equal. -/
theorem eq_of_reads2 {n0 n1 : ℕ} {A B : (⟨2, ![n0, n1]⟩ : Shape).Idx → EReal} {f : ℕ → ℕ → EReal}
    (hA : Reads2 A f) (hB : Reads2 B f) : A = B := by
  funext j
  rw [eq_ix2 j]
  exact (hA (j 0) (j 1)).trans (hB (j 0) (j 1)).symm

/-- The weights depend on the decision probabilities only through the entries inside the array. -/
theorem route_congr {d d' : ℕ → ℕ → EReal} (b : ℕ) (h : ∀ k, k < 1024 → d b k = d' b k) :
    ∀ (n : ℕ), n ≤ 10 → ∀ j, j < 2 ^ n → route d n b j = route d' n b j
  | 0, _, _, _ => rfl
  | n + 1, hn, j, hj => by
    have hj2 : j / 2 < 2 ^ n := by
      rw [Nat.div_lt_iff_lt_mul (by norm_num)]; rw [pow_succ] at hj; exact hj
    have hk : 2 ^ n + j / 2 < 1024 := by
      have : 2 ^ n * 2 ≤ 1024 := by
        calc 2 ^ n * 2 = 2 ^ (n + 1) := (pow_succ 2 n).symm
          _ ≤ 2 ^ 10 := Nat.pow_le_pow_right (by norm_num) hn
          _ = 1024 := by norm_num
      omega
    rw [route_succ, route_succ, route_congr b h n (by omega) _ hj2, h _ hk]

end Cert.Route

end
-- ==== Proof.LibMatAssoc.lean ====
import Idealize.ShloMosaic.PureOps.Ideal
import Mathlib.Data.EReal.Basic
import Mathlib.Data.EReal.Operations
import Mathlib.Algebra.BigOperators.Ring.Finset
import Mathlib.Algebra.BigOperators.Group.Finset.Basic
import Mathlib.Tactic.Ring

/-!
# Associativity of a triple product on finite extended reals

For one output entry of a product of three matrices, the two ways of
bracketing agree:

  ∑ₖ xₖ · (∑ⱼ fₖⱼ · wⱼ)  =  ∑ⱼ (∑ₖ xₖ · fₖⱼ) · wⱼ.

On the extended reals this needs every entry to be finite: multiplication does
not distribute over addition once `⊤` and `⊥` may both appear (for example
`⊤ * (1 + (-1)) = 0` but `⊤ * 1 + ⊤ * (-1) = ⊤ + ⊥ = ⊥`).  With all entries
real, both sides are the coercion of the same real double sum
`∑ₖ ∑ⱼ xₖ · fₖⱼ · wⱼ`, and the identity is the usual one in a commutative
ring.
-/

open scoped BigOperators

namespace Cert.Algebra

/-- An extended real that is neither `⊤` nor `⊥` is the coercion of a real
number, namely of its real part. -/
theorem exists_real_of_ne {x : EReal} (h1 : x ≠ ⊤) (h2 : x ≠ ⊥) :
    ∃ r : ℝ, x = (r : EReal) :=
  ⟨x.toReal, (EReal.coe_toReal h1 h2).symm⟩

/-- The coercion `ℝ → EReal` commutes with finite sums: it sends `0` to `0`
and is additive, so this is an induction on the index set. -/
theorem coe_finset_sum {ι : Type*} (s : Finset ι) (g : ι → ℝ) :
    ((∑ i ∈ s, g i : ℝ) : EReal) = ∑ i ∈ s, (g i : EReal) := by
  classical
  induction s using Finset.induction_on with
  | empty => simp
  | insert a s ha ih =>
    rw [Finset.sum_insert ha, Finset.sum_insert ha, EReal.coe_add, ih]

/-- The coercion `ℝ → EReal` commutes with sums over a finite type. -/
theorem coe_sum {ι : Type*} [Fintype ι] (g : ι → ℝ) :
    ((∑ i, g i : ℝ) : EReal) = ∑ i, (g i : EReal) :=
  coe_finset_sum Finset.univ g

/-- The same identity over the reals: both sides expand to the double sum
`∑ₖ ∑ⱼ xₖ · fₖⱼ · wⱼ`, after exchanging the order of summation. -/
theorem real_sum_mul_sum_assoc {K J : Type*} [Fintype K] [Fintype J]
    (x : K → ℝ) (f : K → J → ℝ) (w : J → ℝ) :
    ∑ k, x k * ∑ j, f k j * w j = ∑ j, (∑ k, x k * f k j) * w j := by
  simp_rw [Finset.mul_sum, Finset.sum_mul]
  rw [Finset.sum_comm]
  refine Finset.sum_congr rfl fun j _ => Finset.sum_congr rfl fun k _ => ?_
  ring

/-- Associativity of a triple matrix product, for one output entry, on
extended reals all of whose entries are finite.  Each entry is replaced by
the coercion of a real number; products and finite sums of coercions are
coercions of the real products and sums; and the identity then holds in `ℝ`. -/
theorem sum_mul_sum_assoc {K J : Type*} [Fintype K] [Fintype J]
    (x : K → EReal) (f : K → J → EReal) (w : J → EReal)
    (hx : ∀ k, ∃ r : ℝ, x k = (r : EReal))
    (hf : ∀ k j, ∃ r : ℝ, f k j = (r : EReal))
    (hw : ∀ j, ∃ r : ℝ, w j = (r : EReal)) :
    ∑ k, x k * ∑ j, f k j * w j = ∑ j, (∑ k, x k * f k j) * w j := by
  choose xr hxr using hx
  choose fr hfr using hf
  choose wr hwr using hw
  have ex : x = fun k => (xr k : EReal) := funext hxr
  have ef : f = fun k j => (fr k j : EReal) := funext fun k => funext fun j => hfr k j
  have ew : w = fun j => (wr j : EReal) := funext hwr
  subst ex ef ew
  simp only [← EReal.coe_mul, ← coe_sum]
  exact congrArg _ (real_sum_mul_sum_assoc xr fr wr)

end Cert.Algebra
-- ==== Proof.Finite.lean ====
import proofs.«168763_j2963527434844_2_alg».proof.Pre_finite_inputs
import proofs.«168763_j2963527434844_2_alg».proof.Proof.Gen.Pre_finite_inputs
import Idealize.ShloMosaic.PureOps.Ideal
import Idealize.ShloMosaic.Lib.ReduceAll
import Idealize.ShloMosaic.Lib.ValueIdx
import Mathlib.Data.EReal.Basic
import Mathlib.Data.EReal.Operations

/-!
# The finiteness precondition, read back

The precondition is the conjunction, over the four input arrays, of
"every entry has absolute value strictly below `+∞`".  On extended reals the
absolute value of `x` is `max x (-x)`, and the comparison is the strict order.
If `max x (-x) < c` for any bound `c` whatsoever, then `x < c ≤ ⊤` rules out
`x = ⊤`, and `-x < c ≤ ⊤` rules out `-x = ⊤`, that is `x = ⊥`; so `x` is a
real number.  The value of the bound plays no part.

A conjunction of one-bit words is `1` exactly when both words are, and an
`and`-reduction over all axes that yields `1` met a `1` at every entry; so
the precondition being `1` gives the strict inequality at every entry of
every input.
-/

open Idealize.ShloMosaic

namespace Cert.Finite

open Cert.Pre_finite_inputs

/-- The scalar shape has exactly one index: there is no axis to give a
coordinate on. -/
instance subsingleton_scalar_idx : Subsingleton S_.Idx :=
  ⟨fun _ _ => funext fun d => d.elim0⟩

/-- An extended real whose absolute value `max x (-x)` lies strictly below
some bound is a real number: it is below `⊤`, and so is its negation. -/
theorem exists_real_of_abs_lt {x c : EReal} (h : max x (-x) < c) : ∃ r : ℝ, x = (r : EReal) := by
  have h1 : x ≠ ⊤ := ne_top_of_lt (lt_of_le_of_lt (le_max_left _ _) h)
  have h2 : -x ≠ ⊤ := ne_top_of_lt (lt_of_le_of_lt (le_max_right _ _) h)
  have h3 : x ≠ ⊥ := fun e => h2 (by rw [e, EReal.neg_bot])
  exact ⟨x.toReal, (EReal.coe_toReal h1 h3).symm⟩

/-- The one-bit word of a decided proposition is `1` only if the proposition
holds. -/
theorem of_ofBool_decide_eq_one {p : Prop} [Decidable p] (h : BitVec.ofBool (decide p) = 1#1) : p := by
  by_contra hp
  rw [decide_eq_false hp] at h
  exact absurd h (by decide)

/-- A conjunction of two one-bit scalars that is `1` has both conjuncts `1`. -/
theorem andi_apply_eq_one {s : Shape} (a b : IVec s 1) (i : s.Idx) (h : andi a b i = 1#1) :
    a i = 1#1 ∧ b i = 1#1 :=
  IntOp.andi_eq_one.1 h

/-- `all (|x| < c)` over every axis of an array of extended reals, when it is
`1`, makes every entry of `x` a real number. -/
theorem real_of_all_abs_lt {s u : Shape} {axes : List (Fin s.rank)} (x c : FVec Ideal s .f32)
    (init : IVec u 1) (hr : s.ReducesTo axes S_) (hu : 0 < u.numel)
    (e : Host.reduce IntOp.andi (cmpf .olt (Host.absf x) c) init hr hu ValueIdx.ix0 = 1#1) :
    ∀ i, ∃ r : ℝ, x i = (r : EReal) := by
  intro i
  have hi : cmpf .olt (Host.absf x) c i = 1#1 :=
    Host.reduce_andi_all (cmpf .olt (Host.absf x) c) init hr hu ValueIdx.ix0 e i
  have hlt : max (x i) (-(x i)) < c i := of_ofBool_decide_eq_one hi
  exact exists_real_of_abs_lt hlt

/-- The finiteness precondition being `1` makes every entry of each of the
four inputs a real number. -/
theorem finite_of_pre (x : FVec Ideal S16384x2048 .f32) (fm : FVec Ideal S2048x1024 .f32)
    (W : FVec Ideal S1024x1024 .f32) (b : FVec Ideal S1024 .f32)
    (h : Cert.Pre_finite_inputs.fn (F := Ideal) x fm W b = fun _ => 1#1) :
    (∀ i, ∃ r : ℝ, x i = (r : EReal)) ∧ (∀ i, ∃ r : ℝ, fm i = (r : EReal)) ∧
      (∀ i, ∃ r : ℝ, W i = (r : EReal)) ∧ (∀ i, ∃ r : ℝ, b i = (r : EReal)) := by
  have h0 := congrFun h ValueIdx.ix0
  dsimp only [Cert.Pre_finite_inputs.fn, Cert.Pre_finite_inputs.fn_part1] at h0
  obtain ⟨h123, h4⟩ := andi_apply_eq_one _ _ _ h0
  obtain ⟨h12, h3⟩ := andi_apply_eq_one _ _ _ h123
  obtain ⟨h1, h2⟩ := andi_apply_eq_one _ _ _ h12
  exact ⟨real_of_all_abs_lt _ _ _ _ _ h1, real_of_all_abs_lt _ _ _ _ _ h2,
    real_of_all_abs_lt _ _ _ _ _ h3, real_of_all_abs_lt _ _ _ _ _ h4⟩

end Cert.Finite
-- ==== Proof.FrameBits.lean ====
/-
  The run of `Kernel`'s @main, at any float instance: four host operations (the folded weight
  `feature_mask · Wᵀ`, its change of format, the bias as a row), the one pallas_call over 32 row tiles, and the 102
  host operations of the ten routing levels.

  The kernel body at a tile loads the tile of `x` (512 rows), the whole folded weight and the bias row, and stores one
  value, `pay` of the three, over its whole output tile; it keeps nothing between tiles. So after the body the output's
  staging buffer holds `outTile` of the three input blocks, each input's buffer still holds its block, and the launch
  theorem for a region followed by host lines gives the run: it terminates without a fault, the decision array ends
  as the tiles written back, every other buffer as the later lines leave it — the four argument arrays, which no
  line writes, as launched.
-/
import proofs.«168763_j2963527434844_2_alg».proof.Proof.Gen.Kernel.Launch
import proofs.«168763_j2963527434844_2_alg».proof.Proof.Gen.Kernel.Skeleton
import proofs.«168763_j2963527434844_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The TensorCore buffers of core `c` after the four host operations before the region. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- No host operation allocates. -/
theorem pre_fresh : (hostOps0 : List (HloOp τ sig (Elt F))).Forall fun op => op.fresh = ∅ := by
  simp only [List.Forall]; repeat' constructor
set_option maxHeartbeats 40000000 in
theorem tail_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 40000000 in
/-- @main is the four lines, the region, and the 102 later lines as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-- An operation that writes exactly the buffer `y`, of index at least `n` among the core's buffers, writes no buffer of smaller index. -/
theorem writes_idx {op : HloOp τ sig (Elt F)} {y : Ref sig .tc} {n : ℕ} (hw : op.writes = {Proc.devRef .tc y}) (hy : n ≤ y.idx.val) :
    ∀ r : Ref sig .tc, Proc.devRef .tc r ∈ op.writes → n ≤ r.idx.val := by
  intro r hr
  rw [hw, Finset.mem_singleton] at hr
  obtain rfl := Proc.devRef_injective _ hr
  exact hy

set_option maxHeartbeats 40000000 in
/-- Every one of the 102 later lines writes only its own result buffer, and the results are buffers 9, 10, … of the
    core: after the four arguments (0 … 3), the four earlier results (4 … 7) and the decision array (8). -/
theorem tail_writes_idx : (hostOps1 : List (HloOp τ sig (Elt F))).Forall fun op =>
    ∀ r : Ref sig .tc, Proc.devRef .tc r ∈ op.writes → 9 ≤ r.idx.val :=
  ⟨writes_idx (StableHlo.nullary_writes ..) (by decide),
    writes_idx (StableHlo.unary_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide)⟩

/-- So they write no buffer of index below 9: no argument, nor the folded weight, the bias row or the decision array. -/
theorem tail_keeps (b : Ref sig .tc) (hb : b.idx.val < 9) :
    ∀ op ∈ (hostOps1 : List (HloOp τ sig (Elt F))), Proc.devRef .tc b ∉ op.writes := fun op hop hmem =>
  absurd ((List.forall_iff_forall_mem.mp (tail_writes_idx (F := F))) op hop b hmem) (by omega)

/-- The four earlier lines write buffers 4 … 7: no argument. -/
theorem pre_writes_idx : (hostOps0 : List (HloOp τ sig (Elt F))).Forall fun op =>
    ∀ r : Ref sig .tc, Proc.devRef .tc r ∈ op.writes → 4 ≤ r.idx.val :=
  ⟨writes_idx (StableHlo.unary_writes ..) (by decide),
    writes_idx (StableHlo.binary_writes ..) (by decide),
    writes_idx (StableHlo.unary_writes ..) (by decide),
    writes_idx (StableHlo.reshape_writes ..) (by decide)⟩

theorem pre_keeps (b : Ref sig .tc) (hb : b.idx.val < 4) :
    ∀ op ∈ (hostOps0 : List (HloOp τ sig (Elt F))), Proc.devRef .tc b ∉ op.writes := fun op hop hmem =>
  absurd ((List.forall_iff_forall_mem.mp (pre_writes_idx (F := F))) op hop b hmem) (by omega)

/-- The later lines touch the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp tail_fresh) op hop
/-- They write no array of the pipeline (`x`, the folded weight, the bias row, the decision array: buffers 0, 6, 7, 8). -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  subst hops
  exact tail_keeps _ ((by decide : ∀ w, (Pipeline.arrRef spec0 w).idx.val < 9) w) op hop

/-- An argument array is found by the region as launched, -/
theorem V_arg (c : Dev nD) (b : Ref sig .tc) (hb : b.idx.val < 4) : V m c b = m ((c : Thread nD τ).loc b) :=
  StableHlo.after_of_forall_not_mem (b := Proc.devRef .tc b) _ _ (by
    simp only [List.flatten_cons, List.flatten_nil, List.append_nil]
    exact pre_keeps (F := F) b hb)

/-- and, when it is no array of the pipeline, ends as launched after the later lines. -/
theorem W_arg (dats : (p : Fin _) → (c : Dev nD) → Dat τ (Elt F) Unit ℕ (UR sig nD τ) ℕ (cfgs p) c) (c : Dev nD)
    (b : Ref sig .tc) (hb : b.idx.val < 4) (hne : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (by
      simp only [List.flatten_cons, List.flatten_nil, List.append_nil]
      exact tail_keeps (F := F) b (by omega)),
    Pipeline.withArrays_of_ne _ c (V0 m c) _ b hne]
  exact V_arg m c b hb

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every tile, fetched there or not (an unfetched
    window's block index has not moved), for any proof data over these arrays whose body leaves the block in place. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output tile's buffer -/

abbrev rX : Rect S512x2048 := Rect.unit (s := S512x2048) ![0, 0] S512x2048.size inb_S512x2048_S512x2048_0_0
abbrev rW : Rect S2048x1024 := Rect.unit (s := S2048x1024) ![0, 0] S2048x1024.size inb_S2048x1024_S2048x1024_0_0
abbrev rB : Rect S1x1024 := Rect.unit (s := S1x1024) ![0, 0] S1x1024.size inb_S1x1024_S1x1024_0_0
abbrev rO : Rect S512x1024 := Rect.unit (s := S512x1024) ![0, 0] S512x1024.size inb_S512x1024_S512x1024_0_0

/-- The output tile after the body: its one store, of the body's value of the three loaded blocks, over the whole tile. -/
def outTile (x0 : Vec F S512x2048 .f32) (x1 : Vec F S2048x1024 .bf16) (x2 : Vec F S1x1024 .f32) : Vec F S512x1024 .f32 :=
  View.canon [⟨rO, k0_pay1 (View.ld x0 rX) (View.ld x1 rW) (View.ld x2 rB)⟩]

/-- The store covers the tile. -/
theorem cover_out (p0 : Vec F S512x1024 .f32) (y : S512x1024.Idx) :
    ∃ pc ∈ ([⟨rO, p0⟩] : List (View.Piece (Elt F) S512x1024 .f32)), y ∈ pc.1.set :=
  View.cover_of_tiled [⟨rO, p0⟩] S512x1024.size (by rfl) y

/-! ## The body's triple -/

set_option maxHeartbeats 2000000 in
/-- The body on whole staging memrefs — the inputs' at contents `x0 x1 x2`, the output's at anything — runs to its
    continuation with the inputs' as they were and the output's at `outTile x0 x1 x2`. -/
theorem sound_kernel (c : Dev nD) (E : Set ℕ) (i : grid0.Coords)
    (arg1 : Memref sig .tc .vmem S512x2048 .f32) (harg1 : arg1.IsWhole) (arg2 : Memref sig .tc .vmem S2048x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x2048 .f32) (x1 : Vec F S2048x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTile x0 x1 x2)) -∗ K ⟨⟩))
      ⊢ wp frame (wpE (defs₀ (F := F)) Variants.none c none) E (cc0__tree_decision_kernel i arg1 harg1 arg2 harg2 arg3 harg3 arg4 harg4) K := by
  simp only [cc0__tree_decision_kernel_eq_skeleton]; unfold cc0__tree_decision_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- On core `c`: the arrays as the region finds them; after the body at tile `t` each input's buffer at its block and
    the output's at `outTile` of the three input blocks; the invariant the scoped rest and the generator register,
    untouched; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outTile (iblk m c 0 t) (iblk m c 1 t) (iblk m c 2 t) := by dsimp only [dats]

theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d

/-! ## The body obligation -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 40000000 in
set_option backward.isDefEq.respectTransparency.types false in
/-- Every weakly fair execution of @main terminates without a fault; the pipeline's arrays end at what the proof data
    computes (the decision array: the tiles written back), every other buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The four argument arrays end unchanged: `x` is an input array of the pipeline (it ends at its entry contents),
    the other three bypass the region and no later line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_arg m c main_arg0 (by decide)))),
     ((h c).2 main_arg1 (Pipeline.mem_restRefs_of main_arg1 (by decide) (by decide))).trans (W_arg m (dats m) c main_arg1 (by decide) (by decide)),
     ((h c).2 main_arg2 (Pipeline.mem_restRefs_of main_arg2 (by decide) (by decide))).trans (W_arg m (dats m) c main_arg2 (by decide) (by decide)),
     ((h c).2 main_arg3 (Pipeline.mem_restRefs_of main_arg3 (by decide) (by decide))).trans (W_arg m (dats m) c main_arg3 (by decide) (by decide))⟩)
    (run_main m ρ)

end Cert.Kernel.Hand

end
-- ==== Proof.FrameIdeal.lean ====
/-
  The run of `KernelIdeal`'s @main, at any float instance: four host operations (the folded weight
  `feature_mask · Wᵀ`, its change of format, the bias as a row), the one pallas_call over 32 row tiles, and the 102
  host operations of the ten routing levels.

  The kernel body at a tile loads the tile of `x` (512 rows), the whole folded weight and the bias row, and stores one
  value, `pay` of the three, over its whole output tile; it keeps nothing between tiles. So after the body the output's
  staging buffer holds `outTile` of the three input blocks, each input's buffer still holds its block, and the launch
  theorem for a region followed by host lines gives the run: it terminates without a fault, the decision array ends
  as the tiles written back, every other buffer as the later lines leave it — the four argument arrays, which no
  line writes, as launched.
-/
import proofs.«168763_j2963527434844_2_alg».proof.Proof.Gen.KernelIdeal.Launch
import proofs.«168763_j2963527434844_2_alg».proof.Proof.Gen.KernelIdeal.Skeleton
import proofs.«168763_j2963527434844_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays when the region is entered -/

/-- The TensorCore buffers of core `c` after the four host operations before the region. -/
abbrev V0 (c : Dev nD) : Valuation τ sig (Elt F) := StableHlo.after (List.flatten [hostOps0]) (fun b => m (c, b))
/-- The same, read at a reference. -/
abbrev V (c : Dev nD) (b : Ref sig .tc) : Buf (Elt F) ((c : Thread nD τ).loc b) := V0 m c (Proc.devRef .tc b)

/-- No host operation allocates. -/
theorem pre_fresh : (hostOps0 : List (HloOp τ sig (Elt F))).Forall fun op => op.fresh = ∅ := by
  simp only [List.Forall]; repeat' constructor
set_option maxHeartbeats 40000000 in
theorem tail_fresh : (hostOps1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxHeartbeats 40000000 in
/-- @main is the four lines, the region, and the 102 later lines as the region's continuation. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact pre_fresh) main_chain

/-- An operation that writes exactly the buffer `y`, of index at least `n` among the core's buffers, writes no buffer of smaller index. -/
theorem writes_idx {op : HloOp τ sig (Elt F)} {y : Ref sig .tc} {n : ℕ} (hw : op.writes = {Proc.devRef .tc y}) (hy : n ≤ y.idx.val) :
    ∀ r : Ref sig .tc, Proc.devRef .tc r ∈ op.writes → n ≤ r.idx.val := by
  intro r hr
  rw [hw, Finset.mem_singleton] at hr
  obtain rfl := Proc.devRef_injective _ hr
  exact hy

set_option maxHeartbeats 40000000 in
/-- Every one of the 102 later lines writes only its own result buffer, and the results are buffers 9, 10, … of the
    core: after the four arguments (0 … 3), the four earlier results (4 … 7) and the decision array (8). -/
theorem tail_writes_idx : (hostOps1 : List (HloOp τ sig (Elt F))).Forall fun op =>
    ∀ r : Ref sig .tc, Proc.devRef .tc r ∈ op.writes → 9 ≤ r.idx.val :=
  ⟨writes_idx (StableHlo.nullary_writes ..) (by decide),
    writes_idx (StableHlo.unary_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide),
    writes_idx (StableHlo.unary_writes ..) (by decide),
    writes_idx (StableHlo.binary_writes ..) (by decide),
    writes_idx (StableHlo.nullary_writes ..) (by decide),
    writes_idx (StableHlo.unary_writes ..) (by decide),
    writes_idx (StableHlo.binary_writes ..) (by decide),
    writes_idx (StableHlo.binary_writes ..) (by decide),
    writes_idx (StableHlo.unary_writes ..) (by decide),
    writes_idx (StableHlo.unary_writes ..) (by decide),
    writes_idx (StableHlo.binary_writes ..) (by decide),
    writes_idx (StableHlo.reshape_writes ..) (by decide)⟩

/-- So they write no buffer of index below 9: no argument, nor the folded weight, the bias row or the decision array. -/
theorem tail_keeps (b : Ref sig .tc) (hb : b.idx.val < 9) :
    ∀ op ∈ (hostOps1 : List (HloOp τ sig (Elt F))), Proc.devRef .tc b ∉ op.writes := fun op hop hmem =>
  absurd ((List.forall_iff_forall_mem.mp (tail_writes_idx (F := F))) op hop b hmem) (by omega)

/-- The four earlier lines write buffers 4 … 7: no argument. -/
theorem pre_writes_idx : (hostOps0 : List (HloOp τ sig (Elt F))).Forall fun op =>
    ∀ r : Ref sig .tc, Proc.devRef .tc r ∈ op.writes → 4 ≤ r.idx.val :=
  ⟨writes_idx (StableHlo.unary_writes ..) (by decide),
    writes_idx (StableHlo.binary_writes ..) (by decide),
    writes_idx (StableHlo.unary_writes ..) (by decide),
    writes_idx (StableHlo.reshape_writes ..) (by decide)⟩

theorem pre_keeps (b : Ref sig .tc) (hb : b.idx.val < 4) :
    ∀ op ∈ (hostOps0 : List (HloOp τ sig (Elt F))), Proc.devRef .tc b ∉ op.writes := fun op hop hmem =>
  absurd ((List.forall_iff_forall_mem.mp (pre_writes_idx (F := F))) op hop b hmem) (by omega)

/-- The later lines touch the pipeline's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp tail_fresh) op hop
/-- They write no array of the pipeline (`x`, the folded weight, the bias row, the decision array: buffers 0, 6, 7, 8). -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  subst hops
  exact tail_keeps _ ((by decide : ∀ w, (Pipeline.arrRef spec0 w).idx.val < 9) w) op hop

/-- An argument array is found by the region as launched, -/
theorem V_arg (c : Dev nD) (b : Ref sig .tc) (hb : b.idx.val < 4) : V m c b = m ((c : Thread nD τ).loc b) :=
  StableHlo.after_of_forall_not_mem (b := Proc.devRef .tc b) _ _ (by
    simp only [List.flatten_cons, List.flatten_nil, List.append_nil]
    exact pre_keeps (F := F) b hb)

/-- and, when it is no array of the pipeline, ends as launched after the later lines. -/
theorem W_arg (dats : (p : Fin _) → (c : Dev nD) → Dat τ (Elt F) Unit ℕ (UR sig nD τ) ℕ (cfgs p) c) (c : Dev nD)
    (b : Ref sig .tc) (hb : b.idx.val < 4) (hne : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (by
      simp only [List.flatten_cons, List.flatten_nil, List.append_nil]
      exact tail_keeps (F := F) b (by omega)),
    Pipeline.withArrays_of_ne _ c (V0 m c) _ b hne]
  exact V_arg m c b hb

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every tile, fetched there or not (an unfetched
    window's block index has not moved), for any proof data over these arrays whose body leaves the block in place. -/
theorem before_in_0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output tile's buffer -/

abbrev rX : Rect S512x2048 := Rect.unit (s := S512x2048) ![0, 0] S512x2048.size inb_S512x2048_S512x2048_0_0
abbrev rW : Rect S2048x1024 := Rect.unit (s := S2048x1024) ![0, 0] S2048x1024.size inb_S2048x1024_S2048x1024_0_0
abbrev rB : Rect S1x1024 := Rect.unit (s := S1x1024) ![0, 0] S1x1024.size inb_S1x1024_S1x1024_0_0
abbrev rO : Rect S512x1024 := Rect.unit (s := S512x1024) ![0, 0] S512x1024.size inb_S512x1024_S512x1024_0_0

/-- The output tile after the body: its one store, of the body's value of the three loaded blocks, over the whole tile. -/
def outTile (x0 : Vec F S512x2048 .f32) (x1 : Vec F S2048x1024 .bf16) (x2 : Vec F S1x1024 .f32) : Vec F S512x1024 .f32 :=
  View.canon [⟨rO, k0_pay1 (View.ld x0 rX) (View.ld x1 rW) (View.ld x2 rB)⟩]

/-- The store covers the tile. -/
theorem cover_out (p0 : Vec F S512x1024 .f32) (y : S512x1024.Idx) :
    ∃ pc ∈ ([⟨rO, p0⟩] : List (View.Piece (Elt F) S512x1024 .f32)), y ∈ pc.1.set :=
  View.cover_of_tiled [⟨rO, p0⟩] S512x1024.size (by rfl) y

/-! ## The body's triple -/

set_option maxHeartbeats 2000000 in
/-- The body on whole staging memrefs — the inputs' at contents `x0 x1 x2`, the output's at anything — runs to its
    continuation with the inputs' as they were and the output's at `outTile x0 x1 x2`. -/
theorem sound_kernel (c : Dev nD) (E : Set ℕ) (i : grid0.Coords)
    (arg1 : Memref sig .tc .vmem S512x2048 .f32) (harg1 : arg1.IsWhole) (arg2 : Memref sig .tc .vmem S2048x1024 .bf16) (harg2 : arg2.IsWhole)
    (arg3 : Memref sig .tc .vmem S1x1024 .f32) (harg3 : arg3.IsWhole) (arg4 : Memref sig .tc .vmem S512x1024 .f32) (harg4 : arg4.IsWhole)
    (x0 : Vec F S512x2048 .f32) (x1 : Vec F S2048x1024 .bf16) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outTile x0 x1 x2)) -∗ K ⟨⟩))
      ⊢ wp frame (wpE (defs₀ (F := F)) Variants.none c none) E (cc0__tree_decision_kernel i arg1 harg1 arg2 harg2 arg3 harg3 arg4 harg4) K := by
  simp only [cc0__tree_decision_kernel_eq_skeleton]; unfold cc0__tree_decision_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover_out _)

/-! ## The pipeline's proof data -/

/-- On core `c`: the arrays as the region finds them; after the body at tile `t` each input's buffer at its block and
    the output's at `outTile` of the three input blocks; the invariant the scoped rest and the generator register,
    untouched; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outTile (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = outTile (iblk m c 0 t) (iblk m c 1 t) (iblk m c 2 t) := by dsimp only [dats]

theorem before_0 (c : Dev nD) (t : Fin cfg0.N) (d) : (dats m 0 c).before 0 t d = iblk m c 0 t :=
  before_in_0 m (dats m 0 c) (A_eq m c 0) (after_0 m c) t d
theorem before_1 (c : Dev nD) (t : Fin cfg0.N) (d) : (dats m 0 c).before 1 t d = iblk m c 1 t :=
  before_in_1 m (dats m 0 c) (A_eq m c 1) (after_1 m c) t d
theorem before_2 (c : Dev nD) (t : Fin cfg0.N) (d) : (dats m 0 c).before 2 t d = iblk m c 2 t :=
  before_in_2 m (dats m 0 c) (A_eq m c 2) (after_2 m c) t d

/-! ## The body obligation -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 40000000 in
set_option backward.isDefEq.respectTransparency.types false in
/-- Every weakly fair execution of @main terminates without a fault; the pipeline's arrays end at what the proof data
    computes (the decision array: the tiles written back), every other buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The four argument arrays end unchanged: `x` is an input array of the pipeline (it ends at its entry contents),
    the other three bypass the region and no later line writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 0).trans (((dats m 0 c).arrAt_in 0 rfl _).trans ((A_eq m c 0).trans (V_arg m c main_arg0 (by decide)))),
     ((h c).2 main_arg1 (Pipeline.mem_restRefs_of main_arg1 (by decide) (by decide))).trans (W_arg m (dats m) c main_arg1 (by decide) (by decide)),
     ((h c).2 main_arg2 (Pipeline.mem_restRefs_of main_arg2 (by decide) (by decide))).trans (W_arg m (dats m) c main_arg2 (by decide) (by decide)),
     ((h c).2 main_arg3 (Pipeline.mem_restRefs_of main_arg3 (by decide) (by decide))).trans (W_arg m (dats m) c main_arg3 (by decide) (by decide))⟩)
    (run_main m ρ)

end Cert.KernelIdeal.Hand

end
-- ==== Proof.KPay.lean ====
import proofs.«168763_j2963527434844_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

/-!
# The decision layer at an entry

The kernel body stores, at row `p` and column `q` of its block,

  σ( ∑ₖ x[p,k] · w[k,q] + β[0,q] ),

with `σ` the logistic function, `x` the block of inputs, `w` the effective
weight matrix and `β` the bias row.  On extended reals the narrowing of `x` to
the shorter format is the identity, a reshape to the same shape is the
identity, and a matrix product into a zero accumulator is the plain sum over
the one contracted axis; the bias row is broadcast along the rows.

The effective weights are computed once, before the kernel runs, as
`w[k,l] = ∑ⱼ m[k,j] · W[l,j]`: the feature mask times the transposed weight
matrix.  The bias row is the bias vector seen as a `1 × n` matrix.
-/

noncomputable section

open scoped BigOperators

namespace Cert.KPay

open Cert.KernelIdeal Cert.KernelIdeal.Gen Idealize.ShloMosaic Idealize.ShloMosaic.ValueIdx

/-! ## The two contractions, indexed by coordinates -/

section Body

/-- The dimension numbers of the body's product: `[512, 2048] · [2048, 1024]`,
contracting the second axis of the left operand with the first of the right. -/
abbrev bodyDims := dot_S512x2048_S2048x1024_S512x1024_1_0_0_1_n_n

theorem body_lhs_row (i : S512x1024.Idx) (c : bodyDims.contr.Idx) : (bodyDims.lhsIdx i c 0).val = (i 0).val := by
  unfold DotDims.lhsIdx
  rw [dif_neg (show ¬(0 : Fin S512x2048.rank) ∈ bodyDims.lhsBatch by decide),
    dif_pos (show (0 : Fin S512x2048.rank) ∈ bodyDims.lhsNonContracting by decide)]
  rfl

theorem body_lhs_col (i : S512x1024.Idx) (c : bodyDims.contr.Idx) : (bodyDims.lhsIdx i c 1).val = (c ⟨0, by decide⟩).val :=
  bodyDims.lhsIdx_val_of_single rfl i c

theorem body_rhs_row (i : S512x1024.Idx) (c : bodyDims.contr.Idx) : (bodyDims.rhsIdx i c 0).val = (c ⟨0, by decide⟩).val :=
  bodyDims.rhsIdx_val_of_single rfl i c

theorem body_rhs_col (i : S512x1024.Idx) (c : bodyDims.contr.Idx) : (bodyDims.rhsIdx i c 1).val = (i 1).val := by
  unfold DotDims.rhsIdx
  rw [dif_neg (show ¬(1 : Fin S2048x1024.rank) ∈ bodyDims.rhsBatch by decide),
    dif_pos (show (1 : Fin S2048x1024.rank) ∈ bodyDims.rhsNonContracting by decide)]
  rfl

/-- The body's matrix product into a zero accumulator, at `(p, q)`: the sum
over the contracted coordinate `k` of `a[p,k] · b[k,q]`. -/
theorem body_matmul_apply (a : FVec Ideal S512x2048 .bf16) (b : FVec Ideal S2048x1024 .bf16) (p : Fin 512) (q : Fin 1024) :
    matmul (F := Ideal) (φ₁ := .bf16) (φ₂ := .bf16) bodyDims none a b (constant (F := Ideal) S512x1024 .f32 0x00000000#32) (ix2 p q)
      = ∑ k : Fin 2048, a (ix2 p k) * b (ix2 k q) := by
  refine (Ideal.matmul_constant_zero_apply bodyDims none a b (ix2 p q)).trans ?_
  rw [← Equiv.sum_comp (contrEquiv1 bodyDims 2048 rfl rfl).symm]
  refine Finset.sum_congr rfl fun k _ => ?_
  have hk := contrEquiv1_symm_val bodyDims 2048 rfl rfl k
  have el : bodyDims.lhsIdx (ix2 p q) ((contrEquiv1 bodyDims 2048 rfl rfl).symm k) = ix2 p k := funext fun ax => Fin.ext (by
    match ax with
    | ⟨0, _⟩ => exact body_lhs_row _ _
    | ⟨1, _⟩ => exact (body_lhs_col _ _).trans hk)
  have er : bodyDims.rhsIdx (ix2 p q) ((contrEquiv1 bodyDims 2048 rfl rfl).symm k) = ix2 k q := funext fun ax => Fin.ext (by
    match ax with
    | ⟨0, _⟩ => exact (body_rhs_row _ _).trans hk
    | ⟨1, _⟩ => exact body_rhs_col _ _)
  rw [el, er]

/-- **The body's stored value at `(p, q)`**: the logistic function of the
`p`-th input row against the `q`-th weight column, plus the `q`-th bias. -/
theorem pay_apply (x0 : Vec Ideal S512x2048 .f32) (x1 : Vec Ideal S2048x1024 .bf16) (x2 : Vec Ideal S1x1024 .f32)
    (p : Fin 512) (q : Fin 1024) :
    k0_pay1 (F := Ideal) x0 x1 x2 (ix2 p q)
      = Ideal.logistic ((∑ k : Fin 2048, x0 (ix2 p k) * x1 (ix2 k q)) + x2 (ix2 0 q)) := by
  have e1 : shapeCast S2048x1024 x1 shapeCasts_S2048x1024_S2048x1024 = x1 := shapeCast_self _ _
  have e2 : shapeCast S1x1024 x2 shapeCasts_S1x1024_S1x1024 = x2 := shapeCast_self _ _
  have hm : matmul (F := Ideal) (φ₁ := .bf16) (φ₂ := .bf16) bodyDims none (truncf .bf16 x0 bitsLt_bf16_f32)
      (shapeCast S2048x1024 x1 shapeCasts_S2048x1024_S2048x1024 : FVec Ideal S2048x1024 .bf16)
      (constant (F := Ideal) S512x1024 .f32 0x00000000#32) (ix2 p q)
        = ∑ k : Fin 2048, x0 (ix2 p k) * x1 (ix2 k q) := by
    rw [e1]
    exact body_matmul_apply (truncf .bf16 x0 bitsLt_bf16_f32) x1 p q
  have hb : broadcastTo S512x1024 (shapeCast S1x1024 x2 shapeCasts_S1x1024_S1x1024) broadcasts_S1x1024_S512x1024 (ix2 p q)
      = x2 (ix2 0 q) := by
    rw [e2]
    exact broadcastTo_1b_ab_apply x2 _ p q
  unfold k0_pay1
  exact congrArg Ideal.logistic (congrArg₂ (· + ·) hm hb)

end Body

/-! ## The effective weights and the bias row, computed before the kernel runs -/

section Host

/-- The dimension numbers of the product that forms the effective weights:
`[2048, 1024] · [1024, 1024]`, contracting the second axis of the left operand
with the first of the right. -/
abbrev weightDims := dot_S2048x1024_S1024x1024_S2048x1024_1_0_0_1_n_n

theorem host_lhs_row (i : S2048x1024.Idx) (c : weightDims.contr.Idx) : (weightDims.lhsIdx i c 0).val = (i 0).val := by
  unfold DotDims.lhsIdx
  rw [dif_neg (show ¬(0 : Fin S2048x1024.rank) ∈ weightDims.lhsBatch by decide),
    dif_pos (show (0 : Fin S2048x1024.rank) ∈ weightDims.lhsNonContracting by decide)]
  rfl

theorem host_lhs_col (i : S2048x1024.Idx) (c : weightDims.contr.Idx) : (weightDims.lhsIdx i c 1).val = (c ⟨0, by decide⟩).val :=
  weightDims.lhsIdx_val_of_single rfl i c

theorem host_rhs_row (i : S2048x1024.Idx) (c : weightDims.contr.Idx) : (weightDims.rhsIdx i c 0).val = (c ⟨0, by decide⟩).val :=
  weightDims.rhsIdx_val_of_single rfl i c

theorem host_rhs_col (i : S2048x1024.Idx) (c : weightDims.contr.Idx) : (weightDims.rhsIdx i c 1).val = (i 1).val := by
  unfold DotDims.rhsIdx
  rw [dif_neg (show ¬(1 : Fin S1024x1024.rank) ∈ weightDims.rhsBatch by decide),
    dif_pos (show (1 : Fin S1024x1024.rank) ∈ weightDims.rhsNonContracting by decide)]
  rfl

/-- The effective weight matrix: the feature mask times the transposed weight
matrix, narrowed to the shorter format (the identity on extended reals). -/
def weff (fm : FVec Ideal S2048x1024 .f32) (W : FVec Ideal S1024x1024 .f32) : FVec Ideal S2048x1024 .bf16 :=
  truncf .bf16
    (Host.dotGeneral (F := Ideal) (φ₁ := .f32) (φ₂ := .f32) dot_S2048x1024_S1024x1024_S2048x1024_1_0_0_1_n_n none fm
      (transpose S1024x1024 [1, 0] W transposes_S1024x1024_S1024x1024_1_0))
    bitsLt_bf16_f32

/-- **The effective weights at `(k, l)`**: `∑ⱼ m[k,j] · W[l,j]`. -/
theorem weff_apply (fm : FVec Ideal S2048x1024 .f32) (W : FVec Ideal S1024x1024 .f32) (k : Fin 2048) (l : Fin 1024) :
    weff fm W (ix2 k l) = ∑ j : Fin 1024, fm (ix2 k j) * W (ix2 l j) := by
  unfold weff
  refine (Ideal.dotGeneral_apply (φ₁ := .f32) (φ₂ := .f32) weightDims none .single fm
    (transpose S1024x1024 [1, 0] W transposes_S1024x1024_S1024x1024_1_0) (ix2 k l)).trans ?_
  rw [← Equiv.sum_comp (contrEquiv1 weightDims 1024 rfl rfl).symm]
  refine Finset.sum_congr rfl fun j _ => ?_
  have hj := contrEquiv1_symm_val weightDims 1024 rfl rfl j
  have el : weightDims.lhsIdx (ix2 k l) ((contrEquiv1 weightDims 1024 rfl rfl).symm j) = ix2 k j := funext fun ax => Fin.ext (by
    match ax with
    | ⟨0, _⟩ => exact host_lhs_row _ _
    | ⟨1, _⟩ => exact (host_lhs_col _ _).trans hj)
  have er : weightDims.rhsIdx (ix2 k l) ((contrEquiv1 weightDims 1024 rfl rfl).symm j) = ix2 j l := funext fun ax => Fin.ext (by
    match ax with
    | ⟨0, _⟩ => exact (host_rhs_row _ _).trans hj
    | ⟨1, _⟩ => exact host_rhs_col _ _)
  rw [el, er]
  exact congrArg (fm (ix2 k j) * ·) (transpose_ix2_apply W transposes_S1024x1024_S1024x1024_1_0 j l)

/-- The bias vector as a `1 × 1024` matrix. -/
def brow (bias : FVec Ideal S1024 .f32) : FVec Ideal S1x1024 .f32 :=
  shapeCast S1x1024 bias shapeCasts_S1024_S1x1024

/-- **The bias row at `(0, l)`** is the bias at `l`. -/
theorem brow_apply (bias : FVec Ideal S1024 .f32) (l : Fin 1024) : brow bias (ix2 (0 : Fin 1) l) = bias (ix1 l) :=
  shapeCast_a_1a_apply bias shapeCasts_S1024_S1x1024 0 l

end Host

end Cert.KPay
-- ==== Proof.KTailDefs.lean ====
/-
  The ten routing levels that follow the decision probabilities, as one function of the probability array.

  From the array `D : [16384, 1024]` of decision probabilities the host computes the ten levels of a soft decision
  tree: level 0 is the all-ones column; the level after a level of `w` nodes pairs, for every node `j`, the node's
  weight times the probability at column `w + j` (left child) and times one minus that probability (right child),
  along a new last axis, and lays the pairs out row-major as `2 w` nodes. `tail D` is the composition of the ten
  steps, each written operation for operation as the host performs it.
-/
import proofs.«168763_j2963527434844_2_alg».proof.Proof.Gen.KernelIdeal
import Idealize.ShloMosaic.PureOps.Ideal

noncomputable section

namespace Cert.KTail

open Idealize.ShloMosaic
open Cert.KernelIdeal Cert.KernelIdeal.Gen

/-- Level 0: the all-ones column. -/
def mu0 : FVec Ideal S16384x1 .f32 :=
  broadcastInDim S16384x1 ![] bcast_S_S16384x1 (constant S_ .f32 0x3F800000#32)

/-- Level with 1 node to the next: every weight times the probability at column `1 + j`, and times one minus it,
    paired along a new last axis and laid out row-major. -/
def step1 (mu : FVec Ideal S16384x1 .f32) (D : FVec Ideal S16384x1024 .f32) : FVec Ideal S16384x2 .f32 :=
  shapeCast S16384x2
    (concatenate S16384x1x2 2
      [⟨S16384x1x1, broadcastInDim S16384x1x1 ![0, 1] bcast_S16384x1_S16384x1x1_0_1 (mulf mu (extractStridedSlice S16384x1 ![0, 1] D slices_S16384x1024_S16384x1_0_1))⟩,
       ⟨S16384x1x1, broadcastInDim S16384x1x1 ![0, 1] bcast_S16384x1_S16384x1x1_0_1 (mulf mu (subf (broadcastInDim S16384x1 ![] bcast_S_S16384x1 (constant S_ .f32 0x3F800000#32)) (extractStridedSlice S16384x1 ![0, 1] D slices_S16384x1024_S16384x1_0_1)))⟩]
      concatenates_S16384x1x1_S16384x1x1_S16384x1x2_d2)
    shapeCasts_S16384x1x2_S16384x2

/-- Level with 2 nodes to the next: every weight times the probability at column `2 + j`, and times one minus it,
    paired along a new last axis and laid out row-major. -/
def step2 (mu : FVec Ideal S16384x2 .f32) (D : FVec Ideal S16384x1024 .f32) : FVec Ideal S16384x4 .f32 :=
  shapeCast S16384x4
    (concatenate S16384x2x2 2
      [⟨S16384x2x1, broadcastInDim S16384x2x1 ![0, 1] bcast_S16384x2_S16384x2x1_0_1 (mulf mu (extractStridedSlice S16384x2 ![0, 2] D slices_S16384x1024_S16384x2_0_2))⟩,
       ⟨S16384x2x1, broadcastInDim S16384x2x1 ![0, 1] bcast_S16384x2_S16384x2x1_0_1 (mulf mu (subf (broadcastInDim S16384x2 ![] bcast_S_S16384x2 (constant S_ .f32 0x3F800000#32)) (extractStridedSlice S16384x2 ![0, 2] D slices_S16384x1024_S16384x2_0_2)))⟩]
      concatenates_S16384x2x1_S16384x2x1_S16384x2x2_d2)
    shapeCasts_S16384x2x2_S16384x4

/-- Level with 4 nodes to the next: every weight times the probability at column `4 + j`, and times one minus it,
    paired along a new last axis and laid out row-major. -/
def step4 (mu : FVec Ideal S16384x4 .f32) (D : FVec Ideal S16384x1024 .f32) : FVec Ideal S16384x8 .f32 :=
  shapeCast S16384x8
    (concatenate S16384x4x2 2
      [⟨S16384x4x1, broadcastInDim S16384x4x1 ![0, 1] bcast_S16384x4_S16384x4x1_0_1 (mulf mu (extractStridedSlice S16384x4 ![0, 4] D slices_S16384x1024_S16384x4_0_4))⟩,
       ⟨S16384x4x1, broadcastInDim S16384x4x1 ![0, 1] bcast_S16384x4_S16384x4x1_0_1 (mulf mu (subf (broadcastInDim S16384x4 ![] bcast_S_S16384x4 (constant S_ .f32 0x3F800000#32)) (extractStridedSlice S16384x4 ![0, 4] D slices_S16384x1024_S16384x4_0_4)))⟩]
      concatenates_S16384x4x1_S16384x4x1_S16384x4x2_d2)
    shapeCasts_S16384x4x2_S16384x8

/-- Level with 8 nodes to the next: every weight times the probability at column `8 + j`, and times one minus it,
    paired along a new last axis and laid out row-major. -/
def step8 (mu : FVec Ideal S16384x8 .f32) (D : FVec Ideal S16384x1024 .f32) : FVec Ideal S16384x16 .f32 :=
  shapeCast S16384x16
    (concatenate S16384x8x2 2
      [⟨S16384x8x1, broadcastInDim S16384x8x1 ![0, 1] bcast_S16384x8_S16384x8x1_0_1 (mulf mu (extractStridedSlice S16384x8 ![0, 8] D slices_S16384x1024_S16384x8_0_8))⟩,
       ⟨S16384x8x1, broadcastInDim S16384x8x1 ![0, 1] bcast_S16384x8_S16384x8x1_0_1 (mulf mu (subf (broadcastInDim S16384x8 ![] bcast_S_S16384x8 (constant S_ .f32 0x3F800000#32)) (extractStridedSlice S16384x8 ![0, 8] D slices_S16384x1024_S16384x8_0_8)))⟩]
      concatenates_S16384x8x1_S16384x8x1_S16384x8x2_d2)
    shapeCasts_S16384x8x2_S16384x16

/-- Level with 16 nodes to the next: every weight times the probability at column `16 + j`, and times one minus it,
    paired along a new last axis and laid out row-major. -/
def step16 (mu : FVec Ideal S16384x16 .f32) (D : FVec Ideal S16384x1024 .f32) : FVec Ideal S16384x32 .f32 :=
  shapeCast S16384x32
    (concatenate S16384x16x2 2
      [⟨S16384x16x1, broadcastInDim S16384x16x1 ![0, 1] bcast_S16384x16_S16384x16x1_0_1 (mulf mu (extractStridedSlice S16384x16 ![0, 16] D slices_S16384x1024_S16384x16_0_16))⟩,
       ⟨S16384x16x1, broadcastInDim S16384x16x1 ![0, 1] bcast_S16384x16_S16384x16x1_0_1 (mulf mu (subf (broadcastInDim S16384x16 ![] bcast_S_S16384x16 (constant S_ .f32 0x3F800000#32)) (extractStridedSlice S16384x16 ![0, 16] D slices_S16384x1024_S16384x16_0_16)))⟩]
      concatenates_S16384x16x1_S16384x16x1_S16384x16x2_d2)
    shapeCasts_S16384x16x2_S16384x32

/-- Level with 32 nodes to the next: every weight times the probability at column `32 + j`, and times one minus it,
    paired along a new last axis and laid out row-major. -/
def step32 (mu : FVec Ideal S16384x32 .f32) (D : FVec Ideal S16384x1024 .f32) : FVec Ideal S16384x64 .f32 :=
  shapeCast S16384x64
    (concatenate S16384x32x2 2
      [⟨S16384x32x1, broadcastInDim S16384x32x1 ![0, 1] bcast_S16384x32_S16384x32x1_0_1 (mulf mu (extractStridedSlice S16384x32 ![0, 32] D slices_S16384x1024_S16384x32_0_32))⟩,
       ⟨S16384x32x1, broadcastInDim S16384x32x1 ![0, 1] bcast_S16384x32_S16384x32x1_0_1 (mulf mu (subf (broadcastInDim S16384x32 ![] bcast_S_S16384x32 (constant S_ .f32 0x3F800000#32)) (extractStridedSlice S16384x32 ![0, 32] D slices_S16384x1024_S16384x32_0_32)))⟩]
      concatenates_S16384x32x1_S16384x32x1_S16384x32x2_d2)
    shapeCasts_S16384x32x2_S16384x64

/-- Level with 64 nodes to the next: every weight times the probability at column `64 + j`, and times one minus it,
    paired along a new last axis and laid out row-major. -/
def step64 (mu : FVec Ideal S16384x64 .f32) (D : FVec Ideal S16384x1024 .f32) : FVec Ideal S16384x128 .f32 :=
  shapeCast S16384x128
    (concatenate S16384x64x2 2
      [⟨S16384x64x1, broadcastInDim S16384x64x1 ![0, 1] bcast_S16384x64_S16384x64x1_0_1 (mulf mu (extractStridedSlice S16384x64 ![0, 64] D slices_S16384x1024_S16384x64_0_64))⟩,
       ⟨S16384x64x1, broadcastInDim S16384x64x1 ![0, 1] bcast_S16384x64_S16384x64x1_0_1 (mulf mu (subf (broadcastInDim S16384x64 ![] bcast_S_S16384x64 (constant S_ .f32 0x3F800000#32)) (extractStridedSlice S16384x64 ![0, 64] D slices_S16384x1024_S16384x64_0_64)))⟩]
      concatenates_S16384x64x1_S16384x64x1_S16384x64x2_d2)
    shapeCasts_S16384x64x2_S16384x128

/-- Level with 128 nodes to the next: every weight times the probability at column `128 + j`, and times one minus it,
    paired along a new last axis and laid out row-major. -/
def step128 (mu : FVec Ideal S16384x128 .f32) (D : FVec Ideal S16384x1024 .f32) : FVec Ideal S16384x256 .f32 :=
  shapeCast S16384x256
    (concatenate S16384x128x2 2
      [⟨S16384x128x1, broadcastInDim S16384x128x1 ![0, 1] bcast_S16384x128_S16384x128x1_0_1 (mulf mu (extractStridedSlice S16384x128 ![0, 128] D slices_S16384x1024_S16384x128_0_128))⟩,
       ⟨S16384x128x1, broadcastInDim S16384x128x1 ![0, 1] bcast_S16384x128_S16384x128x1_0_1 (mulf mu (subf (broadcastInDim S16384x128 ![] bcast_S_S16384x128 (constant S_ .f32 0x3F800000#32)) (extractStridedSlice S16384x128 ![0, 128] D slices_S16384x1024_S16384x128_0_128)))⟩]
      concatenates_S16384x128x1_S16384x128x1_S16384x128x2_d2)
    shapeCasts_S16384x128x2_S16384x256

/-- Level with 256 nodes to the next: every weight times the probability at column `256 + j`, and times one minus it,
    paired along a new last axis and laid out row-major. -/
def step256 (mu : FVec Ideal S16384x256 .f32) (D : FVec Ideal S16384x1024 .f32) : FVec Ideal S16384x512 .f32 :=
  shapeCast S16384x512
    (concatenate S16384x256x2 2
      [⟨S16384x256x1, broadcastInDim S16384x256x1 ![0, 1] bcast_S16384x256_S16384x256x1_0_1 (mulf mu (extractStridedSlice S16384x256 ![0, 256] D slices_S16384x1024_S16384x256_0_256))⟩,
       ⟨S16384x256x1, broadcastInDim S16384x256x1 ![0, 1] bcast_S16384x256_S16384x256x1_0_1 (mulf mu (subf (broadcastInDim S16384x256 ![] bcast_S_S16384x256 (constant S_ .f32 0x3F800000#32)) (extractStridedSlice S16384x256 ![0, 256] D slices_S16384x1024_S16384x256_0_256)))⟩]
      concatenates_S16384x256x1_S16384x256x1_S16384x256x2_d2)
    shapeCasts_S16384x256x2_S16384x512

/-- Level with 512 nodes to the next: every weight times the probability at column `512 + j`, and times one minus it,
    paired along a new last axis and laid out row-major. -/
def step512 (mu : FVec Ideal S16384x512 .f32) (D : FVec Ideal S16384x1024 .f32) : FVec Ideal S16384x1024 .f32 :=
  shapeCast S16384x1024
    (concatenate S16384x512x2 2
      [⟨S16384x512x1, broadcastInDim S16384x512x1 ![0, 1] bcast_S16384x512_S16384x512x1_0_1 (mulf mu (extractStridedSlice S16384x512 ![0, 512] D slices_S16384x1024_S16384x512_0_512))⟩,
       ⟨S16384x512x1, broadcastInDim S16384x512x1 ![0, 1] bcast_S16384x512_S16384x512x1_0_1 (mulf mu (subf (broadcastInDim S16384x512 ![] bcast_S_S16384x512 (constant S_ .f32 0x3F800000#32)) (extractStridedSlice S16384x512 ![0, 512] D slices_S16384x1024_S16384x512_0_512)))⟩]
      concatenates_S16384x512x1_S16384x512x1_S16384x512x2_d2)
    shapeCasts_S16384x512x2_S16384x1024

/-- The ten levels composed: the leaf weights as a function of the probability array. -/
def tail (D : FVec Ideal S16384x1024 .f32) : FVec Ideal S16384x1024 .f32 :=
  step512 (step256 (step128 (step64 (step32 (step16 (step8 (step4 (step2 (step1 (mu0) D) D) D) D) D) D) D) D) D) D

end Cert.KTail

end
-- ==== Proof.KTail.lean ====
/-
  The host's operations after the decision probabilities compute the ten routing levels.

  The printed list of operations is cut into its ten levels. Run from any contents, a level's operations leave in the
  level's last buffer the level step applied to what the previous level's buffer and the probability array held, and
  leave the probability array as it was; composing the ten levels, the whole list leaves `tail` of the probability
  array in the last buffer.
-/
import proofs.«168763_j2963527434844_2_alg».proof.Proof.KTailDefs
import proofs.«168763_j2963527434844_2_alg».proof.Proof.Gen.KernelIdeal.Launch
import Idealize.ShloMosaic.Lib.StableHlo.Run

noncomputable section

namespace Cert.KTail

open Idealize.ShloMosaic Idealize.ShloMosaic.TcCoe Idealize.SL.Sem Idealize.ShloMosaic.StableHlo
open Cert.KernelIdeal Cert.KernelIdeal.Gen

/-- Running two lists one after the other is running their concatenation. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => rw [List.cons_append, after_cons, after_cons, ih]

/-- The operations of the level with 1 node. -/
def seg0 : List (HloOp τ sig (Elt Ideal)) :=
  [ nullary main_cst (constant (F := Ideal) S_ .f32 0x3F800000#32),
    unary main_cst main_v5 (broadcastInDim S16384x1 ![] bcast_S_S16384x1 : (⟨S_, .f32⟩ : BufTy).Contents (Elt Ideal) → (⟨S16384x1, .f32⟩ : BufTy).Contents (Elt Ideal)),
    unary main_v4 main_v6 ((extractStridedSlice S16384x1 ![0, 1] · slices_S16384x1024_S16384x1_0_1) : (⟨S16384x1024, .f32⟩ : BufTy).Contents (Elt Ideal) → (⟨S16384x1, .f32⟩ : BufTy).Contents (Elt Ideal)),
    binary main_v5 main_v6 main_v7 (mulf (F := Ideal) (φ := .f32) : (⟨S16384x1, .f32⟩ : BufTy).Contents (Elt Ideal) → (⟨S16384x1, .f32⟩ : BufTy).Contents (Elt Ideal) → (⟨S16384x1, .f32⟩ : BufTy).Contents (Elt Ideal)),
    nullary main_cst_0 (constant (F := Ideal) S_ .f32 0x3F800000#32),
    unary main_cst_0 main_v8 (broadcastInDim S16384x1 ![] bcast_S_S16384x1 : (⟨S_, .f32⟩ : BufTy).Contents (Elt Ideal) → (⟨S16384x1, .f32⟩ : BufTy).Contents (Elt Ideal)),
    binary main_v8 main_v6 main_v9 (subf (F := Ideal) (φ := .f32) : (⟨S16384x1, .f32⟩ : BufTy).Contents (Elt Ideal) → (⟨S16384x1, .f32⟩ : BufTy).Contents (Elt Ideal) → (⟨S16384x1, .f32⟩ : BufTy).Contents (Elt Ideal)),
    binary main_v5 main_v9 main_v10 (mulf (F := Ideal) (φ := .f32) : (⟨S16384x1, .f32⟩ : BufTy).Contents (Elt Ideal) → (⟨S16384x1, .f32⟩ : BufTy).Contents (Elt Ideal) → (⟨S16384x1, .f32⟩ : BufTy).Contents (Elt Ideal)),
    unary main_v7 main_v11 (broadcastInDim S16384x1x1 ![0, 1] bcast_S16384x1_S16384x1x1_0_1 : (⟨S16384x1, .f32⟩ : BufTy).Contents (Elt Ideal) → (⟨S16384x1x1, .f32⟩ : BufTy).Contents (Elt Ideal)),
    unary main_v10 main_v12 (broadcastInDim S16384x1x1 ![0, 1] bcast_S16384x1_S16384x1x1_0_1 : (⟨S16384x1, .f32⟩ : BufTy).Contents (Elt Ideal) → (⟨S16384x1x1, .f32⟩ : BufTy).Contents (Elt Ideal)),
    binary main_v11 main_v12 main_v13 ((fun a b => concatenate S16384x1x2 2 [⟨S16384x1x1, a⟩, ⟨S16384x1x1, b⟩] concatenates_S16384x1x1_S16384x1x1_S16384x1x2_d2) : (⟨S16384x1x1, .f32⟩ : BufTy).Contents (Elt Ideal) → (⟨S16384x1x1, .f32⟩ : BufTy).Contents (Elt Ideal) → (⟨S16384x1x2, .f32⟩ : BufTy).Contents (Elt Ideal)),
    reshape main_v13 main_v14 rfl shapeCasts_S16384x1x2_S16384x2 ]

/-- They leave the level step in the level's last buffer … -/
theorem seg0_out (V : Valuation τ sig (Elt Ideal)) :
    after seg0 V (Proc.devRef .tc main_v14) = step1 mu0 (V (Proc.devRef .tc main_v4)) := by
  unfold seg0
  after_results
  rfl

/-- … and the probability array as it was. -/
theorem seg0_keep (V : Valuation τ sig (Elt Ideal)) :
    after seg0 V (Proc.devRef .tc main_v4) = V (Proc.devRef .tc main_v4) := by
  unfold seg0
  after_results

/-- The operations of the level with 2 nodes. -/
def seg1 : List (HloOp τ sig (Elt Ideal)) :=
  [ unary main_v4 main_v15 ((extractStridedSlice S16384x2 ![0, 2] · slices_S16384x1024_S16384x2_0_2) : (⟨S16384x1024, .f32⟩ : BufTy).Contents (Elt Ideal) → (⟨S16384x2, .f32⟩ : BufTy).Contents (Elt Ideal)),
    binary main_v14 main_v15 main_v16 (mulf (F := Ideal) (φ := .f32) : (⟨S16384x2, .f32⟩ : BufTy).Contents (Elt Ideal) → (⟨S16384x2, .f32⟩ : BufTy).Contents (Elt Ideal) → (⟨S16384x2, .f32⟩ : BufTy).Contents (Elt Ideal)),
    nullary main_cst_1 (constant (F := Ideal) S_ .f32 0x3F800000#32),
    unary main_cst_1 main_v17 (broadcastInDim S16384x2 ![] bcast_S_S16384x2 : (⟨S_, .f32⟩ : BufTy).Contents (Elt Ideal) → (⟨S16384x2, .f32⟩ : BufTy).Contents (Elt Ideal)),
    binary main_v17 main_v15 main_v18 (subf (F := Ideal) (φ := .f32) : (⟨S16384x2, .f32⟩ : BufTy).Contents (Elt Ideal) → (⟨S16384x2, .f32⟩ : BufTy).Contents (Elt Ideal) → (⟨S16384x2, .f32⟩ : BufTy).Contents (Elt Ideal)),
    binary main_v14 main_v18 main_v19 (mulf (F := Ideal) (φ := .f32) : (⟨S16384x2, .f32⟩ : BufTy).Contents (Elt Ideal) → (⟨S16384x2, .f32⟩ : BufTy).Contents (Elt Ideal) → (⟨S16384x2, .f32⟩ : BufTy).Contents (Elt Ideal)),
    unary main_v16 main_v20 (broadcastInDim S16384x2x1 ![0, 1] bcast_S16384x2_S16384x2x1_0_1 : (⟨S16384x2, .f32⟩ : BufTy).Contents (Elt Ideal) → (⟨S16384x2x1, .f32⟩ : BufTy).Contents (Elt Ideal)),
    unary main_v19 main_v21 (broadcastInDim S16384x2x1 ![0, 1] bcast_S16384x2_S16384x2x1_0_1 : (⟨S16384x2, .f32⟩ : BufTy).Contents (Elt Ideal) → (⟨S16384x2x1, .f32⟩ : BufTy).Contents (Elt Ideal)),
    binary main_v20 main_v21 main_v22 ((fun a b => concatenate S16384x2x2 2 [⟨S16384x2x1, a⟩, ⟨S16384x2x1, b⟩] concatenates_S16384x2x1_S16384x2x1_S16384x2x2_d2) : (⟨S16384x2x1, .f32⟩ : BufTy).Contents (Elt Ideal) → (⟨S16384x2x1, .f32⟩ : BufTy).Contents (Elt Ideal) → (⟨S16384x2x2, .f32⟩ : BufTy).Contents (Elt Ideal)),
    reshape main_v22 main_v23 rfl shapeCasts_S16384x2x2_S16384x4 ]

/-- They leave the level step in the level's last buffer … -/
theorem seg1_out (V : Valuation τ sig (Elt Ideal)) :
    after seg1 V (Proc.devRef .tc main_v23) = step2 (V (Proc.devRef .tc main_v14)) (V (Proc.devRef .tc main_v4)) := by
  unfold seg1
  after_results
  rfl

/-- … and the probability array as it was. -/
theorem seg1_keep (V : Valuation τ sig (Elt Ideal)) :
    after seg1 V (Proc.devRef .tc main_v4) = V (Proc.devRef .tc main_v4) := by
  unfold seg1
  after_results

/-- The operations of the level with 4 nodes. -/
def seg2 : List (HloOp τ sig (Elt Ideal)) :=
  [ unary main_v4 main_v24 ((extractStridedSlice S16384x4 ![0, 4] · slices_S16384x1024_S16384x4_0_4) : (⟨S16384x1024, .f32⟩ : BufTy).Contents (Elt Ideal) → (⟨S16384x4, .f32⟩ : BufTy).Contents (Elt Ideal)),
    binary main_v23 main_v24 main_v25 (mulf (F := Ideal) (φ := .f32) : (⟨S16384x4, .f32⟩ : BufTy).Contents (Elt Ideal) → (⟨S16384x4, .f32⟩ : BufTy).Contents (Elt Ideal) → (⟨S16384x4, .f32⟩ : BufTy).Contents (Elt Ideal)),
    nullary main_cst_2 (constant (F := Ideal) S_ .f32 0x3F800000#32),
    unary main_cst_2 main_v26 (broadcastInDim S16384x4 ![] bcast_S_S16384x4 : (⟨S_, .f32⟩ : BufTy).Contents (Elt Ideal) → (⟨S16384x4, .f32⟩ : BufTy).Contents (Elt Ideal)),
    binary main_v26 main_v24 main_v27 (subf (F := Ideal) (φ := .f32) : (⟨S16384x4, .f32⟩ : BufTy).Contents (Elt Ideal) → (⟨S16384x4, .f32⟩ : BufTy).Contents (Elt Ideal) → (⟨S16384x4, .f32⟩ : BufTy).Contents (Elt Ideal)),
    binary main_v23 main_v27 main_v28 (mulf (F := Ideal) (φ := .f32) : (⟨S16384x4, .f32⟩ : BufTy).Contents (Elt Ideal) → (⟨S16384x4, .f32⟩ : BufTy).Contents (Elt Ideal) → (⟨S16384x4, .f32⟩ : BufTy).Contents (Elt Ideal)),
    unary main_v25 main_v29 (broadcastInDim S16384x4x1 ![0, 1] bcast_S16384x4_S16384x4x1_0_1 : (⟨S16384x4, .f32⟩ : BufTy).Contents (Elt Ideal) → (⟨S16384x4x1, .f32⟩ : BufTy).Contents (Elt Ideal)),
    unary main_v28 main_v30 (broadcastInDim S16384x4x1 ![0, 1] bcast_S16384x4_S16384x4x1_0_1 : (⟨S16384x4, .f32⟩ : BufTy).Contents (Elt Ideal) → (⟨S16384x4x1, .f32⟩ : BufTy).Contents (Elt Ideal)),
    binary main_v29 main_v30 main_v31 ((fun a b => concatenate S16384x4x2 2 [⟨S16384x4x1, a⟩, ⟨S16384x4x1, b⟩] concatenates_S16384x4x1_S16384x4x1_S16384x4x2_d2) : (⟨S16384x4x1, .f32⟩ : BufTy).Contents (Elt Ideal) → (⟨S16384x4x1, .f32⟩ : BufTy).Contents (Elt Ideal) → (⟨S16384x4x2, .f32⟩ : BufTy).Contents (Elt Ideal)),
    reshape main_v31 main_v32 rfl shapeCasts_S16384x4x2_S16384x8 ]

/-- They leave the level step in the level's last buffer … -/
theorem seg2_out (V : Valuation τ sig (Elt Ideal)) :
    after seg2 V (Proc.devRef .tc main_v32) = step4 (V (Proc.devRef .tc main_v23)) (V (Proc.devRef .tc main_v4)) := by
  unfold seg2
  after_results
  rfl

/-- … and the probability array as it was. -/
theorem seg2_keep (V : Valuation τ sig (Elt Ideal)) :
    after seg2 V (Proc.devRef .tc main_v4) = V (Proc.devRef .tc main_v4) := by
  unfold seg2
  after_results

/-- The operations of the level with 8 nodes. -/
def seg3 : List (HloOp τ sig (Elt Ideal)) :=
  [ unary main_v4 main_v33 ((extractStridedSlice S16384x8 ![0, 8] · slices_S16384x1024_S16384x8_0_8) : (⟨S16384x1024, .f32⟩ : BufTy).Contents (Elt Ideal) → (⟨S16384x8, .f32⟩ : BufTy).Contents (Elt Ideal)),
    binary main_v32 main_v33 main_v34 (mulf (F := Ideal) (φ := .f32) : (⟨S16384x8, .f32⟩ : BufTy).Contents (Elt Ideal) → (⟨S16384x8, .f32⟩ : BufTy).Contents (Elt Ideal) → (⟨S16384x8, .f32⟩ : BufTy).Contents (Elt Ideal)),
    nullary main_cst_3 (constant (F := Ideal) S_ .f32 0x3F800000#32),
    unary main_cst_3 main_v35 (broadcastInDim S16384x8 ![] bcast_S_S16384x8 : (⟨S_, .f32⟩ : BufTy).Contents (Elt Ideal) → (⟨S16384x8, .f32⟩ : BufTy).Contents (Elt Ideal)),
    binary main_v35 main_v33 main_v36 (subf (F := Ideal) (φ := .f32) : (⟨S16384x8, .f32⟩ : BufTy).Contents (Elt Ideal) → (⟨S16384x8, .f32⟩ : BufTy).Contents (Elt Ideal) → (⟨S16384x8, .f32⟩ : BufTy).Contents (Elt Ideal)),
    binary main_v32 main_v36 main_v37 (mulf (F := Ideal) (φ := .f32) : (⟨S16384x8, .f32⟩ : BufTy).Contents (Elt Ideal) → (⟨S16384x8, .f32⟩ : BufTy).Contents (Elt Ideal) → (⟨S16384x8, .f32⟩ : BufTy).Contents (Elt Ideal)),
    unary main_v34 main_v38 (broadcastInDim S16384x8x1 ![0, 1] bcast_S16384x8_S16384x8x1_0_1 : (⟨S16384x8, .f32⟩ : BufTy).Contents (Elt Ideal) → (⟨S16384x8x1, .f32⟩ : BufTy).Contents (Elt Ideal)),
    unary main_v37 main_v39 (broadcastInDim S16384x8x1 ![0, 1] bcast_S16384x8_S16384x8x1_0_1 : (⟨S16384x8, .f32⟩ : BufTy).Contents (Elt Ideal) → (⟨S16384x8x1, .f32⟩ : BufTy).Contents (Elt Ideal)),
    binary main_v38 main_v39 main_v40 ((fun a b => concatenate S16384x8x2 2 [⟨S16384x8x1, a⟩, ⟨S16384x8x1, b⟩] concatenates_S16384x8x1_S16384x8x1_S16384x8x2_d2) : (⟨S16384x8x1, .f32⟩ : BufTy).Contents (Elt Ideal) → (⟨S16384x8x1, .f32⟩ : BufTy).Contents (Elt Ideal) → (⟨S16384x8x2, .f32⟩ : BufTy).Contents (Elt Ideal)),
    reshape main_v40 main_v41 rfl shapeCasts_S16384x8x2_S16384x16 ]

/-- They leave the level step in the level's last buffer … -/
theorem seg3_out (V : Valuation τ sig (Elt Ideal)) :
    after seg3 V (Proc.devRef .tc main_v41) = step8 (V (Proc.devRef .tc main_v32)) (V (Proc.devRef .tc main_v4)) := by
  unfold seg3
  after_results
  rfl

/-- … and the probability array as it was. -/
theorem seg3_keep (V : Valuation τ sig (Elt Ideal)) :
    after seg3 V (Proc.devRef .tc main_v4) = V (Proc.devRef .tc main_v4) := by
  unfold seg3
  after_results

/-- The operations of the level with 16 nodes. -/
def seg4 : List (HloOp τ sig (Elt Ideal)) :=
  [ unary main_v4 main_v42 ((extractStridedSlice S16384x16 ![0, 16] · slices_S16384x1024_S16384x16_0_16) : (⟨S16384x1024, .f32⟩ : BufTy).Contents (Elt Ideal) → (⟨S16384x16, .f32⟩ : BufTy).Contents (Elt Ideal)),
    binary main_v41 main_v42 main_v43 (mulf (F := Ideal) (φ := .f32) : (⟨S16384x16, .f32⟩ : BufTy).Contents (Elt Ideal) → (⟨S16384x16, .f32⟩ : BufTy).Contents (Elt Ideal) → (⟨S16384x16, .f32⟩ : BufTy).Contents (Elt Ideal)),
    nullary main_cst_4 (constant (F := Ideal) S_ .f32 0x3F800000#32),
    unary main_cst_4 main_v44 (broadcastInDim S16384x16 ![] bcast_S_S16384x16 : (⟨S_, .f32⟩ : BufTy).Contents (Elt Ideal) → (⟨S16384x16, .f32⟩ : BufTy).Contents (Elt Ideal)),
    binary main_v44 main_v42 main_v45 (subf (F := Ideal) (φ := .f32) : (⟨S16384x16, .f32⟩ : BufTy).Contents (Elt Ideal) → (⟨S16384x16, .f32⟩ : BufTy).Contents (Elt Ideal) → (⟨S16384x16, .f32⟩ : BufTy).Contents (Elt Ideal)),
    binary main_v41 main_v45 main_v46 (mulf (F := Ideal) (φ := .f32) : (⟨S16384x16, .f32⟩ : BufTy).Contents (Elt Ideal) → (⟨S16384x16, .f32⟩ : BufTy).Contents (Elt Ideal) → (⟨S16384x16, .f32⟩ : BufTy).Contents (Elt Ideal)),
    unary main_v43 main_v47 (broadcastInDim S16384x16x1 ![0, 1] bcast_S16384x16_S16384x16x1_0_1 : (⟨S16384x16, .f32⟩ : BufTy).Contents (Elt Ideal) → (⟨S16384x16x1, .f32⟩ : BufTy).Contents (Elt Ideal)),
    unary main_v46 main_v48 (broadcastInDim S16384x16x1 ![0, 1] bcast_S16384x16_S16384x16x1_0_1 : (⟨S16384x16, .f32⟩ : BufTy).Contents (Elt Ideal) → (⟨S16384x16x1, .f32⟩ : BufTy).Contents (Elt Ideal)),
    binary main_v47 main_v48 main_v49 ((fun a b => concatenate S16384x16x2 2 [⟨S16384x16x1, a⟩, ⟨S16384x16x1, b⟩] concatenates_S16384x16x1_S16384x16x1_S16384x16x2_d2) : (⟨S16384x16x1, .f32⟩ : BufTy).Contents (Elt Ideal) → (⟨S16384x16x1, .f32⟩ : BufTy).Contents (Elt Ideal) → (⟨S16384x16x2, .f32⟩ : BufTy).Contents (Elt Ideal)),
    reshape main_v49 main_v50 rfl shapeCasts_S16384x16x2_S16384x32 ]

/-- They leave the level step in the level's last buffer … -/
theorem seg4_out (V : Valuation τ sig (Elt Ideal)) :
    after seg4 V (Proc.devRef .tc main_v50) = step16 (V (Proc.devRef .tc main_v41)) (V (Proc.devRef .tc main_v4)) := by
  unfold seg4
  after_results
  rfl

/-- … and the probability array as it was. -/
theorem seg4_keep (V : Valuation τ sig (Elt Ideal)) :
    after seg4 V (Proc.devRef .tc main_v4) = V (Proc.devRef .tc main_v4) := by
  unfold seg4
  after_results

/-- The operations of the level with 32 nodes. -/
def seg5 : List (HloOp τ sig (Elt Ideal)) :=
  [ unary main_v4 main_v51 ((extractStridedSlice S16384x32 ![0, 32] · slices_S16384x1024_S16384x32_0_32) : (⟨S16384x1024, .f32⟩ : BufTy).Contents (Elt Ideal) → (⟨S16384x32, .f32⟩ : BufTy).Contents (Elt Ideal)),
    binary main_v50 main_v51 main_v52 (mulf (F := Ideal) (φ := .f32) : (⟨S16384x32, .f32⟩ : BufTy).Contents (Elt Ideal) → (⟨S16384x32, .f32⟩ : BufTy).Contents (Elt Ideal) → (⟨S16384x32, .f32⟩ : BufTy).Contents (Elt Ideal)),
    nullary main_cst_5 (constant (F := Ideal) S_ .f32 0x3F800000#32),
    unary main_cst_5 main_v53 (broadcastInDim S16384x32 ![] bcast_S_S16384x32 : (⟨S_, .f32⟩ : BufTy).Contents (Elt Ideal) → (⟨S16384x32, .f32⟩ : BufTy).Contents (Elt Ideal)),
    binary main_v53 main_v51 main_v54 (subf (F := Ideal) (φ := .f32) : (⟨S16384x32, .f32⟩ : BufTy).Contents (Elt Ideal) → (⟨S16384x32, .f32⟩ : BufTy).Contents (Elt Ideal) → (⟨S16384x32, .f32⟩ : BufTy).Contents (Elt Ideal)),
    binary main_v50 main_v54 main_v55 (mulf (F := Ideal) (φ := .f32) : (⟨S16384x32, .f32⟩ : BufTy).Contents (Elt Ideal) → (⟨S16384x32, .f32⟩ : BufTy).Contents (Elt Ideal) → (⟨S16384x32, .f32⟩ : BufTy).Contents (Elt Ideal)),
    unary main_v52 main_v56 (broadcastInDim S16384x32x1 ![0, 1] bcast_S16384x32_S16384x32x1_0_1 : (⟨S16384x32, .f32⟩ : BufTy).Contents (Elt Ideal) → (⟨S16384x32x1, .f32⟩ : BufTy).Contents (Elt Ideal)),
    unary main_v55 main_v57 (broadcastInDim S16384x32x1 ![0, 1] bcast_S16384x32_S16384x32x1_0_1 : (⟨S16384x32, .f32⟩ : BufTy).Contents (Elt Ideal) → (⟨S16384x32x1, .f32⟩ : BufTy).Contents (Elt Ideal)),
    binary main_v56 main_v57 main_v58 ((fun a b => concatenate S16384x32x2 2 [⟨S16384x32x1, a⟩, ⟨S16384x32x1, b⟩] concatenates_S16384x32x1_S16384x32x1_S16384x32x2_d2) : (⟨S16384x32x1, .f32⟩ : BufTy).Contents (Elt Ideal) → (⟨S16384x32x1, .f32⟩ : BufTy).Contents (Elt Ideal) → (⟨S16384x32x2, .f32⟩ : BufTy).Contents (Elt Ideal)),
    reshape main_v58 main_v59 rfl shapeCasts_S16384x32x2_S16384x64 ]

/-- They leave the level step in the level's last buffer … -/
theorem seg5_out (V : Valuation τ sig (Elt Ideal)) :
    after seg5 V (Proc.devRef .tc main_v59) = step32 (V (Proc.devRef .tc main_v50)) (V (Proc.devRef .tc main_v4)) := by
  unfold seg5
  after_results
  rfl

/-- … and the probability array as it was. -/
theorem seg5_keep (V : Valuation τ sig (Elt Ideal)) :
    after seg5 V (Proc.devRef .tc main_v4) = V (Proc.devRef .tc main_v4) := by
  unfold seg5
  after_results

/-- The operations of the level with 64 nodes. -/
def seg6 : List (HloOp τ sig (Elt Ideal)) :=
  [ unary main_v4 main_v60 ((extractStridedSlice S16384x64 ![0, 64] · slices_S16384x1024_S16384x64_0_64) : (⟨S16384x1024, .f32⟩ : BufTy).Contents (Elt Ideal) → (⟨S16384x64, .f32⟩ : BufTy).Contents (Elt Ideal)),
    binary main_v59 main_v60 main_v61 (mulf (F := Ideal) (φ := .f32) : (⟨S16384x64, .f32⟩ : BufTy).Contents (Elt Ideal) → (⟨S16384x64, .f32⟩ : BufTy).Contents (Elt Ideal) → (⟨S16384x64, .f32⟩ : BufTy).Contents (Elt Ideal)),
    nullary main_cst_6 (constant (F := Ideal) S_ .f32 0x3F800000#32),
    unary main_cst_6 main_v62 (broadcastInDim S16384x64 ![] bcast_S_S16384x64 : (⟨S_, .f32⟩ : BufTy).Contents (Elt Ideal) → (⟨S16384x64, .f32⟩ : BufTy).Contents (Elt Ideal)),
    binary main_v62 main_v60 main_v63 (subf (F := Ideal) (φ := .f32) : (⟨S16384x64, .f32⟩ : BufTy).Contents (Elt Ideal) → (⟨S16384x64, .f32⟩ : BufTy).Contents (Elt Ideal) → (⟨S16384x64, .f32⟩ : BufTy).Contents (Elt Ideal)),
    binary main_v59 main_v63 main_v64 (mulf (F := Ideal) (φ := .f32) : (⟨S16384x64, .f32⟩ : BufTy).Contents (Elt Ideal) → (⟨S16384x64, .f32⟩ : BufTy).Contents (Elt Ideal) → (⟨S16384x64, .f32⟩ : BufTy).Contents (Elt Ideal)),
    unary main_v61 main_v65 (broadcastInDim S16384x64x1 ![0, 1] bcast_S16384x64_S16384x64x1_0_1 : (⟨S16384x64, .f32⟩ : BufTy).Contents (Elt Ideal) → (⟨S16384x64x1, .f32⟩ : BufTy).Contents (Elt Ideal)),
    unary main_v64 main_v66 (broadcastInDim S16384x64x1 ![0, 1] bcast_S16384x64_S16384x64x1_0_1 : (⟨S16384x64, .f32⟩ : BufTy).Contents (Elt Ideal) → (⟨S16384x64x1, .f32⟩ : BufTy).Contents (Elt Ideal)),
    binary main_v65 main_v66 main_v67 ((fun a b => concatenate S16384x64x2 2 [⟨S16384x64x1, a⟩, ⟨S16384x64x1, b⟩] concatenates_S16384x64x1_S16384x64x1_S16384x64x2_d2) : (⟨S16384x64x1, .f32⟩ : BufTy).Contents (Elt Ideal) → (⟨S16384x64x1, .f32⟩ : BufTy).Contents (Elt Ideal) → (⟨S16384x64x2, .f32⟩ : BufTy).Contents (Elt Ideal)),
    reshape main_v67 main_v68 rfl shapeCasts_S16384x64x2_S16384x128 ]

/-- They leave the level step in the level's last buffer … -/
theorem seg6_out (V : Valuation τ sig (Elt Ideal)) :
    after seg6 V (Proc.devRef .tc main_v68) = step64 (V (Proc.devRef .tc main_v59)) (V (Proc.devRef .tc main_v4)) := by
  unfold seg6
  after_results
  rfl

/-- … and the probability array as it was. -/
theorem seg6_keep (V : Valuation τ sig (Elt Ideal)) :
    after seg6 V (Proc.devRef .tc main_v4) = V (Proc.devRef .tc main_v4) := by
  unfold seg6
  after_results

/-- The operations of the level with 128 nodes. -/
def seg7 : List (HloOp τ sig (Elt Ideal)) :=
  [ unary main_v4 main_v69 ((extractStridedSlice S16384x128 ![0, 128] · slices_S16384x1024_S16384x128_0_128) : (⟨S16384x1024, .f32⟩ : BufTy).Contents (Elt Ideal) → (⟨S16384x128, .f32⟩ : BufTy).Contents (Elt Ideal)),
    binary main_v68 main_v69 main_v70 (mulf (F := Ideal) (φ := .f32) : (⟨S16384x128, .f32⟩ : BufTy).Contents (Elt Ideal) → (⟨S16384x128, .f32⟩ : BufTy).Contents (Elt Ideal) → (⟨S16384x128, .f32⟩ : BufTy).Contents (Elt Ideal)),
    nullary main_cst_7 (constant (F := Ideal) S_ .f32 0x3F800000#32),
    unary main_cst_7 main_v71 (broadcastInDim S16384x128 ![] bcast_S_S16384x128 : (⟨S_, .f32⟩ : BufTy).Contents (Elt Ideal) → (⟨S16384x128, .f32⟩ : BufTy).Contents (Elt Ideal)),
    binary main_v71 main_v69 main_v72 (subf (F := Ideal) (φ := .f32) : (⟨S16384x128, .f32⟩ : BufTy).Contents (Elt Ideal) → (⟨S16384x128, .f32⟩ : BufTy).Contents (Elt Ideal) → (⟨S16384x128, .f32⟩ : BufTy).Contents (Elt Ideal)),
    binary main_v68 main_v72 main_v73 (mulf (F := Ideal) (φ := .f32) : (⟨S16384x128, .f32⟩ : BufTy).Contents (Elt Ideal) → (⟨S16384x128, .f32⟩ : BufTy).Contents (Elt Ideal) → (⟨S16384x128, .f32⟩ : BufTy).Contents (Elt Ideal)),
    unary main_v70 main_v74 (broadcastInDim S16384x128x1 ![0, 1] bcast_S16384x128_S16384x128x1_0_1 : (⟨S16384x128, .f32⟩ : BufTy).Contents (Elt Ideal) → (⟨S16384x128x1, .f32⟩ : BufTy).Contents (Elt Ideal)),
    unary main_v73 main_v75 (broadcastInDim S16384x128x1 ![0, 1] bcast_S16384x128_S16384x128x1_0_1 : (⟨S16384x128, .f32⟩ : BufTy).Contents (Elt Ideal) → (⟨S16384x128x1, .f32⟩ : BufTy).Contents (Elt Ideal)),
    binary main_v74 main_v75 main_v76 ((fun a b => concatenate S16384x128x2 2 [⟨S16384x128x1, a⟩, ⟨S16384x128x1, b⟩] concatenates_S16384x128x1_S16384x128x1_S16384x128x2_d2) : (⟨S16384x128x1, .f32⟩ : BufTy).Contents (Elt Ideal) → (⟨S16384x128x1, .f32⟩ : BufTy).Contents (Elt Ideal) → (⟨S16384x128x2, .f32⟩ : BufTy).Contents (Elt Ideal)),
    reshape main_v76 main_v77 rfl shapeCasts_S16384x128x2_S16384x256 ]

/-- They leave the level step in the level's last buffer … -/
theorem seg7_out (V : Valuation τ sig (Elt Ideal)) :
    after seg7 V (Proc.devRef .tc main_v77) = step128 (V (Proc.devRef .tc main_v68)) (V (Proc.devRef .tc main_v4)) := by
  unfold seg7
  after_results
  rfl

/-- … and the probability array as it was. -/
theorem seg7_keep (V : Valuation τ sig (Elt Ideal)) :
    after seg7 V (Proc.devRef .tc main_v4) = V (Proc.devRef .tc main_v4) := by
  unfold seg7
  after_results

/-- The operations of the level with 256 nodes. -/
def seg8 : List (HloOp τ sig (Elt Ideal)) :=
  [ unary main_v4 main_v78 ((extractStridedSlice S16384x256 ![0, 256] · slices_S16384x1024_S16384x256_0_256) : (⟨S16384x1024, .f32⟩ : BufTy).Contents (Elt Ideal) → (⟨S16384x256, .f32⟩ : BufTy).Contents (Elt Ideal)),
    binary main_v77 main_v78 main_v79 (mulf (F := Ideal) (φ := .f32) : (⟨S16384x256, .f32⟩ : BufTy).Contents (Elt Ideal) → (⟨S16384x256, .f32⟩ : BufTy).Contents (Elt Ideal) → (⟨S16384x256, .f32⟩ : BufTy).Contents (Elt Ideal)),
    nullary main_cst_8 (constant (F := Ideal) S_ .f32 0x3F800000#32),
    unary main_cst_8 main_v80 (broadcastInDim S16384x256 ![] bcast_S_S16384x256 : (⟨S_, .f32⟩ : BufTy).Contents (Elt Ideal) → (⟨S16384x256, .f32⟩ : BufTy).Contents (Elt Ideal)),
    binary main_v80 main_v78 main_v81 (subf (F := Ideal) (φ := .f32) : (⟨S16384x256, .f32⟩ : BufTy).Contents (Elt Ideal) → (⟨S16384x256, .f32⟩ : BufTy).Contents (Elt Ideal) → (⟨S16384x256, .f32⟩ : BufTy).Contents (Elt Ideal)),
    binary main_v77 main_v81 main_v82 (mulf (F := Ideal) (φ := .f32) : (⟨S16384x256, .f32⟩ : BufTy).Contents (Elt Ideal) → (⟨S16384x256, .f32⟩ : BufTy).Contents (Elt Ideal) → (⟨S16384x256, .f32⟩ : BufTy).Contents (Elt Ideal)),
    unary main_v79 main_v83 (broadcastInDim S16384x256x1 ![0, 1] bcast_S16384x256_S16384x256x1_0_1 : (⟨S16384x256, .f32⟩ : BufTy).Contents (Elt Ideal) → (⟨S16384x256x1, .f32⟩ : BufTy).Contents (Elt Ideal)),
    unary main_v82 main_v84 (broadcastInDim S16384x256x1 ![0, 1] bcast_S16384x256_S16384x256x1_0_1 : (⟨S16384x256, .f32⟩ : BufTy).Contents (Elt Ideal) → (⟨S16384x256x1, .f32⟩ : BufTy).Contents (Elt Ideal)),
    binary main_v83 main_v84 main_v85 ((fun a b => concatenate S16384x256x2 2 [⟨S16384x256x1, a⟩, ⟨S16384x256x1, b⟩] concatenates_S16384x256x1_S16384x256x1_S16384x256x2_d2) : (⟨S16384x256x1, .f32⟩ : BufTy).Contents (Elt Ideal) → (⟨S16384x256x1, .f32⟩ : BufTy).Contents (Elt Ideal) → (⟨S16384x256x2, .f32⟩ : BufTy).Contents (Elt Ideal)),
    reshape main_v85 main_v86 rfl shapeCasts_S16384x256x2_S16384x512 ]

/-- They leave the level step in the level's last buffer … -/
theorem seg8_out (V : Valuation τ sig (Elt Ideal)) :
    after seg8 V (Proc.devRef .tc main_v86) = step256 (V (Proc.devRef .tc main_v77)) (V (Proc.devRef .tc main_v4)) := by
  unfold seg8
  after_results
  rfl

/-- … and the probability array as it was. -/
theorem seg8_keep (V : Valuation τ sig (Elt Ideal)) :
    after seg8 V (Proc.devRef .tc main_v4) = V (Proc.devRef .tc main_v4) := by
  unfold seg8
  after_results

/-- The operations of the level with 512 nodes. -/
def seg9 : List (HloOp τ sig (Elt Ideal)) :=
  [ unary main_v4 main_v87 ((extractStridedSlice S16384x512 ![0, 512] · slices_S16384x1024_S16384x512_0_512) : (⟨S16384x1024, .f32⟩ : BufTy).Contents (Elt Ideal) → (⟨S16384x512, .f32⟩ : BufTy).Contents (Elt Ideal)),
    binary main_v86 main_v87 main_v88 (mulf (F := Ideal) (φ := .f32) : (⟨S16384x512, .f32⟩ : BufTy).Contents (Elt Ideal) → (⟨S16384x512, .f32⟩ : BufTy).Contents (Elt Ideal) → (⟨S16384x512, .f32⟩ : BufTy).Contents (Elt Ideal)),
    nullary main_cst_9 (constant (F := Ideal) S_ .f32 0x3F800000#32),
    unary main_cst_9 main_v89 (broadcastInDim S16384x512 ![] bcast_S_S16384x512 : (⟨S_, .f32⟩ : BufTy).Contents (Elt Ideal) → (⟨S16384x512, .f32⟩ : BufTy).Contents (Elt Ideal)),
    binary main_v89 main_v87 main_v90 (subf (F := Ideal) (φ := .f32) : (⟨S16384x512, .f32⟩ : BufTy).Contents (Elt Ideal) → (⟨S16384x512, .f32⟩ : BufTy).Contents (Elt Ideal) → (⟨S16384x512, .f32⟩ : BufTy).Contents (Elt Ideal)),
    binary main_v86 main_v90 main_v91 (mulf (F := Ideal) (φ := .f32) : (⟨S16384x512, .f32⟩ : BufTy).Contents (Elt Ideal) → (⟨S16384x512, .f32⟩ : BufTy).Contents (Elt Ideal) → (⟨S16384x512, .f32⟩ : BufTy).Contents (Elt Ideal)),
    unary main_v88 main_v92 (broadcastInDim S16384x512x1 ![0, 1] bcast_S16384x512_S16384x512x1_0_1 : (⟨S16384x512, .f32⟩ : BufTy).Contents (Elt Ideal) → (⟨S16384x512x1, .f32⟩ : BufTy).Contents (Elt Ideal)),
    unary main_v91 main_v93 (broadcastInDim S16384x512x1 ![0, 1] bcast_S16384x512_S16384x512x1_0_1 : (⟨S16384x512, .f32⟩ : BufTy).Contents (Elt Ideal) → (⟨S16384x512x1, .f32⟩ : BufTy).Contents (Elt Ideal)),
    binary main_v92 main_v93 main_v94 ((fun a b => concatenate S16384x512x2 2 [⟨S16384x512x1, a⟩, ⟨S16384x512x1, b⟩] concatenates_S16384x512x1_S16384x512x1_S16384x512x2_d2) : (⟨S16384x512x1, .f32⟩ : BufTy).Contents (Elt Ideal) → (⟨S16384x512x1, .f32⟩ : BufTy).Contents (Elt Ideal) → (⟨S16384x512x2, .f32⟩ : BufTy).Contents (Elt Ideal)),
    reshape main_v94 main_v95 rfl shapeCasts_S16384x512x2_S16384x1024 ]

/-- They leave the level step in the level's last buffer … -/
theorem seg9_out (V : Valuation τ sig (Elt Ideal)) :
    after seg9 V (Proc.devRef .tc main_v95) = step512 (V (Proc.devRef .tc main_v86)) (V (Proc.devRef .tc main_v4)) := by
  unfold seg9
  after_results
  rfl

/-- … and the probability array as it was. -/
theorem seg9_keep (V : Valuation τ sig (Elt Ideal)) :
    after seg9 V (Proc.devRef .tc main_v4) = V (Proc.devRef .tc main_v4) := by
  unfold seg9
  after_results

set_option maxRecDepth 16384 in
/-- The printed list is the ten levels' lists, in order. -/
theorem hostOps1_eq : Cert.KernelIdeal.Gen.hostOps1 (F := Ideal)
    = seg0 ++ (seg1 ++ (seg2 ++ (seg3 ++ (seg4 ++ (seg5 ++ (seg6 ++ (seg7 ++ (seg8 ++ seg9)))))))) := rfl

/-- The printed operations, run in order from any contents, leave `tail` of the probability array in the last buffer. -/
theorem after_hostOps1 (V : Valuation τ sig (Elt Ideal)) :
    StableHlo.after (Cert.KernelIdeal.Gen.hostOps1 (F := Ideal)) V (Proc.devRef .tc main_v95)
      = tail (V (Proc.devRef .tc main_v4)) := by
  rw [hostOps1_eq]
  simp only [after_append]
  rw [seg9_out, seg8_out, seg8_keep, seg7_out, seg7_keep, seg6_out, seg6_keep, seg5_out, seg5_keep, seg4_out, seg4_keep,
    seg3_out, seg3_keep, seg2_out, seg2_keep, seg1_out, seg1_keep, seg0_out, seg0_keep]
  rfl

end Cert.KTail

end
-- ==== Proof.KLevels.lean ====
/-
  The kernel side's ten routing levels read at an index: the result is the routing function of the probability array.

  Each level takes the weights `mu : [16384, w]` of the `w = 2ⁿ` nodes of level `n` and the probability array `D`,
  multiplies `mu` by columns `w … 2 w - 1` of `D` and by one minus them, pairs the two products along a new last axis
  ([16384, w, 2]) and reads the pairs row-major as [16384, 2 w]. Entry `(b, j)` of that is pair `(b, j / 2, j % 2)`:
  the weight of node `j / 2` times the probability at column `w + j / 2` (`j` even) or one minus it (`j` odd), the
  recursion of `Cert.Route.route`. One lemma per level carries the all-ones column to the leaves.
-/
import proofs.«168763_j2963527434844_2_alg».proof.Proof.Spec
import proofs.«168763_j2963527434844_2_alg».proof.Proof.KTailDefs
import Idealize.ShloMosaic.Lib.Pipeline.Value
import Idealize.ShloMosaic.Lib.ValueIdx

noncomputable section

namespace Cert.KLevels

open Idealize.ShloMosaic Idealize.ShloMosaic.ValueIdx
open Cert.KernelIdeal Cert.KernelIdeal.Gen
open Cert.Route

/-- Level 0: every entry of the all-ones column is the word of one, the weight of the root. -/
theorem mu0_reads (D : FVec Ideal S16384x1024 .f32) : Reads2 Cert.KTail.mu0 (route (nat2 D) 0) := by
  intro b j
  rfl

/-- One step down the tree at node `j`: the parent's weight times the branch probability of child `j % 2`, the
    decision of the parent `j / 2` being entry `w + j / 2` with `w = 2 ^ n` the number of nodes of level `n`. -/
theorem route_child (d : ℕ → ℕ → EReal) (n w b j : ℕ) (hw : 2 ^ n = w) :
    route d n b (j / 2) * (if j % 2 = 0 then d b (w + j / 2) else one - d b (w + j / 2)) = route d (n + 1) b j := by
  rw [route_succ, hw]

/-- The paired products of the level with 1 node: entry `(b, j, s)` is the weight of node `j` times the
    probability at column `1 + j` (`s = 0`) or times one minus it (`s = 1`). -/
theorem pair1_apply (mu : FVec Ideal S16384x1 .f32) (D : FVec Ideal S16384x1024 .f32)
    (b : Fin 16384) (j : Fin 1) (s : Fin 2) :
    concatenate S16384x1x2 2
        [⟨S16384x1x1, broadcastInDim S16384x1x1 ![0, 1] bcast_S16384x1_S16384x1x1_0_1 (mulf mu (extractStridedSlice S16384x1 ![0, 1] D slices_S16384x1024_S16384x1_0_1))⟩,
         ⟨S16384x1x1, broadcastInDim S16384x1x1 ![0, 1] bcast_S16384x1_S16384x1x1_0_1 (mulf mu (subf (broadcastInDim S16384x1 ![] bcast_S_S16384x1 (constant (F := Ideal) S_ .f32 0x3F800000#32)) (extractStridedSlice S16384x1 ![0, 1] D slices_S16384x1024_S16384x1_0_1)))⟩]
        concatenates_S16384x1x1_S16384x1x1_S16384x1x2_d2 (ix3 b j s)
      = mu (ix2 b j) * (if s.val = 0 then nat2 D b.val (1 + j.val) else one - nat2 D b.val (1 + j.val)) := by
  have hj : j.val < 1 := j.isLt
  have hD : nat2 D b.val (1 + j.val) = D (ix2 b (⟨1 + j.val, by omega⟩ : Fin 1024)) := nat2_of_lt D b _ _
  rw [hD]
  match s with
  | ⟨0, _⟩ =>
    rw [if_pos rfl]
    rw [concatenate_pair_apply_left 2 _ _ concatenates_S16384x1x1_S16384x1x1_S16384x1x2_d2 _ rfl (ix3 b j (0 : Fin 1))
      (fun a => by match a with | ⟨0, _⟩ => rfl | ⟨1, _⟩ => rfl | ⟨2, _⟩ => rfl)]
    rw [broadcastInDim_apply _ bcast_S16384x1_S16384x1x1_0_1 _ _ (ix2 b j) (fun a => by
        match a with
        | ⟨0, _⟩ => show b.val = if (16384 : ℕ) = 1 then 0 else b.val; rw [if_neg (by decide)]
        | ⟨1, _⟩ => show j.val = if (1 : ℕ) = 1 then 0 else j.val; split <;> omega)]
    rw [mulf_apply]
    rw [extractStridedSlice_apply ![0, 1] D slices_S16384x1024_S16384x1_0_1 (ix2 b j)
      (ix2 b (⟨1 + j.val, by omega⟩ : Fin 1024)) (fun a => by
        match a with
        | ⟨0, _⟩ => show b.val = 0 + b.val; omega
        | ⟨1, _⟩ => rfl)]
  | ⟨1, _⟩ =>
    rw [if_neg (show ¬ ((1 : ℕ) = 0) from Nat.one_ne_zero)]
    rw [concatenate_pair_apply_right 2 _ _ concatenates_S16384x1x1_S16384x1x1_S16384x1x2_d2 _ rfl rfl (ix3 b j (0 : Fin 1))
      (fun a ha => by match a with | ⟨0, _⟩ => rfl | ⟨1, _⟩ => rfl | ⟨2, _⟩ => exact absurd rfl ha) rfl]
    rw [broadcastInDim_apply _ bcast_S16384x1_S16384x1x1_0_1 _ _ (ix2 b j) (fun a => by
        match a with
        | ⟨0, _⟩ => show b.val = if (16384 : ℕ) = 1 then 0 else b.val; rw [if_neg (by decide)]
        | ⟨1, _⟩ => show j.val = if (1 : ℕ) = 1 then 0 else j.val; split <;> omega)]
    rw [mulf_apply, subf_apply]
    rw [extractStridedSlice_apply ![0, 1] D slices_S16384x1024_S16384x1_0_1 (ix2 b j)
      (ix2 b (⟨1 + j.val, by omega⟩ : Fin 1024)) (fun a => by
        match a with
        | ⟨0, _⟩ => show b.val = 0 + b.val; omega
        | ⟨1, _⟩ => rfl)]
    rfl

/-- From level 0 to level 1: read row-major, entry `(b, j)` of the pairs is entry `(b, j / 2, j % 2)`, the
    weight of the parent `j / 2` times the branch probability of child `j % 2`. -/
theorem step1_reads (mu : FVec Ideal S16384x1 .f32) (D : FVec Ideal S16384x1024 .f32)
    (hmu : Reads2 mu (route (nat2 D) 0)) : Reads2 (Cert.KTail.step1 mu D) (route (nat2 D) 1) := by
  intro b j
  have hb : b.val < 16384 := b.isLt
  have hj : j.val < 2 := j.isLt
  unfold Cert.KTail.step1
  rw [shapeCast_apply _ shapeCasts_S16384x1x2_S16384x2 (ix2 b j)
    (ix3 b (⟨j.val / 2, by omega⟩ : Fin 1) (⟨j.val % 2, by omega⟩ : Fin 2))
    (by rw [Shape.rowMajor_val_three, Shape.rowMajor_val_two]
        show (b.val * 1 + j.val / 2) * 2 + j.val % 2 = b.val * 2 + j.val
        omega)]
  rw [pair1_apply mu D b _ _, hmu b _]
  exact route_child (nat2 D) 0 1 b.val j.val (by norm_num)

/-- The paired products of the level with 2 nodes: entry `(b, j, s)` is the weight of node `j` times the
    probability at column `2 + j` (`s = 0`) or times one minus it (`s = 1`). -/
theorem pair2_apply (mu : FVec Ideal S16384x2 .f32) (D : FVec Ideal S16384x1024 .f32)
    (b : Fin 16384) (j : Fin 2) (s : Fin 2) :
    concatenate S16384x2x2 2
        [⟨S16384x2x1, broadcastInDim S16384x2x1 ![0, 1] bcast_S16384x2_S16384x2x1_0_1 (mulf mu (extractStridedSlice S16384x2 ![0, 2] D slices_S16384x1024_S16384x2_0_2))⟩,
         ⟨S16384x2x1, broadcastInDim S16384x2x1 ![0, 1] bcast_S16384x2_S16384x2x1_0_1 (mulf mu (subf (broadcastInDim S16384x2 ![] bcast_S_S16384x2 (constant (F := Ideal) S_ .f32 0x3F800000#32)) (extractStridedSlice S16384x2 ![0, 2] D slices_S16384x1024_S16384x2_0_2)))⟩]
        concatenates_S16384x2x1_S16384x2x1_S16384x2x2_d2 (ix3 b j s)
      = mu (ix2 b j) * (if s.val = 0 then nat2 D b.val (2 + j.val) else one - nat2 D b.val (2 + j.val)) := by
  have hj : j.val < 2 := j.isLt
  have hD : nat2 D b.val (2 + j.val) = D (ix2 b (⟨2 + j.val, by omega⟩ : Fin 1024)) := nat2_of_lt D b _ _
  rw [hD]
  match s with
  | ⟨0, _⟩ =>
    rw [if_pos rfl]
    rw [concatenate_pair_apply_left 2 _ _ concatenates_S16384x2x1_S16384x2x1_S16384x2x2_d2 _ rfl (ix3 b j (0 : Fin 1))
      (fun a => by match a with | ⟨0, _⟩ => rfl | ⟨1, _⟩ => rfl | ⟨2, _⟩ => rfl)]
    rw [broadcastInDim_apply _ bcast_S16384x2_S16384x2x1_0_1 _ _ (ix2 b j) (fun a => by
        match a with
        | ⟨0, _⟩ => show b.val = if (16384 : ℕ) = 1 then 0 else b.val; rw [if_neg (by decide)]
        | ⟨1, _⟩ => show j.val = if (2 : ℕ) = 1 then 0 else j.val; split <;> omega)]
    rw [mulf_apply]
    rw [extractStridedSlice_apply ![0, 2] D slices_S16384x1024_S16384x2_0_2 (ix2 b j)
      (ix2 b (⟨2 + j.val, by omega⟩ : Fin 1024)) (fun a => by
        match a with
        | ⟨0, _⟩ => show b.val = 0 + b.val; omega
        | ⟨1, _⟩ => rfl)]
  | ⟨1, _⟩ =>
    rw [if_neg (show ¬ ((1 : ℕ) = 0) from Nat.one_ne_zero)]
    rw [concatenate_pair_apply_right 2 _ _ concatenates_S16384x2x1_S16384x2x1_S16384x2x2_d2 _ rfl rfl (ix3 b j (0 : Fin 1))
      (fun a ha => by match a with | ⟨0, _⟩ => rfl | ⟨1, _⟩ => rfl | ⟨2, _⟩ => exact absurd rfl ha) rfl]
    rw [broadcastInDim_apply _ bcast_S16384x2_S16384x2x1_0_1 _ _ (ix2 b j) (fun a => by
        match a with
        | ⟨0, _⟩ => show b.val = if (16384 : ℕ) = 1 then 0 else b.val; rw [if_neg (by decide)]
        | ⟨1, _⟩ => show j.val = if (2 : ℕ) = 1 then 0 else j.val; split <;> omega)]
    rw [mulf_apply, subf_apply]
    rw [extractStridedSlice_apply ![0, 2] D slices_S16384x1024_S16384x2_0_2 (ix2 b j)
      (ix2 b (⟨2 + j.val, by omega⟩ : Fin 1024)) (fun a => by
        match a with
        | ⟨0, _⟩ => show b.val = 0 + b.val; omega
        | ⟨1, _⟩ => rfl)]
    rfl

/-- From level 1 to level 2: read row-major, entry `(b, j)` of the pairs is entry `(b, j / 2, j % 2)`, the
    weight of the parent `j / 2` times the branch probability of child `j % 2`. -/
theorem step2_reads (mu : FVec Ideal S16384x2 .f32) (D : FVec Ideal S16384x1024 .f32)
    (hmu : Reads2 mu (route (nat2 D) 1)) : Reads2 (Cert.KTail.step2 mu D) (route (nat2 D) 2) := by
  intro b j
  have hb : b.val < 16384 := b.isLt
  have hj : j.val < 4 := j.isLt
  unfold Cert.KTail.step2
  rw [shapeCast_apply _ shapeCasts_S16384x2x2_S16384x4 (ix2 b j)
    (ix3 b (⟨j.val / 2, by omega⟩ : Fin 2) (⟨j.val % 2, by omega⟩ : Fin 2))
    (by rw [Shape.rowMajor_val_three, Shape.rowMajor_val_two]
        show (b.val * 2 + j.val / 2) * 2 + j.val % 2 = b.val * 4 + j.val
        omega)]
  rw [pair2_apply mu D b _ _, hmu b _]
  exact route_child (nat2 D) 1 2 b.val j.val (by norm_num)

/-- The paired products of the level with 4 nodes: entry `(b, j, s)` is the weight of node `j` times the
    probability at column `4 + j` (`s = 0`) or times one minus it (`s = 1`). -/
theorem pair4_apply (mu : FVec Ideal S16384x4 .f32) (D : FVec Ideal S16384x1024 .f32)
    (b : Fin 16384) (j : Fin 4) (s : Fin 2) :
    concatenate S16384x4x2 2
        [⟨S16384x4x1, broadcastInDim S16384x4x1 ![0, 1] bcast_S16384x4_S16384x4x1_0_1 (mulf mu (extractStridedSlice S16384x4 ![0, 4] D slices_S16384x1024_S16384x4_0_4))⟩,
         ⟨S16384x4x1, broadcastInDim S16384x4x1 ![0, 1] bcast_S16384x4_S16384x4x1_0_1 (mulf mu (subf (broadcastInDim S16384x4 ![] bcast_S_S16384x4 (constant (F := Ideal) S_ .f32 0x3F800000#32)) (extractStridedSlice S16384x4 ![0, 4] D slices_S16384x1024_S16384x4_0_4)))⟩]
        concatenates_S16384x4x1_S16384x4x1_S16384x4x2_d2 (ix3 b j s)
      = mu (ix2 b j) * (if s.val = 0 then nat2 D b.val (4 + j.val) else one - nat2 D b.val (4 + j.val)) := by
  have hj : j.val < 4 := j.isLt
  have hD : nat2 D b.val (4 + j.val) = D (ix2 b (⟨4 + j.val, by omega⟩ : Fin 1024)) := nat2_of_lt D b _ _
  rw [hD]
  match s with
  | ⟨0, _⟩ =>
    rw [if_pos rfl]
    rw [concatenate_pair_apply_left 2 _ _ concatenates_S16384x4x1_S16384x4x1_S16384x4x2_d2 _ rfl (ix3 b j (0 : Fin 1))
      (fun a => by match a with | ⟨0, _⟩ => rfl | ⟨1, _⟩ => rfl | ⟨2, _⟩ => rfl)]
    rw [broadcastInDim_apply _ bcast_S16384x4_S16384x4x1_0_1 _ _ (ix2 b j) (fun a => by
        match a with
        | ⟨0, _⟩ => show b.val = if (16384 : ℕ) = 1 then 0 else b.val; rw [if_neg (by decide)]
        | ⟨1, _⟩ => show j.val = if (4 : ℕ) = 1 then 0 else j.val; split <;> omega)]
    rw [mulf_apply]
    rw [extractStridedSlice_apply ![0, 4] D slices_S16384x1024_S16384x4_0_4 (ix2 b j)
      (ix2 b (⟨4 + j.val, by omega⟩ : Fin 1024)) (fun a => by
        match a with
        | ⟨0, _⟩ => show b.val = 0 + b.val; omega
        | ⟨1, _⟩ => rfl)]
  | ⟨1, _⟩ =>
    rw [if_neg (show ¬ ((1 : ℕ) = 0) from Nat.one_ne_zero)]
    rw [concatenate_pair_apply_right 2 _ _ concatenates_S16384x4x1_S16384x4x1_S16384x4x2_d2 _ rfl rfl (ix3 b j (0 : Fin 1))
      (fun a ha => by match a with | ⟨0, _⟩ => rfl | ⟨1, _⟩ => rfl | ⟨2, _⟩ => exact absurd rfl ha) rfl]
    rw [broadcastInDim_apply _ bcast_S16384x4_S16384x4x1_0_1 _ _ (ix2 b j) (fun a => by
        match a with
        | ⟨0, _⟩ => show b.val = if (16384 : ℕ) = 1 then 0 else b.val; rw [if_neg (by decide)]
        | ⟨1, _⟩ => show j.val = if (4 : ℕ) = 1 then 0 else j.val; split <;> omega)]
    rw [mulf_apply, subf_apply]
    rw [extractStridedSlice_apply ![0, 4] D slices_S16384x1024_S16384x4_0_4 (ix2 b j)
      (ix2 b (⟨4 + j.val, by omega⟩ : Fin 1024)) (fun a => by
        match a with
        | ⟨0, _⟩ => show b.val = 0 + b.val; omega
        | ⟨1, _⟩ => rfl)]
    rfl

/-- From level 2 to level 3: read row-major, entry `(b, j)` of the pairs is entry `(b, j / 2, j % 2)`, the
    weight of the parent `j / 2` times the branch probability of child `j % 2`. -/
theorem step4_reads (mu : FVec Ideal S16384x4 .f32) (D : FVec Ideal S16384x1024 .f32)
    (hmu : Reads2 mu (route (nat2 D) 2)) : Reads2 (Cert.KTail.step4 mu D) (route (nat2 D) 3) := by
  intro b j
  have hb : b.val < 16384 := b.isLt
  have hj : j.val < 8 := j.isLt
  unfold Cert.KTail.step4
  rw [shapeCast_apply _ shapeCasts_S16384x4x2_S16384x8 (ix2 b j)
    (ix3 b (⟨j.val / 2, by omega⟩ : Fin 4) (⟨j.val % 2, by omega⟩ : Fin 2))
    (by rw [Shape.rowMajor_val_three, Shape.rowMajor_val_two]
        show (b.val * 4 + j.val / 2) * 2 + j.val % 2 = b.val * 8 + j.val
        omega)]
  rw [pair4_apply mu D b _ _, hmu b _]
  exact route_child (nat2 D) 2 4 b.val j.val (by norm_num)

/-- The paired products of the level with 8 nodes: entry `(b, j, s)` is the weight of node `j` times the
    probability at column `8 + j` (`s = 0`) or times one minus it (`s = 1`). -/
theorem pair8_apply (mu : FVec Ideal S16384x8 .f32) (D : FVec Ideal S16384x1024 .f32)
    (b : Fin 16384) (j : Fin 8) (s : Fin 2) :
    concatenate S16384x8x2 2
        [⟨S16384x8x1, broadcastInDim S16384x8x1 ![0, 1] bcast_S16384x8_S16384x8x1_0_1 (mulf mu (extractStridedSlice S16384x8 ![0, 8] D slices_S16384x1024_S16384x8_0_8))⟩,
         ⟨S16384x8x1, broadcastInDim S16384x8x1 ![0, 1] bcast_S16384x8_S16384x8x1_0_1 (mulf mu (subf (broadcastInDim S16384x8 ![] bcast_S_S16384x8 (constant (F := Ideal) S_ .f32 0x3F800000#32)) (extractStridedSlice S16384x8 ![0, 8] D slices_S16384x1024_S16384x8_0_8)))⟩]
        concatenates_S16384x8x1_S16384x8x1_S16384x8x2_d2 (ix3 b j s)
      = mu (ix2 b j) * (if s.val = 0 then nat2 D b.val (8 + j.val) else one - nat2 D b.val (8 + j.val)) := by
  have hj : j.val < 8 := j.isLt
  have hD : nat2 D b.val (8 + j.val) = D (ix2 b (⟨8 + j.val, by omega⟩ : Fin 1024)) := nat2_of_lt D b _ _
  rw [hD]
  match s with
  | ⟨0, _⟩ =>
    rw [if_pos rfl]
    rw [concatenate_pair_apply_left 2 _ _ concatenates_S16384x8x1_S16384x8x1_S16384x8x2_d2 _ rfl (ix3 b j (0 : Fin 1))
      (fun a => by match a with | ⟨0, _⟩ => rfl | ⟨1, _⟩ => rfl | ⟨2, _⟩ => rfl)]
    rw [broadcastInDim_apply _ bcast_S16384x8_S16384x8x1_0_1 _ _ (ix2 b j) (fun a => by
        match a with
        | ⟨0, _⟩ => show b.val = if (16384 : ℕ) = 1 then 0 else b.val; rw [if_neg (by decide)]
        | ⟨1, _⟩ => show j.val = if (8 : ℕ) = 1 then 0 else j.val; split <;> omega)]
    rw [mulf_apply]
    rw [extractStridedSlice_apply ![0, 8] D slices_S16384x1024_S16384x8_0_8 (ix2 b j)
      (ix2 b (⟨8 + j.val, by omega⟩ : Fin 1024)) (fun a => by
        match a with
        | ⟨0, _⟩ => show b.val = 0 + b.val; omega
        | ⟨1, _⟩ => rfl)]
  | ⟨1, _⟩ =>
    rw [if_neg (show ¬ ((1 : ℕ) = 0) from Nat.one_ne_zero)]
    rw [concatenate_pair_apply_right 2 _ _ concatenates_S16384x8x1_S16384x8x1_S16384x8x2_d2 _ rfl rfl (ix3 b j (0 : Fin 1))
      (fun a ha => by match a with | ⟨0, _⟩ => rfl | ⟨1, _⟩ => rfl | ⟨2, _⟩ => exact absurd rfl ha) rfl]
    rw [broadcastInDim_apply _ bcast_S16384x8_S16384x8x1_0_1 _ _ (ix2 b j) (fun a => by
        match a with
        | ⟨0, _⟩ => show b.val = if (16384 : ℕ) = 1 then 0 else b.val; rw [if_neg (by decide)]
        | ⟨1, _⟩ => show j.val = if (8 : ℕ) = 1 then 0 else j.val; split <;> omega)]
    rw [mulf_apply, subf_apply]
    rw [extractStridedSlice_apply ![0, 8] D slices_S16384x1024_S16384x8_0_8 (ix2 b j)
      (ix2 b (⟨8 + j.val, by omega⟩ : Fin 1024)) (fun a => by
        match a with
        | ⟨0, _⟩ => show b.val = 0 + b.val; omega
        | ⟨1, _⟩ => rfl)]
    rfl

/-- From level 3 to level 4: read row-major, entry `(b, j)` of the pairs is entry `(b, j / 2, j % 2)`, the
    weight of the parent `j / 2` times the branch probability of child `j % 2`. -/
theorem step8_reads (mu : FVec Ideal S16384x8 .f32) (D : FVec Ideal S16384x1024 .f32)
    (hmu : Reads2 mu (route (nat2 D) 3)) : Reads2 (Cert.KTail.step8 mu D) (route (nat2 D) 4) := by
  intro b j
  have hb : b.val < 16384 := b.isLt
  have hj : j.val < 16 := j.isLt
  unfold Cert.KTail.step8
  rw [shapeCast_apply _ shapeCasts_S16384x8x2_S16384x16 (ix2 b j)
    (ix3 b (⟨j.val / 2, by omega⟩ : Fin 8) (⟨j.val % 2, by omega⟩ : Fin 2))
    (by rw [Shape.rowMajor_val_three, Shape.rowMajor_val_two]
        show (b.val * 8 + j.val / 2) * 2 + j.val % 2 = b.val * 16 + j.val
        omega)]
  rw [pair8_apply mu D b _ _, hmu b _]
  exact route_child (nat2 D) 3 8 b.val j.val (by norm_num)

/-- The paired products of the level with 16 nodes: entry `(b, j, s)` is the weight of node `j` times the
    probability at column `16 + j` (`s = 0`) or times one minus it (`s = 1`). -/
theorem pair16_apply (mu : FVec Ideal S16384x16 .f32) (D : FVec Ideal S16384x1024 .f32)
    (b : Fin 16384) (j : Fin 16) (s : Fin 2) :
    concatenate S16384x16x2 2
        [⟨S16384x16x1, broadcastInDim S16384x16x1 ![0, 1] bcast_S16384x16_S16384x16x1_0_1 (mulf mu (extractStridedSlice S16384x16 ![0, 16] D slices_S16384x1024_S16384x16_0_16))⟩,
         ⟨S16384x16x1, broadcastInDim S16384x16x1 ![0, 1] bcast_S16384x16_S16384x16x1_0_1 (mulf mu (subf (broadcastInDim S16384x16 ![] bcast_S_S16384x16 (constant (F := Ideal) S_ .f32 0x3F800000#32)) (extractStridedSlice S16384x16 ![0, 16] D slices_S16384x1024_S16384x16_0_16)))⟩]
        concatenates_S16384x16x1_S16384x16x1_S16384x16x2_d2 (ix3 b j s)
      = mu (ix2 b j) * (if s.val = 0 then nat2 D b.val (16 + j.val) else one - nat2 D b.val (16 + j.val)) := by
  have hj : j.val < 16 := j.isLt
  have hD : nat2 D b.val (16 + j.val) = D (ix2 b (⟨16 + j.val, by omega⟩ : Fin 1024)) := nat2_of_lt D b _ _
  rw [hD]
  match s with
  | ⟨0, _⟩ =>
    rw [if_pos rfl]
    rw [concatenate_pair_apply_left 2 _ _ concatenates_S16384x16x1_S16384x16x1_S16384x16x2_d2 _ rfl (ix3 b j (0 : Fin 1))
      (fun a => by match a with | ⟨0, _⟩ => rfl | ⟨1, _⟩ => rfl | ⟨2, _⟩ => rfl)]
    rw [broadcastInDim_apply _ bcast_S16384x16_S16384x16x1_0_1 _ _ (ix2 b j) (fun a => by
        match a with
        | ⟨0, _⟩ => show b.val = if (16384 : ℕ) = 1 then 0 else b.val; rw [if_neg (by decide)]
        | ⟨1, _⟩ => show j.val = if (16 : ℕ) = 1 then 0 else j.val; split <;> omega)]
    rw [mulf_apply]
    rw [extractStridedSlice_apply ![0, 16] D slices_S16384x1024_S16384x16_0_16 (ix2 b j)
      (ix2 b (⟨16 + j.val, by omega⟩ : Fin 1024)) (fun a => by
        match a with
        | ⟨0, _⟩ => show b.val = 0 + b.val; omega
        | ⟨1, _⟩ => rfl)]
  | ⟨1, _⟩ =>
    rw [if_neg (show ¬ ((1 : ℕ) = 0) from Nat.one_ne_zero)]
    rw [concatenate_pair_apply_right 2 _ _ concatenates_S16384x16x1_S16384x16x1_S16384x16x2_d2 _ rfl rfl (ix3 b j (0 : Fin 1))
      (fun a ha => by match a with | ⟨0, _⟩ => rfl | ⟨1, _⟩ => rfl | ⟨2, _⟩ => exact absurd rfl ha) rfl]
    rw [broadcastInDim_apply _ bcast_S16384x16_S16384x16x1_0_1 _ _ (ix2 b j) (fun a => by
        match a with
        | ⟨0, _⟩ => show b.val = if (16384 : ℕ) = 1 then 0 else b.val; rw [if_neg (by decide)]
        | ⟨1, _⟩ => show j.val = if (16 : ℕ) = 1 then 0 else j.val; split <;> omega)]
    rw [mulf_apply, subf_apply]
    rw [extractStridedSlice_apply ![0, 16] D slices_S16384x1024_S16384x16_0_16 (ix2 b j)
      (ix2 b (⟨16 + j.val, by omega⟩ : Fin 1024)) (fun a => by
        match a with
        | ⟨0, _⟩ => show b.val = 0 + b.val; omega
        | ⟨1, _⟩ => rfl)]
    rfl

/-- From level 4 to level 5: read row-major, entry `(b, j)` of the pairs is entry `(b, j / 2, j % 2)`, the
    weight of the parent `j / 2` times the branch probability of child `j % 2`. -/
theorem step16_reads (mu : FVec Ideal S16384x16 .f32) (D : FVec Ideal S16384x1024 .f32)
    (hmu : Reads2 mu (route (nat2 D) 4)) : Reads2 (Cert.KTail.step16 mu D) (route (nat2 D) 5) := by
  intro b j
  have hb : b.val < 16384 := b.isLt
  have hj : j.val < 32 := j.isLt
  unfold Cert.KTail.step16
  rw [shapeCast_apply _ shapeCasts_S16384x16x2_S16384x32 (ix2 b j)
    (ix3 b (⟨j.val / 2, by omega⟩ : Fin 16) (⟨j.val % 2, by omega⟩ : Fin 2))
    (by rw [Shape.rowMajor_val_three, Shape.rowMajor_val_two]
        show (b.val * 16 + j.val / 2) * 2 + j.val % 2 = b.val * 32 + j.val
        omega)]
  rw [pair16_apply mu D b _ _, hmu b _]
  exact route_child (nat2 D) 4 16 b.val j.val (by norm_num)

/-- The paired products of the level with 32 nodes: entry `(b, j, s)` is the weight of node `j` times the
    probability at column `32 + j` (`s = 0`) or times one minus it (`s = 1`). -/
theorem pair32_apply (mu : FVec Ideal S16384x32 .f32) (D : FVec Ideal S16384x1024 .f32)
    (b : Fin 16384) (j : Fin 32) (s : Fin 2) :
    concatenate S16384x32x2 2
        [⟨S16384x32x1, broadcastInDim S16384x32x1 ![0, 1] bcast_S16384x32_S16384x32x1_0_1 (mulf mu (extractStridedSlice S16384x32 ![0, 32] D slices_S16384x1024_S16384x32_0_32))⟩,
         ⟨S16384x32x1, broadcastInDim S16384x32x1 ![0, 1] bcast_S16384x32_S16384x32x1_0_1 (mulf mu (subf (broadcastInDim S16384x32 ![] bcast_S_S16384x32 (constant (F := Ideal) S_ .f32 0x3F800000#32)) (extractStridedSlice S16384x32 ![0, 32] D slices_S16384x1024_S16384x32_0_32)))⟩]
        concatenates_S16384x32x1_S16384x32x1_S16384x32x2_d2 (ix3 b j s)
      = mu (ix2 b j) * (if s.val = 0 then nat2 D b.val (32 + j.val) else one - nat2 D b.val (32 + j.val)) := by
  have hj : j.val < 32 := j.isLt
  have hD : nat2 D b.val (32 + j.val) = D (ix2 b (⟨32 + j.val, by omega⟩ : Fin 1024)) := nat2_of_lt D b _ _
  rw [hD]
  match s with
  | ⟨0, _⟩ =>
    rw [if_pos rfl]
    rw [concatenate_pair_apply_left 2 _ _ concatenates_S16384x32x1_S16384x32x1_S16384x32x2_d2 _ rfl (ix3 b j (0 : Fin 1))
      (fun a => by match a with | ⟨0, _⟩ => rfl | ⟨1, _⟩ => rfl | ⟨2, _⟩ => rfl)]
    rw [broadcastInDim_apply _ bcast_S16384x32_S16384x32x1_0_1 _ _ (ix2 b j) (fun a => by
        match a with
        | ⟨0, _⟩ => show b.val = if (16384 : ℕ) = 1 then 0 else b.val; rw [if_neg (by decide)]
        | ⟨1, _⟩ => show j.val = if (32 : ℕ) = 1 then 0 else j.val; split <;> omega)]
    rw [mulf_apply]
    rw [extractStridedSlice_apply ![0, 32] D slices_S16384x1024_S16384x32_0_32 (ix2 b j)
      (ix2 b (⟨32 + j.val, by omega⟩ : Fin 1024)) (fun a => by
        match a with
        | ⟨0, _⟩ => show b.val = 0 + b.val; omega
        | ⟨1, _⟩ => rfl)]
  | ⟨1, _⟩ =>
    rw [if_neg (show ¬ ((1 : ℕ) = 0) from Nat.one_ne_zero)]
    rw [concatenate_pair_apply_right 2 _ _ concatenates_S16384x32x1_S16384x32x1_S16384x32x2_d2 _ rfl rfl (ix3 b j (0 : Fin 1))
      (fun a ha => by match a with | ⟨0, _⟩ => rfl | ⟨1, _⟩ => rfl | ⟨2, _⟩ => exact absurd rfl ha) rfl]
    rw [broadcastInDim_apply _ bcast_S16384x32_S16384x32x1_0_1 _ _ (ix2 b j) (fun a => by
        match a with
        | ⟨0, _⟩ => show b.val = if (16384 : ℕ) = 1 then 0 else b.val; rw [if_neg (by decide)]
        | ⟨1, _⟩ => show j.val = if (32 : ℕ) = 1 then 0 else j.val; split <;> omega)]
    rw [mulf_apply, subf_apply]
    rw [extractStridedSlice_apply ![0, 32] D slices_S16384x1024_S16384x32_0_32 (ix2 b j)
      (ix2 b (⟨32 + j.val, by omega⟩ : Fin 1024)) (fun a => by
        match a with
        | ⟨0, _⟩ => show b.val = 0 + b.val; omega
        | ⟨1, _⟩ => rfl)]
    rfl

/-- From level 5 to level 6: read row-major, entry `(b, j)` of the pairs is entry `(b, j / 2, j % 2)`, the
    weight of the parent `j / 2` times the branch probability of child `j % 2`. -/
theorem step32_reads (mu : FVec Ideal S16384x32 .f32) (D : FVec Ideal S16384x1024 .f32)
    (hmu : Reads2 mu (route (nat2 D) 5)) : Reads2 (Cert.KTail.step32 mu D) (route (nat2 D) 6) := by
  intro b j
  have hb : b.val < 16384 := b.isLt
  have hj : j.val < 64 := j.isLt
  unfold Cert.KTail.step32
  rw [shapeCast_apply _ shapeCasts_S16384x32x2_S16384x64 (ix2 b j)
    (ix3 b (⟨j.val / 2, by omega⟩ : Fin 32) (⟨j.val % 2, by omega⟩ : Fin 2))
    (by rw [Shape.rowMajor_val_three, Shape.rowMajor_val_two]
        show (b.val * 32 + j.val / 2) * 2 + j.val % 2 = b.val * 64 + j.val
        omega)]
  rw [pair32_apply mu D b _ _, hmu b _]
  exact route_child (nat2 D) 5 32 b.val j.val (by norm_num)

/-- The paired products of the level with 64 nodes: entry `(b, j, s)` is the weight of node `j` times the
    probability at column `64 + j` (`s = 0`) or times one minus it (`s = 1`). -/
theorem pair64_apply (mu : FVec Ideal S16384x64 .f32) (D : FVec Ideal S16384x1024 .f32)
    (b : Fin 16384) (j : Fin 64) (s : Fin 2) :
    concatenate S16384x64x2 2
        [⟨S16384x64x1, broadcastInDim S16384x64x1 ![0, 1] bcast_S16384x64_S16384x64x1_0_1 (mulf mu (extractStridedSlice S16384x64 ![0, 64] D slices_S16384x1024_S16384x64_0_64))⟩,
         ⟨S16384x64x1, broadcastInDim S16384x64x1 ![0, 1] bcast_S16384x64_S16384x64x1_0_1 (mulf mu (subf (broadcastInDim S16384x64 ![] bcast_S_S16384x64 (constant (F := Ideal) S_ .f32 0x3F800000#32)) (extractStridedSlice S16384x64 ![0, 64] D slices_S16384x1024_S16384x64_0_64)))⟩]
        concatenates_S16384x64x1_S16384x64x1_S16384x64x2_d2 (ix3 b j s)
      = mu (ix2 b j) * (if s.val = 0 then nat2 D b.val (64 + j.val) else one - nat2 D b.val (64 + j.val)) := by
  have hj : j.val < 64 := j.isLt
  have hD : nat2 D b.val (64 + j.val) = D (ix2 b (⟨64 + j.val, by omega⟩ : Fin 1024)) := nat2_of_lt D b _ _
  rw [hD]
  match s with
  | ⟨0, _⟩ =>
    rw [if_pos rfl]
    rw [concatenate_pair_apply_left 2 _ _ concatenates_S16384x64x1_S16384x64x1_S16384x64x2_d2 _ rfl (ix3 b j (0 : Fin 1))
      (fun a => by match a with | ⟨0, _⟩ => rfl | ⟨1, _⟩ => rfl | ⟨2, _⟩ => rfl)]
    rw [broadcastInDim_apply _ bcast_S16384x64_S16384x64x1_0_1 _ _ (ix2 b j) (fun a => by
        match a with
        | ⟨0, _⟩ => show b.val = if (16384 : ℕ) = 1 then 0 else b.val; rw [if_neg (by decide)]
        | ⟨1, _⟩ => show j.val = if (64 : ℕ) = 1 then 0 else j.val; split <;> omega)]
    rw [mulf_apply]
    rw [extractStridedSlice_apply ![0, 64] D slices_S16384x1024_S16384x64_0_64 (ix2 b j)
      (ix2 b (⟨64 + j.val, by omega⟩ : Fin 1024)) (fun a => by
        match a with
        | ⟨0, _⟩ => show b.val = 0 + b.val; omega
        | ⟨1, _⟩ => rfl)]
  | ⟨1, _⟩ =>
    rw [if_neg (show ¬ ((1 : ℕ) = 0) from Nat.one_ne_zero)]
    rw [concatenate_pair_apply_right 2 _ _ concatenates_S16384x64x1_S16384x64x1_S16384x64x2_d2 _ rfl rfl (ix3 b j (0 : Fin 1))
      (fun a ha => by match a with | ⟨0, _⟩ => rfl | ⟨1, _⟩ => rfl | ⟨2, _⟩ => exact absurd rfl ha) rfl]
    rw [broadcastInDim_apply _ bcast_S16384x64_S16384x64x1_0_1 _ _ (ix2 b j) (fun a => by
        match a with
        | ⟨0, _⟩ => show b.val = if (16384 : ℕ) = 1 then 0 else b.val; rw [if_neg (by decide)]
        | ⟨1, _⟩ => show j.val = if (64 : ℕ) = 1 then 0 else j.val; split <;> omega)]
    rw [mulf_apply, subf_apply]
    rw [extractStridedSlice_apply ![0, 64] D slices_S16384x1024_S16384x64_0_64 (ix2 b j)
      (ix2 b (⟨64 + j.val, by omega⟩ : Fin 1024)) (fun a => by
        match a with
        | ⟨0, _⟩ => show b.val = 0 + b.val; omega
        | ⟨1, _⟩ => rfl)]
    rfl

/-- From level 6 to level 7: read row-major, entry `(b, j)` of the pairs is entry `(b, j / 2, j % 2)`, the
    weight of the parent `j / 2` times the branch probability of child `j % 2`. -/
theorem step64_reads (mu : FVec Ideal S16384x64 .f32) (D : FVec Ideal S16384x1024 .f32)
    (hmu : Reads2 mu (route (nat2 D) 6)) : Reads2 (Cert.KTail.step64 mu D) (route (nat2 D) 7) := by
  intro b j
  have hb : b.val < 16384 := b.isLt
  have hj : j.val < 128 := j.isLt
  unfold Cert.KTail.step64
  rw [shapeCast_apply _ shapeCasts_S16384x64x2_S16384x128 (ix2 b j)
    (ix3 b (⟨j.val / 2, by omega⟩ : Fin 64) (⟨j.val % 2, by omega⟩ : Fin 2))
    (by rw [Shape.rowMajor_val_three, Shape.rowMajor_val_two]
        show (b.val * 64 + j.val / 2) * 2 + j.val % 2 = b.val * 128 + j.val
        omega)]
  rw [pair64_apply mu D b _ _, hmu b _]
  exact route_child (nat2 D) 6 64 b.val j.val (by norm_num)

/-- The paired products of the level with 128 nodes: entry `(b, j, s)` is the weight of node `j` times the
    probability at column `128 + j` (`s = 0`) or times one minus it (`s = 1`). -/
theorem pair128_apply (mu : FVec Ideal S16384x128 .f32) (D : FVec Ideal S16384x1024 .f32)
    (b : Fin 16384) (j : Fin 128) (s : Fin 2) :
    concatenate S16384x128x2 2
        [⟨S16384x128x1, broadcastInDim S16384x128x1 ![0, 1] bcast_S16384x128_S16384x128x1_0_1 (mulf mu (extractStridedSlice S16384x128 ![0, 128] D slices_S16384x1024_S16384x128_0_128))⟩,
         ⟨S16384x128x1, broadcastInDim S16384x128x1 ![0, 1] bcast_S16384x128_S16384x128x1_0_1 (mulf mu (subf (broadcastInDim S16384x128 ![] bcast_S_S16384x128 (constant (F := Ideal) S_ .f32 0x3F800000#32)) (extractStridedSlice S16384x128 ![0, 128] D slices_S16384x1024_S16384x128_0_128)))⟩]
        concatenates_S16384x128x1_S16384x128x1_S16384x128x2_d2 (ix3 b j s)
      = mu (ix2 b j) * (if s.val = 0 then nat2 D b.val (128 + j.val) else one - nat2 D b.val (128 + j.val)) := by
  have hj : j.val < 128 := j.isLt
  have hD : nat2 D b.val (128 + j.val) = D (ix2 b (⟨128 + j.val, by omega⟩ : Fin 1024)) := nat2_of_lt D b _ _
  rw [hD]
  match s with
  | ⟨0, _⟩ =>
    rw [if_pos rfl]
    rw [concatenate_pair_apply_left 2 _ _ concatenates_S16384x128x1_S16384x128x1_S16384x128x2_d2 _ rfl (ix3 b j (0 : Fin 1))
      (fun a => by match a with | ⟨0, _⟩ => rfl | ⟨1, _⟩ => rfl | ⟨2, _⟩ => rfl)]
    rw [broadcastInDim_apply _ bcast_S16384x128_S16384x128x1_0_1 _ _ (ix2 b j) (fun a => by
        match a with
        | ⟨0, _⟩ => show b.val = if (16384 : ℕ) = 1 then 0 else b.val; rw [if_neg (by decide)]
        | ⟨1, _⟩ => show j.val = if (128 : ℕ) = 1 then 0 else j.val; split <;> omega)]
    rw [mulf_apply]
    rw [extractStridedSlice_apply ![0, 128] D slices_S16384x1024_S16384x128_0_128 (ix2 b j)
      (ix2 b (⟨128 + j.val, by omega⟩ : Fin 1024)) (fun a => by
        match a with
        | ⟨0, _⟩ => show b.val = 0 + b.val; omega
        | ⟨1, _⟩ => rfl)]
  | ⟨1, _⟩ =>
    rw [if_neg (show ¬ ((1 : ℕ) = 0) from Nat.one_ne_zero)]
    rw [concatenate_pair_apply_right 2 _ _ concatenates_S16384x128x1_S16384x128x1_S16384x128x2_d2 _ rfl rfl (ix3 b j (0 : Fin 1))
      (fun a ha => by match a with | ⟨0, _⟩ => rfl | ⟨1, _⟩ => rfl | ⟨2, _⟩ => exact absurd rfl ha) rfl]
    rw [broadcastInDim_apply _ bcast_S16384x128_S16384x128x1_0_1 _ _ (ix2 b j) (fun a => by
        match a with
        | ⟨0, _⟩ => show b.val = if (16384 : ℕ) = 1 then 0 else b.val; rw [if_neg (by decide)]
        | ⟨1, _⟩ => show j.val = if (128 : ℕ) = 1 then 0 else j.val; split <;> omega)]
    rw [mulf_apply, subf_apply]
    rw [extractStridedSlice_apply ![0, 128] D slices_S16384x1024_S16384x128_0_128 (ix2 b j)
      (ix2 b (⟨128 + j.val, by omega⟩ : Fin 1024)) (fun a => by
        match a with
        | ⟨0, _⟩ => show b.val = 0 + b.val; omega
        | ⟨1, _⟩ => rfl)]
    rfl

/-- From level 7 to level 8: read row-major, entry `(b, j)` of the pairs is entry `(b, j / 2, j % 2)`, the
    weight of the parent `j / 2` times the branch probability of child `j % 2`. -/
theorem step128_reads (mu : FVec Ideal S16384x128 .f32) (D : FVec Ideal S16384x1024 .f32)
    (hmu : Reads2 mu (route (nat2 D) 7)) : Reads2 (Cert.KTail.step128 mu D) (route (nat2 D) 8) := by
  intro b j
  have hb : b.val < 16384 := b.isLt
  have hj : j.val < 256 := j.isLt
  unfold Cert.KTail.step128
  rw [shapeCast_apply _ shapeCasts_S16384x128x2_S16384x256 (ix2 b j)
    (ix3 b (⟨j.val / 2, by omega⟩ : Fin 128) (⟨j.val % 2, by omega⟩ : Fin 2))
    (by rw [Shape.rowMajor_val_three, Shape.rowMajor_val_two]
        show (b.val * 128 + j.val / 2) * 2 + j.val % 2 = b.val * 256 + j.val
        omega)]
  rw [pair128_apply mu D b _ _, hmu b _]
  exact route_child (nat2 D) 7 128 b.val j.val (by norm_num)

/-- The paired products of the level with 256 nodes: entry `(b, j, s)` is the weight of node `j` times the
    probability at column `256 + j` (`s = 0`) or times one minus it (`s = 1`). -/
theorem pair256_apply (mu : FVec Ideal S16384x256 .f32) (D : FVec Ideal S16384x1024 .f32)
    (b : Fin 16384) (j : Fin 256) (s : Fin 2) :
    concatenate S16384x256x2 2
        [⟨S16384x256x1, broadcastInDim S16384x256x1 ![0, 1] bcast_S16384x256_S16384x256x1_0_1 (mulf mu (extractStridedSlice S16384x256 ![0, 256] D slices_S16384x1024_S16384x256_0_256))⟩,
         ⟨S16384x256x1, broadcastInDim S16384x256x1 ![0, 1] bcast_S16384x256_S16384x256x1_0_1 (mulf mu (subf (broadcastInDim S16384x256 ![] bcast_S_S16384x256 (constant (F := Ideal) S_ .f32 0x3F800000#32)) (extractStridedSlice S16384x256 ![0, 256] D slices_S16384x1024_S16384x256_0_256)))⟩]
        concatenates_S16384x256x1_S16384x256x1_S16384x256x2_d2 (ix3 b j s)
      = mu (ix2 b j) * (if s.val = 0 then nat2 D b.val (256 + j.val) else one - nat2 D b.val (256 + j.val)) := by
  have hj : j.val < 256 := j.isLt
  have hD : nat2 D b.val (256 + j.val) = D (ix2 b (⟨256 + j.val, by omega⟩ : Fin 1024)) := nat2_of_lt D b _ _
  rw [hD]
  match s with
  | ⟨0, _⟩ =>
    rw [if_pos rfl]
    rw [concatenate_pair_apply_left 2 _ _ concatenates_S16384x256x1_S16384x256x1_S16384x256x2_d2 _ rfl (ix3 b j (0 : Fin 1))
      (fun a => by match a with | ⟨0, _⟩ => rfl | ⟨1, _⟩ => rfl | ⟨2, _⟩ => rfl)]
    rw [broadcastInDim_apply _ bcast_S16384x256_S16384x256x1_0_1 _ _ (ix2 b j) (fun a => by
        match a with
        | ⟨0, _⟩ => show b.val = if (16384 : ℕ) = 1 then 0 else b.val; rw [if_neg (by decide)]
        | ⟨1, _⟩ => show j.val = if (256 : ℕ) = 1 then 0 else j.val; split <;> omega)]
    rw [mulf_apply]
    rw [extractStridedSlice_apply ![0, 256] D slices_S16384x1024_S16384x256_0_256 (ix2 b j)
      (ix2 b (⟨256 + j.val, by omega⟩ : Fin 1024)) (fun a => by
        match a with
        | ⟨0, _⟩ => show b.val = 0 + b.val; omega
        | ⟨1, _⟩ => rfl)]
  | ⟨1, _⟩ =>
    rw [if_neg (show ¬ ((1 : ℕ) = 0) from Nat.one_ne_zero)]
    rw [concatenate_pair_apply_right 2 _ _ concatenates_S16384x256x1_S16384x256x1_S16384x256x2_d2 _ rfl rfl (ix3 b j (0 : Fin 1))
      (fun a ha => by match a with | ⟨0, _⟩ => rfl | ⟨1, _⟩ => rfl | ⟨2, _⟩ => exact absurd rfl ha) rfl]
    rw [broadcastInDim_apply _ bcast_S16384x256_S16384x256x1_0_1 _ _ (ix2 b j) (fun a => by
        match a with
        | ⟨0, _⟩ => show b.val = if (16384 : ℕ) = 1 then 0 else b.val; rw [if_neg (by decide)]
        | ⟨1, _⟩ => show j.val = if (256 : ℕ) = 1 then 0 else j.val; split <;> omega)]
    rw [mulf_apply, subf_apply]
    rw [extractStridedSlice_apply ![0, 256] D slices_S16384x1024_S16384x256_0_256 (ix2 b j)
      (ix2 b (⟨256 + j.val, by omega⟩ : Fin 1024)) (fun a => by
        match a with
        | ⟨0, _⟩ => show b.val = 0 + b.val; omega
        | ⟨1, _⟩ => rfl)]
    rfl

/-- From level 8 to level 9: read row-major, entry `(b, j)` of the pairs is entry `(b, j / 2, j % 2)`, the
    weight of the parent `j / 2` times the branch probability of child `j % 2`. -/
theorem step256_reads (mu : FVec Ideal S16384x256 .f32) (D : FVec Ideal S16384x1024 .f32)
    (hmu : Reads2 mu (route (nat2 D) 8)) : Reads2 (Cert.KTail.step256 mu D) (route (nat2 D) 9) := by
  intro b j
  have hb : b.val < 16384 := b.isLt
  have hj : j.val < 512 := j.isLt
  unfold Cert.KTail.step256
  rw [shapeCast_apply _ shapeCasts_S16384x256x2_S16384x512 (ix2 b j)
    (ix3 b (⟨j.val / 2, by omega⟩ : Fin 256) (⟨j.val % 2, by omega⟩ : Fin 2))
    (by rw [Shape.rowMajor_val_three, Shape.rowMajor_val_two]
        show (b.val * 256 + j.val / 2) * 2 + j.val % 2 = b.val * 512 + j.val
        omega)]
  rw [pair256_apply mu D b _ _, hmu b _]
  exact route_child (nat2 D) 8 256 b.val j.val (by norm_num)

/-- The paired products of the level with 512 nodes: entry `(b, j, s)` is the weight of node `j` times the
    probability at column `512 + j` (`s = 0`) or times one minus it (`s = 1`). -/
theorem pair512_apply (mu : FVec Ideal S16384x512 .f32) (D : FVec Ideal S16384x1024 .f32)
    (b : Fin 16384) (j : Fin 512) (s : Fin 2) :
    concatenate S16384x512x2 2
        [⟨S16384x512x1, broadcastInDim S16384x512x1 ![0, 1] bcast_S16384x512_S16384x512x1_0_1 (mulf mu (extractStridedSlice S16384x512 ![0, 512] D slices_S16384x1024_S16384x512_0_512))⟩,
         ⟨S16384x512x1, broadcastInDim S16384x512x1 ![0, 1] bcast_S16384x512_S16384x512x1_0_1 (mulf mu (subf (broadcastInDim S16384x512 ![] bcast_S_S16384x512 (constant (F := Ideal) S_ .f32 0x3F800000#32)) (extractStridedSlice S16384x512 ![0, 512] D slices_S16384x1024_S16384x512_0_512)))⟩]
        concatenates_S16384x512x1_S16384x512x1_S16384x512x2_d2 (ix3 b j s)
      = mu (ix2 b j) * (if s.val = 0 then nat2 D b.val (512 + j.val) else one - nat2 D b.val (512 + j.val)) := by
  have hj : j.val < 512 := j.isLt
  have hD : nat2 D b.val (512 + j.val) = D (ix2 b (⟨512 + j.val, by omega⟩ : Fin 1024)) := nat2_of_lt D b _ _
  rw [hD]
  match s with
  | ⟨0, _⟩ =>
    rw [if_pos rfl]
    rw [concatenate_pair_apply_left 2 _ _ concatenates_S16384x512x1_S16384x512x1_S16384x512x2_d2 _ rfl (ix3 b j (0 : Fin 1))
      (fun a => by match a with | ⟨0, _⟩ => rfl | ⟨1, _⟩ => rfl | ⟨2, _⟩ => rfl)]
    rw [broadcastInDim_apply _ bcast_S16384x512_S16384x512x1_0_1 _ _ (ix2 b j) (fun a => by
        match a with
        | ⟨0, _⟩ => show b.val = if (16384 : ℕ) = 1 then 0 else b.val; rw [if_neg (by decide)]
        | ⟨1, _⟩ => show j.val = if (512 : ℕ) = 1 then 0 else j.val; split <;> omega)]
    rw [mulf_apply]
    rw [extractStridedSlice_apply ![0, 512] D slices_S16384x1024_S16384x512_0_512 (ix2 b j)
      (ix2 b (⟨512 + j.val, by omega⟩ : Fin 1024)) (fun a => by
        match a with
        | ⟨0, _⟩ => show b.val = 0 + b.val; omega
        | ⟨1, _⟩ => rfl)]
  | ⟨1, _⟩ =>
    rw [if_neg (show ¬ ((1 : ℕ) = 0) from Nat.one_ne_zero)]
    rw [concatenate_pair_apply_right 2 _ _ concatenates_S16384x512x1_S16384x512x1_S16384x512x2_d2 _ rfl rfl (ix3 b j (0 : Fin 1))
      (fun a ha => by match a with | ⟨0, _⟩ => rfl | ⟨1, _⟩ => rfl | ⟨2, _⟩ => exact absurd rfl ha) rfl]
    rw [broadcastInDim_apply _ bcast_S16384x512_S16384x512x1_0_1 _ _ (ix2 b j) (fun a => by
        match a with
        | ⟨0, _⟩ => show b.val = if (16384 : ℕ) = 1 then 0 else b.val; rw [if_neg (by decide)]
        | ⟨1, _⟩ => show j.val = if (512 : ℕ) = 1 then 0 else j.val; split <;> omega)]
    rw [mulf_apply, subf_apply]
    rw [extractStridedSlice_apply ![0, 512] D slices_S16384x1024_S16384x512_0_512 (ix2 b j)
      (ix2 b (⟨512 + j.val, by omega⟩ : Fin 1024)) (fun a => by
        match a with
        | ⟨0, _⟩ => show b.val = 0 + b.val; omega
        | ⟨1, _⟩ => rfl)]
    rfl

/-- From level 9 to level 10: read row-major, entry `(b, j)` of the pairs is entry `(b, j / 2, j % 2)`, the
    weight of the parent `j / 2` times the branch probability of child `j % 2`. -/
theorem step512_reads (mu : FVec Ideal S16384x512 .f32) (D : FVec Ideal S16384x1024 .f32)
    (hmu : Reads2 mu (route (nat2 D) 9)) : Reads2 (Cert.KTail.step512 mu D) (route (nat2 D) 10) := by
  intro b j
  have hb : b.val < 16384 := b.isLt
  have hj : j.val < 1024 := j.isLt
  unfold Cert.KTail.step512
  rw [shapeCast_apply _ shapeCasts_S16384x512x2_S16384x1024 (ix2 b j)
    (ix3 b (⟨j.val / 2, by omega⟩ : Fin 512) (⟨j.val % 2, by omega⟩ : Fin 2))
    (by rw [Shape.rowMajor_val_three, Shape.rowMajor_val_two]
        show (b.val * 512 + j.val / 2) * 2 + j.val % 2 = b.val * 1024 + j.val
        omega)]
  rw [pair512_apply mu D b _ _, hmu b _]
  exact route_child (nat2 D) 9 512 b.val j.val (by norm_num)

/-- The ten levels composed: entry `(b, j)` of the result is the weight of leaf `j` in row `b`. -/
theorem tail_reads (D : FVec Ideal S16384x1024 .f32) : Reads2 (Cert.KTail.tail D) (route (nat2 D) 10) := by
  unfold Cert.KTail.tail
  exact step512_reads _ D (step256_reads _ D (step128_reads _ D (step64_reads _ D (step32_reads _ D
    (step16_reads _ D (step8_reads _ D (step4_reads _ D (step2_reads _ D (step1_reads _ D (mu0_reads D))))))))))

end Cert.KLevels

end
-- ==== Proof.KValue.lean ====
/-
  The decision array after the run, as ONE function of the argument arrays.

  Tile `t` of the pallas_call writes rows `512 t … 512 t + 511` of the decision array, all 1024 columns: entry `(p, q)`
  of the tile is the logistic of the dot product of row `p` of the tile of `x` with column `q` of the folded weight,
  plus entry `q` of the bias row. The 32 tiles cover the array, so entry `(b, l)` of the array is the logistic of
  `∑ k, x b k · weff k l + bias l`, with `weff k l = ∑ j, feature_mask k j · W l j` — what the four host lines before the
  region leave in the folded weight — and the routing levels after the region are `tail` of that array.
-/
import proofs.«168763_j2963527434844_2_alg».proof.Proof.FrameIdeal
import proofs.«168763_j2963527434844_2_alg».proof.Proof.KPay
import Idealize.ShloMosaic.Lib.Pipeline.Value
import Idealize.ShloMosaic.Lib.StableHlo.Run

set_option maxRecDepth 16384

noncomputable section

namespace Cert.KernelIdeal.DValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

theorem hz : (![0, 0] : Fin 2 → Nat) = fun _ => 0 := funext fun a => by fin_cases a <;> rfl

/-- The decision array of the three arrays the region reads: entry `(b, l)` is the logistic of row `b` of `X` against
    column `l` of `Wf`, plus entry `l` of the row `Br`. -/
def dOf (X : S16384x2048.Idx → EReal) (Wf : S2048x1024.Idx → EReal) (Br : S1x1024.Idx → EReal) : S16384x1024.Idx → EReal :=
  fun i => Ideal.logistic ((∑ k : Fin 2048, X (ix2 (⟨(i 0).val, (i 0).isLt⟩ : Fin 16384) k) * Wf (ix2 k (⟨(i 1).val, (i 1).isLt⟩ : Fin 1024)))
    + Br (ix2 (0 : Fin 1) (⟨(i 1).val, (i 1).isLt⟩ : Fin 1024)))

theorem dOf_apply (X : S16384x2048.Idx → EReal) (Wf : S2048x1024.Idx → EReal) (Br : S1x1024.Idx → EReal) (b : Fin 16384) (l : Fin 1024) :
    dOf X Wf Br (ix2 b l) = Ideal.logistic ((∑ k : Fin 2048, X (ix2 b k) * Wf (ix2 k l)) + Br (ix2 (0 : Fin 1) l)) := rfl

/-- The printed index maps over the 32 tiles: the tile of `x` and the output tile move down one block of rows per
    tile; the folded weight and the bias row stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What tile `t` writes back is block `t` of `dOf` of the arrays as the region finds them. -/
theorem flushed_eq (c : Dev nD) (t : Fin cfg0.N) :
    (dats m 0 c).flushed 3 t = ((cfg0.win 3).blk t).view.read (Elt Ideal) (dOf (V m c main_arg0) (V m c main_v2) (V m c main_v3)) := by
  show (cfg0.win 3).cut (grid0.coords t) ((dats m 0 c).after 3 t) = _
  rw [after_3]
  unfold outTile
  rw [View.canon_unit_zero hz]
  simp only [View.ld_unit_zero (S := S512x2048) hz, View.ld_unit_zero (S := S2048x1024) hz, View.ld_unit_zero (S := S1x1024) hz]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  refine (Cert.KPay.pay_apply _ _ _ p q).trans ?_
  show _ = dOf _ _ _ (((cfg0.win 3).blk t).view.emb (ix2 p q))
  unfold dOf
  have hX : ∀ k : Fin 2048, iblk m c 0 t (ix2 p k)
      = V m c main_arg0 (ix2 (⟨((((cfg0.win 3).blk t).view.emb (ix2 p q)) 0).val, ((((cfg0.win 3).blk t).view.emb (ix2 p q)) 0).isLt⟩ : Fin 16384) k) := by
    intro k
    show V m c main_arg0 (((cfg0.win 0).blk t).view.emb (ix2 p k)) = _
    refine congrArg (V m c main_arg0) (funext fun a => Fin.ext ?_)
    match a with
    | ⟨0, _⟩ => show win0_0.index t (0 : Fin 2) * 512 + 1 * p.val = win0_3.index t (0 : Fin 2) * 512 + 1 * p.val; omega
    | ⟨1, _⟩ => show win0_0.index t (1 : Fin 2) * 2048 + 1 * k.val = k.val; omega
  have hW : ∀ k : Fin 2048, iblk m c 1 t (ix2 k q)
      = V m c main_v2 (ix2 k (⟨((((cfg0.win 3).blk t).view.emb (ix2 p q)) 1).val, ((((cfg0.win 3).blk t).view.emb (ix2 p q)) 1).isLt⟩ : Fin 1024)) := by
    intro k
    show V m c main_v2 (((cfg0.win 1).blk t).view.emb (ix2 k q)) = _
    refine congrArg (V m c main_v2) (funext fun a => Fin.ext ?_)
    match a with
    | ⟨0, _⟩ => show win0_1.index t (0 : Fin 2) * 2048 + 1 * k.val = k.val; omega
    | ⟨1, _⟩ => show win0_1.index t (1 : Fin 2) * 1024 + 1 * q.val = win0_3.index t (1 : Fin 2) * 1024 + 1 * q.val; omega
  have hB : iblk m c 2 t (ix2 (0 : Fin 1) q)
      = V m c main_v3 (ix2 (0 : Fin 1) (⟨((((cfg0.win 3).blk t).view.emb (ix2 p q)) 1).val, ((((cfg0.win 3).blk t).view.emb (ix2 p q)) 1).isLt⟩ : Fin 1024)) := by
    show V m c main_v3 (((cfg0.win 2).blk t).view.emb (ix2 (0 : Fin 1) q)) = _
    refine congrArg (V m c main_v3) (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  rw [hB, Finset.sum_congr rfl fun k _ => by rw [hX k, hW k]]

/-- An entry of the decision array is in tile `t`'s block iff each coordinate is in the block's range. -/
theorem mem_blk (t : Fin cfg0.N) (i : S16384x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4).slice (win0_3.rect t)).set ↔ _
  rw [View.set_slice_whole, Rect.mem_set_unit]
  exact Iff.rfl

/-- Every entry is in the block of the tile its row falls in: row `r` in tile `r / 512`. -/
theorem cover (i : S16384x1024.Idx) : ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 32 := N_0
  have ht : (i 0).val / 512 < cfg0.N := by rw [hN]; omega
  refine ⟨⟨(i 0).val / 512, ht⟩, flush0_3 _, ?_⟩
  rw [mem_blk]
  obtain ⟨-, -, -, -, -, -, e6, e7⟩ := idx_facts ⟨(i 0).val / 512, ht⟩
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e6]; show (i 0).val / 512 * 512 ≤ (i 0).val ∧ (i 0).val < (i 0).val / 512 * 512 + 512; omega
  | ⟨1, _⟩ =>
    show win0_3.index ⟨(i 0).val / 512, ht⟩ (1 : Fin 2) * 1024 ≤ (i 1).val ∧ (i 1).val < win0_3.index ⟨(i 0).val / 512, ht⟩ (1 : Fin 2) * 1024 + 1024
    rw [e7]; omega

/-- The decision array after the region. -/
theorem final (c : Dev nD) : (dats m 0 c).arrAt 3 cfg0.N = dOf (V m c main_arg0) (V m c main_v2) (V m c main_v3) :=
  (dats m 0 c).arrAt_eq_of_cover 3 _ (fun t _ => flushed_eq m c t) cover

/-- The folded weight and the bias row as the region finds them: the four host lines' terms of the arguments. -/
theorem V_weff (c : Dev nD) : (V m c main_v2 : S2048x1024.Idx → EReal)
    = Cert.KPay.weff (m ((c : Thread nD τ).loc main_arg1)) (m ((c : Thread nD τ).loc main_arg2)) := by
  show StableHlo.after hostOps0 (fun b => m (c, b)) (Proc.devRef .tc main_v2) = _
  after_results; rfl

theorem V_brow (c : Dev nD) : (V m c main_v3 : S1x1024.Idx → EReal) = Cert.KPay.brow (m ((c : Thread nD τ).loc main_arg3)) := by
  show StableHlo.after hostOps0 (fun b => m (c, b)) (Proc.devRef .tc main_v3) = _
  after_results; rfl

/-- The decision probabilities as a function of the four arguments. -/
def dK (x : S16384x2048.Idx → EReal) (fm : S2048x1024.Idx → EReal) (W : S1024x1024.Idx → EReal) (bias : S1024.Idx → EReal) : S16384x1024.Idx → EReal :=
  dOf x (Cert.KPay.weff fm W) (Cert.KPay.brow bias)

theorem dK_apply (x : S16384x2048.Idx → EReal) (fm : S2048x1024.Idx → EReal) (W : S1024x1024.Idx → EReal) (bias : S1024.Idx → EReal)
    (b : Fin 16384) (l : Fin 1024) :
    dK x fm W bias (ix2 b l) = Ideal.logistic ((∑ k : Fin 2048, x (ix2 b k) * ∑ j : Fin 1024, fm (ix2 k j) * W (ix2 l j)) + bias (ix1 l)) := by
  unfold dK
  rw [dOf_apply, Cert.KPay.brow_apply]
  simp only [Cert.KPay.weff_apply]

end Cert.KernelIdeal.DValue

end
-- ==== Proof.KRun.lean ====
/-
  The kernel's run, read: after the region the 102 host lines compute the ten routing levels of the decision array, so
  the result buffer ends at `tail` of the decision probabilities `dK` of the four arguments, which end unchanged.
-/
import proofs.«168763_j2963527434844_2_alg».proof.Proof.KValue
import proofs.«168763_j2963527434844_2_alg».proof.Proof.KTail

set_option maxRecDepth 16384

noncomputable section

namespace Cert.KernelIdeal.DValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The result buffer after the 102 later lines: the ten routing levels of the decision array. -/
theorem result_eq (c : Dev nD) :
    (Pipeline.afterTail₀ cfgs (dats m) 0 (V0 m) [hostOps1] c main_v95 : S16384x1024.Idx → EReal)
      = Cert.KTail.tail (dK (m ((c : Thread nD τ).loc main_arg0)) (m ((c : Thread nD τ).loc main_arg1))
          (m ((c : Thread nD τ).loc main_arg2)) (m ((c : Thread nD τ).loc main_arg3))) := by
  unfold Pipeline.afterTail₀
  simp only [List.flatten_cons, List.flatten_nil, List.append_nil]
  rw [Cert.KTail.after_hostOps1]
  refine congrArg Cert.KTail.tail ?_
  refine (Pipeline.withArrays_arr spec0 launch0.win.arr_inj c _ _ 3).trans ?_
  rw [final, V_weff, V_brow, V_arg m c main_arg0 (by decide)]
  rfl

/-- The run, read: the result at the routing levels of the decision probabilities, the arguments unchanged. -/
theorem run : θ_run defs (onTc (τ := τ) (main (F := Ideal))) ⟨m, fun _ => 0, ρ⟩ (fun r => ∀ c : Dev nD,
      r.2.mem ((c.tc : Thread nD τ).loc main_v95) = Cert.KTail.tail (dK (m ((c : Thread nD τ).loc main_arg0)) (m ((c : Thread nD τ).loc main_arg1))
          (m ((c : Thread nD τ).loc main_arg2)) (m ((c : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v95 (Pipeline.mem_restRefs_of main_v95 (by decide) (by decide))).trans (result_eq m c),
     ((h c).1 0).trans (((dats m 0 c).arrAt_in 0 rfl _).trans ((A_eq m c 0).trans (V_arg m c main_arg0 (by decide)))),
     ((h c).2 main_arg1 (Pipeline.mem_restRefs_of main_arg1 (by decide) (by decide))).trans (W_arg m (dats m) c main_arg1 (by decide) (by decide)),
     ((h c).2 main_arg2 (Pipeline.mem_restRefs_of main_arg2 (by decide) (by decide))).trans (W_arg m (dats m) c main_arg2 (by decide) (by decide)),
     ((h c).2 main_arg3 (Pipeline.mem_restRefs_of main_arg3 (by decide) (by decide))).trans (W_arg m (dats m) c main_arg3 (by decide) (by decide))⟩)
    (run_main m ρ)

end Cert.KernelIdeal.DValue

end
-- ==== Proof.RefRoute.lean ====
/-
  The reference side of the soft decision tree: its result is the routing function of its own decision probabilities.

  The reference computes the decision probabilities `d = logistic (x · mask · Wᵀ + bias)` ([16384, 1024]), stacks `d` and
  `1 - d` into a decision array [16384, 1024, 2], and multiplies down the tree: the product of level `n` has shape
  [16384, 2ⁿ, 2], entry `(b, j, s)` being the weight of child `s` of node `j`. Each level re-reads the product before it,
  row-major, as [16384, 2ⁿ, 1], copies every entry twice along a new last axis, and multiplies by entries
  `2ⁿ … 2ⁿ⁺¹ - 1` of the decision array. So entry `(b, j, s)` of level `n` is entry `(b, j / 2, j % 2)` of level `n - 1`
  times the decision of node `2ⁿ + j` for branch `s`: the recursion of `Cert.Route.route` at node `2 * j + s`. Ten
  lemmas, one per level and each from the one before, carry this to the leaves; the result is the last product read
  row-major as [16384, 1024].
-/
import proofs.«168763_j2963527434844_2_alg».proof.Proof.Spec
import proofs.«168763_j2963527434844_2_alg».proof.Proof.Gen.ReferenceIdeal.Read
import Idealize.ShloMosaic.Lib.IdealHost

noncomputable section

namespace Cert.RefRoute

open Cert.ReferenceIdeal Cert.ReferenceIdeal.Gen Cert.ReferenceIdeal.Read Idealize.ShloMosaic Idealize.ShloMosaic.ValueIdx
  Idealize.ShloMosaic.TcCoe Idealize.SL.Sem Idealize.ShloMosaic.StableHlo Cert.Route
open scoped BigOperators

/-- The reference's decision probabilities: the logistic function of the masked, weighted and shifted features. -/
def dRef (x : FVec Ideal S16384x2048 .f32) (fm : FVec Ideal S2048x1024 .f32) (W : FVec Ideal S1024x1024 .f32)
    (bias : FVec Ideal S1024 .f32) : FVec Ideal S16384x1024 .f32 :=
  val_main_v11 (F := Ideal) x fm W bias

/-- Entry `(b, l)` of the decision probabilities: the logistic function of row `b` of `x` times the mask, times
    row `l` of `W`, plus entry `l` of the bias. -/
theorem dRef_apply (x : FVec Ideal S16384x2048 .f32) (fm : FVec Ideal S2048x1024 .f32) (W : FVec Ideal S1024x1024 .f32)
    (bias : FVec Ideal S1024 .f32) (b : Fin 16384) (l : Fin 1024) :
    dRef x fm W bias (ix2 b l)
      = Ideal.logistic ((∑ j : Fin 1024, (∑ k : Fin 2048, x (ix2 b k) * fm (ix2 k j)) * W (ix2 l j)) + bias (ix1 l)) := by
  unfold dRef
  rw [val_main_v11_apply, val_main_v10_apply, val_main_cst_0_apply, val_main_v9_apply, val_main_v8_apply,
    val_main_cst_apply, val_main_v7_apply, val_main_v6_apply, val_main_v5_apply, val_main_v4_apply, val_main_v3_apply,
    val_main_v2_apply]
  -- the second product's terms: the first product at (b, j), and the transposed weights at (j, l)
  have hsum : (∑ k : Fin 1024, val_main_v0 (F := Ideal) x fm (lidx_main_v2 (ix2 b l) k)
        * val_main_v1 (F := Ideal) W (ridx_main_v2 (ix2 b l) k))
      = ∑ j : Fin 1024, (∑ k : Fin 2048, x (ix2 b k) * fm (ix2 k j)) * W (ix2 l j) := by
    refine Finset.sum_congr rfl fun j _ => ?_
    rw [val_main_v0_apply, val_main_v1_apply]
    have e1 : ∀ k : Fin 2048, lidx_main_v0 (lidx_main_v2 (ix2 b l) j) k = ix2 b k := fun k =>
      funext fun a => by match a with | ⟨0, _⟩ => rfl | ⟨1, _⟩ => rfl
    have e2 : ∀ k : Fin 2048, ridx_main_v0 (lidx_main_v2 (ix2 b l) j) k = ix2 k j := fun k =>
      funext fun a => by match a with | ⟨0, _⟩ => rfl | ⟨1, _⟩ => rfl
    have e3 : idx_main_v1 (ridx_main_v2 (ix2 b l) j) = ix2 l j :=
      funext fun a => by match a with | ⟨0, _⟩ => rfl | ⟨1, _⟩ => rfl
    simp only [e1, e2, e3]
  have hbias : idx_main_v3 (idx_main_v4 (ix2 b l)) = ix1 l :=
    funext fun a => by match a with | ⟨0, _⟩ => rfl
  rw [hsum, hbias]
  show Ideal.div (Ideal.ofBits .f32 0x3F800000#32) (Ideal.ofBits .f32 0x3F800000#32 + Ideal.exp (-(_ + _))) = _
  rw [Ideal.ofBits_one_f32]
  rfl

/-- One step down the tree, on the values: the parent's weight (read at the pair `(j / 2, j % 2)` of the level
    before) times the branch probability of child `s` of node `j` is the weight of node `2 * j + s`. -/
theorem route_step (D : ℕ → ℕ → EReal) (n w b j s : ℕ) (hw : 2 ^ n = w) (hs : s < 2) (P dd : EReal)
    (hP : P = route D n b (2 * (j / 2) + j % 2))
    (hd : dd = if s = 0 then D b (w + j) else one - D b (w + j)) :
    P * dd = route D (n + 1) b (2 * j + s) := by
  have h1 : 2 * (j / 2) + j % 2 = j := by omega
  have h2 : (2 * j + s) / 2 = j := by omega
  have h3 : (2 * j + s) % 2 = s := by omega
  rw [route_succ, h2, h3, hw, hP, hd, h1]

/-- The decision stack: entry `(b, k, 0)` is the probability, entry `(b, k, 1)` one minus it. -/
theorem dec_apply (x : FVec Ideal S16384x2048 .f32) (fm : FVec Ideal S2048x1024 .f32) (W : FVec Ideal S1024x1024 .f32)
    (bias : FVec Ideal S1024 .f32) (b : Fin 16384) (k : Fin 1024) (s : Fin 2) :
    val_main_v16 (F := Ideal) x fm W bias (ix3 b k s)
      = if s.val = 0 then nat2 (dRef x fm W bias) b.val k.val else one - nat2 (dRef x fm W bias) b.val k.val := by
  rw [nat2_of_lt (dRef x fm W bias) b k.val k.isLt]
  unfold val_main_v16
  match s with
  | ⟨0, _⟩ =>
    rw [if_pos rfl]
    rw [concatenate_pair_apply_left 2 _ _ concatenates_S16384x1024x1_S16384x1024x1_S16384x1024x2_d2 _ rfl
      (ix3 b k (0 : Fin 1)) (fun a => by match a with | ⟨0, _⟩ => rfl | ⟨1, _⟩ => rfl | ⟨2, _⟩ => rfl)]
    rw [val_main_v14_apply]
    exact congrArg (dRef x fm W bias) (funext fun a => by match a with | ⟨0, _⟩ => rfl | ⟨1, _⟩ => rfl)
  | ⟨1, _⟩ =>
    rw [if_neg (show ¬ ((1 : ℕ) = 0) from Nat.one_ne_zero)]
    rw [concatenate_pair_apply_right 2 _ _ concatenates_S16384x1024x1_S16384x1024x1_S16384x1024x2_d2 _ rfl rfl
      (ix3 b k (0 : Fin 1))
      (fun a ha => by match a with | ⟨0, _⟩ => rfl | ⟨1, _⟩ => rfl | ⟨2, _⟩ => exact absurd rfl ha) rfl]
    rw [val_main_v15_apply, val_main_v13_apply, val_main_v12_apply, val_main_cst_1_apply]
    show one - dRef x fm W bias _ = _
    exact congrArg (fun i => one - dRef x fm W bias i) (funext fun a => by match a with | ⟨0, _⟩ => rfl | ⟨1, _⟩ => rfl)

/-- The all-ones weights of the root, spread over the two children: every entry is the word of one. -/
theorem ones_apply (i : S16384x1x2.Idx) : val_main_v19 (F := Ideal) i = one := by
  rw [val_main_v19_apply, val_main_v18_apply, val_main_v17_apply, val_main_cst_2_apply]
  rfl

/-- Level 1: the two children of the root. -/
theorem level_0 (x : FVec Ideal S16384x2048 .f32) (fm : FVec Ideal S2048x1024 .f32) (W : FVec Ideal S1024x1024 .f32)
    (bias : FVec Ideal S1024 .f32) :
    Reads3 (val_main_v21 (F := Ideal) x fm W bias) (fun b j s => route (nat2 (dRef x fm W bias)) 1 b (2 * j + s)) := by
  intro b j s
  have hj : j.val < 1 := j.isLt
  have hs : s.val < 2 := s.isLt
  rw [val_main_v21_apply, ones_apply, val_main_v20_apply]
  have e2 : idx_main_v20 (ix3 b j s) = ix3 b (⟨1 + j.val, by omega⟩ : Fin 1024) s :=
    funext fun a => by match a with | ⟨0, _⟩ => rfl | ⟨1, _⟩ => rfl | ⟨2, _⟩ => rfl
  rw [e2]
  show (_ : EReal) * _ = _
  exact route_step _ 0 1 b.val j.val s.val (by norm_num) hs _ _ (route_zero _ _ _).symm (dec_apply x fm W bias b _ s)

/-- Level 2: the 4 children of the 2 nodes of level 1. -/
theorem level_1 (x : FVec Ideal S16384x2048 .f32) (fm : FVec Ideal S2048x1024 .f32) (W : FVec Ideal S1024x1024 .f32)
    (bias : FVec Ideal S1024 .f32) :
    Reads3 (val_main_v26 (F := Ideal) x fm W bias)
      (fun b j s => route (nat2 (dRef x fm W bias)) 2 b (2 * j + s)) := by
  intro b j s
  have hb : b.val < 16384 := b.isLt
  have hj : j.val < 2 := j.isLt
  have hs : s.val < 2 := s.isLt
  rw [val_main_v26_apply, val_main_v24_apply, val_main_v23_apply, val_main_v22_apply, val_main_v25_apply]
  -- the parent's weight sits at (b, j / 2, j % 2) of the level before
  have e1 : idx_main_v22 (idx_main_v23 (idx_main_v24 (ix3 b j s)))
      = ix3 b (⟨j.val / 2, by omega⟩ : Fin 1) (⟨j.val % 2, by omega⟩ : Fin 2) :=
    funext fun a => Fin.ext (by
      match a with
      | ⟨0, _⟩ => show ((((b.val * 2 + j.val) * 2 + s.val) / 4 * 2 + ((b.val * 2 + j.val) * 2 + s.val) / 2 % 2) * 1 + 0) / 2 = b.val; omega
      | ⟨1, _⟩ => show 0 = j.val / 2; omega
      | ⟨2, _⟩ => show ((((b.val * 2 + j.val) * 2 + s.val) / 4 * 2 + ((b.val * 2 + j.val) * 2 + s.val) / 2 % 2) * 1 + 0) % 2 = j.val % 2; omega)
  -- this level's decisions are entries 2 … 3 of the stack
  have e2 : idx_main_v25 (ix3 b j s) = ix3 b (⟨2 + j.val, by omega⟩ : Fin 1024) s :=
    funext fun a => by match a with | ⟨0, _⟩ => rfl | ⟨1, _⟩ => rfl | ⟨2, _⟩ => rfl
  rw [e1, e2]
  show (_ : EReal) * _ = _
  exact route_step _ 1 2 b.val j.val s.val (by norm_num) hs _ _ (level_0 x fm W bias b _ _)
    (dec_apply x fm W bias b _ s)

/-- Level 3: the 8 children of the 4 nodes of level 2. -/
theorem level_2 (x : FVec Ideal S16384x2048 .f32) (fm : FVec Ideal S2048x1024 .f32) (W : FVec Ideal S1024x1024 .f32)
    (bias : FVec Ideal S1024 .f32) :
    Reads3 (val_main_v31 (F := Ideal) x fm W bias)
      (fun b j s => route (nat2 (dRef x fm W bias)) 3 b (2 * j + s)) := by
  intro b j s
  have hb : b.val < 16384 := b.isLt
  have hj : j.val < 4 := j.isLt
  have hs : s.val < 2 := s.isLt
  rw [val_main_v31_apply, val_main_v29_apply, val_main_v28_apply, val_main_v27_apply, val_main_v30_apply]
  -- the parent's weight sits at (b, j / 2, j % 2) of the level before
  have e1 : idx_main_v27 (idx_main_v28 (idx_main_v29 (ix3 b j s)))
      = ix3 b (⟨j.val / 2, by omega⟩ : Fin 2) (⟨j.val % 2, by omega⟩ : Fin 2) :=
    funext fun a => Fin.ext (by
      match a with
      | ⟨0, _⟩ => show ((((b.val * 4 + j.val) * 2 + s.val) / 8 * 4 + ((b.val * 4 + j.val) * 2 + s.val) / 2 % 4) * 1 + 0) / 4 = b.val; omega
      | ⟨1, _⟩ => show ((((b.val * 4 + j.val) * 2 + s.val) / 8 * 4 + ((b.val * 4 + j.val) * 2 + s.val) / 2 % 4) * 1 + 0) / 2 % 2 = j.val / 2; omega
      | ⟨2, _⟩ => show ((((b.val * 4 + j.val) * 2 + s.val) / 8 * 4 + ((b.val * 4 + j.val) * 2 + s.val) / 2 % 4) * 1 + 0) % 2 = j.val % 2; omega)
  -- this level's decisions are entries 4 … 7 of the stack
  have e2 : idx_main_v30 (ix3 b j s) = ix3 b (⟨4 + j.val, by omega⟩ : Fin 1024) s :=
    funext fun a => by match a with | ⟨0, _⟩ => rfl | ⟨1, _⟩ => rfl | ⟨2, _⟩ => rfl
  rw [e1, e2]
  show (_ : EReal) * _ = _
  exact route_step _ 2 4 b.val j.val s.val (by norm_num) hs _ _ (level_1 x fm W bias b _ _)
    (dec_apply x fm W bias b _ s)

/-- Level 4: the 16 children of the 8 nodes of level 3. -/
theorem level_3 (x : FVec Ideal S16384x2048 .f32) (fm : FVec Ideal S2048x1024 .f32) (W : FVec Ideal S1024x1024 .f32)
    (bias : FVec Ideal S1024 .f32) :
    Reads3 (val_main_v36 (F := Ideal) x fm W bias)
      (fun b j s => route (nat2 (dRef x fm W bias)) 4 b (2 * j + s)) := by
  intro b j s
  have hb : b.val < 16384 := b.isLt
  have hj : j.val < 8 := j.isLt
  have hs : s.val < 2 := s.isLt
  rw [val_main_v36_apply, val_main_v34_apply, val_main_v33_apply, val_main_v32_apply, val_main_v35_apply]
  -- the parent's weight sits at (b, j / 2, j % 2) of the level before
  have e1 : idx_main_v32 (idx_main_v33 (idx_main_v34 (ix3 b j s)))
      = ix3 b (⟨j.val / 2, by omega⟩ : Fin 4) (⟨j.val % 2, by omega⟩ : Fin 2) :=
    funext fun a => Fin.ext (by
      match a with
      | ⟨0, _⟩ => show ((((b.val * 8 + j.val) * 2 + s.val) / 16 * 8 + ((b.val * 8 + j.val) * 2 + s.val) / 2 % 8) * 1 + 0) / 8 = b.val; omega
      | ⟨1, _⟩ => show ((((b.val * 8 + j.val) * 2 + s.val) / 16 * 8 + ((b.val * 8 + j.val) * 2 + s.val) / 2 % 8) * 1 + 0) / 2 % 4 = j.val / 2; omega
      | ⟨2, _⟩ => show ((((b.val * 8 + j.val) * 2 + s.val) / 16 * 8 + ((b.val * 8 + j.val) * 2 + s.val) / 2 % 8) * 1 + 0) % 2 = j.val % 2; omega)
  -- this level's decisions are entries 8 … 15 of the stack
  have e2 : idx_main_v35 (ix3 b j s) = ix3 b (⟨8 + j.val, by omega⟩ : Fin 1024) s :=
    funext fun a => by match a with | ⟨0, _⟩ => rfl | ⟨1, _⟩ => rfl | ⟨2, _⟩ => rfl
  rw [e1, e2]
  show (_ : EReal) * _ = _
  exact route_step _ 3 8 b.val j.val s.val (by norm_num) hs _ _ (level_2 x fm W bias b _ _)
    (dec_apply x fm W bias b _ s)

/-- Level 5: the 32 children of the 16 nodes of level 4. -/
theorem level_4 (x : FVec Ideal S16384x2048 .f32) (fm : FVec Ideal S2048x1024 .f32) (W : FVec Ideal S1024x1024 .f32)
    (bias : FVec Ideal S1024 .f32) :
    Reads3 (val_main_v41 (F := Ideal) x fm W bias)
      (fun b j s => route (nat2 (dRef x fm W bias)) 5 b (2 * j + s)) := by
  intro b j s
  have hb : b.val < 16384 := b.isLt
  have hj : j.val < 16 := j.isLt
  have hs : s.val < 2 := s.isLt
  rw [val_main_v41_apply, val_main_v39_apply, val_main_v38_apply, val_main_v37_apply, val_main_v40_apply]
  -- the parent's weight sits at (b, j / 2, j % 2) of the level before
  have e1 : idx_main_v37 (idx_main_v38 (idx_main_v39 (ix3 b j s)))
      = ix3 b (⟨j.val / 2, by omega⟩ : Fin 8) (⟨j.val % 2, by omega⟩ : Fin 2) :=
    funext fun a => Fin.ext (by
      match a with
      | ⟨0, _⟩ => show ((((b.val * 16 + j.val) * 2 + s.val) / 32 * 16 + ((b.val * 16 + j.val) * 2 + s.val) / 2 % 16) * 1 + 0) / 16 = b.val; omega
      | ⟨1, _⟩ => show ((((b.val * 16 + j.val) * 2 + s.val) / 32 * 16 + ((b.val * 16 + j.val) * 2 + s.val) / 2 % 16) * 1 + 0) / 2 % 8 = j.val / 2; omega
      | ⟨2, _⟩ => show ((((b.val * 16 + j.val) * 2 + s.val) / 32 * 16 + ((b.val * 16 + j.val) * 2 + s.val) / 2 % 16) * 1 + 0) % 2 = j.val % 2; omega)
  -- this level's decisions are entries 16 … 31 of the stack
  have e2 : idx_main_v40 (ix3 b j s) = ix3 b (⟨16 + j.val, by omega⟩ : Fin 1024) s :=
    funext fun a => by match a with | ⟨0, _⟩ => rfl | ⟨1, _⟩ => rfl | ⟨2, _⟩ => rfl
  rw [e1, e2]
  show (_ : EReal) * _ = _
  exact route_step _ 4 16 b.val j.val s.val (by norm_num) hs _ _ (level_3 x fm W bias b _ _)
    (dec_apply x fm W bias b _ s)

/-- Level 6: the 64 children of the 32 nodes of level 5. -/
theorem level_5 (x : FVec Ideal S16384x2048 .f32) (fm : FVec Ideal S2048x1024 .f32) (W : FVec Ideal S1024x1024 .f32)
    (bias : FVec Ideal S1024 .f32) :
    Reads3 (val_main_v46 (F := Ideal) x fm W bias)
      (fun b j s => route (nat2 (dRef x fm W bias)) 6 b (2 * j + s)) := by
  intro b j s
  have hb : b.val < 16384 := b.isLt
  have hj : j.val < 32 := j.isLt
  have hs : s.val < 2 := s.isLt
  rw [val_main_v46_apply, val_main_v44_apply, val_main_v43_apply, val_main_v42_apply, val_main_v45_apply]
  -- the parent's weight sits at (b, j / 2, j % 2) of the level before
  have e1 : idx_main_v42 (idx_main_v43 (idx_main_v44 (ix3 b j s)))
      = ix3 b (⟨j.val / 2, by omega⟩ : Fin 16) (⟨j.val % 2, by omega⟩ : Fin 2) :=
    funext fun a => Fin.ext (by
      match a with
      | ⟨0, _⟩ => show ((((b.val * 32 + j.val) * 2 + s.val) / 64 * 32 + ((b.val * 32 + j.val) * 2 + s.val) / 2 % 32) * 1 + 0) / 32 = b.val; omega
      | ⟨1, _⟩ => show ((((b.val * 32 + j.val) * 2 + s.val) / 64 * 32 + ((b.val * 32 + j.val) * 2 + s.val) / 2 % 32) * 1 + 0) / 2 % 16 = j.val / 2; omega
      | ⟨2, _⟩ => show ((((b.val * 32 + j.val) * 2 + s.val) / 64 * 32 + ((b.val * 32 + j.val) * 2 + s.val) / 2 % 32) * 1 + 0) % 2 = j.val % 2; omega)
  -- this level's decisions are entries 32 … 63 of the stack
  have e2 : idx_main_v45 (ix3 b j s) = ix3 b (⟨32 + j.val, by omega⟩ : Fin 1024) s :=
    funext fun a => by match a with | ⟨0, _⟩ => rfl | ⟨1, _⟩ => rfl | ⟨2, _⟩ => rfl
  rw [e1, e2]
  show (_ : EReal) * _ = _
  exact route_step _ 5 32 b.val j.val s.val (by norm_num) hs _ _ (level_4 x fm W bias b _ _)
    (dec_apply x fm W bias b _ s)

/-- Level 7: the 128 children of the 64 nodes of level 6. -/
theorem level_6 (x : FVec Ideal S16384x2048 .f32) (fm : FVec Ideal S2048x1024 .f32) (W : FVec Ideal S1024x1024 .f32)
    (bias : FVec Ideal S1024 .f32) :
    Reads3 (val_main_v51 (F := Ideal) x fm W bias)
      (fun b j s => route (nat2 (dRef x fm W bias)) 7 b (2 * j + s)) := by
  intro b j s
  have hb : b.val < 16384 := b.isLt
  have hj : j.val < 64 := j.isLt
  have hs : s.val < 2 := s.isLt
  rw [val_main_v51_apply, val_main_v49_apply, val_main_v48_apply, val_main_v47_apply, val_main_v50_apply]
  -- the parent's weight sits at (b, j / 2, j % 2) of the level before
  have e1 : idx_main_v47 (idx_main_v48 (idx_main_v49 (ix3 b j s)))
      = ix3 b (⟨j.val / 2, by omega⟩ : Fin 32) (⟨j.val % 2, by omega⟩ : Fin 2) :=
    funext fun a => Fin.ext (by
      match a with
      | ⟨0, _⟩ => show ((((b.val * 64 + j.val) * 2 + s.val) / 128 * 64 + ((b.val * 64 + j.val) * 2 + s.val) / 2 % 64) * 1 + 0) / 64 = b.val; omega
      | ⟨1, _⟩ => show ((((b.val * 64 + j.val) * 2 + s.val) / 128 * 64 + ((b.val * 64 + j.val) * 2 + s.val) / 2 % 64) * 1 + 0) / 2 % 32 = j.val / 2; omega
      | ⟨2, _⟩ => show ((((b.val * 64 + j.val) * 2 + s.val) / 128 * 64 + ((b.val * 64 + j.val) * 2 + s.val) / 2 % 64) * 1 + 0) % 2 = j.val % 2; omega)
  -- this level's decisions are entries 64 … 127 of the stack
  have e2 : idx_main_v50 (ix3 b j s) = ix3 b (⟨64 + j.val, by omega⟩ : Fin 1024) s :=
    funext fun a => by match a with | ⟨0, _⟩ => rfl | ⟨1, _⟩ => rfl | ⟨2, _⟩ => rfl
  rw [e1, e2]
  show (_ : EReal) * _ = _
  exact route_step _ 6 64 b.val j.val s.val (by norm_num) hs _ _ (level_5 x fm W bias b _ _)
    (dec_apply x fm W bias b _ s)

/-- Level 8: the 256 children of the 128 nodes of level 7. -/
theorem level_7 (x : FVec Ideal S16384x2048 .f32) (fm : FVec Ideal S2048x1024 .f32) (W : FVec Ideal S1024x1024 .f32)
    (bias : FVec Ideal S1024 .f32) :
    Reads3 (val_main_v56 (F := Ideal) x fm W bias)
      (fun b j s => route (nat2 (dRef x fm W bias)) 8 b (2 * j + s)) := by
  intro b j s
  have hb : b.val < 16384 := b.isLt
  have hj : j.val < 128 := j.isLt
  have hs : s.val < 2 := s.isLt
  rw [val_main_v56_apply, val_main_v54_apply, val_main_v53_apply, val_main_v52_apply, val_main_v55_apply]
  -- the parent's weight sits at (b, j / 2, j % 2) of the level before
  have e1 : idx_main_v52 (idx_main_v53 (idx_main_v54 (ix3 b j s)))
      = ix3 b (⟨j.val / 2, by omega⟩ : Fin 64) (⟨j.val % 2, by omega⟩ : Fin 2) :=
    funext fun a => Fin.ext (by
      match a with
      | ⟨0, _⟩ => show ((((b.val * 128 + j.val) * 2 + s.val) / 256 * 128 + ((b.val * 128 + j.val) * 2 + s.val) / 2 % 128) * 1 + 0) / 128 = b.val; omega
      | ⟨1, _⟩ => show ((((b.val * 128 + j.val) * 2 + s.val) / 256 * 128 + ((b.val * 128 + j.val) * 2 + s.val) / 2 % 128) * 1 + 0) / 2 % 64 = j.val / 2; omega
      | ⟨2, _⟩ => show ((((b.val * 128 + j.val) * 2 + s.val) / 256 * 128 + ((b.val * 128 + j.val) * 2 + s.val) / 2 % 128) * 1 + 0) % 2 = j.val % 2; omega)
  -- this level's decisions are entries 128 … 255 of the stack
  have e2 : idx_main_v55 (ix3 b j s) = ix3 b (⟨128 + j.val, by omega⟩ : Fin 1024) s :=
    funext fun a => by match a with | ⟨0, _⟩ => rfl | ⟨1, _⟩ => rfl | ⟨2, _⟩ => rfl
  rw [e1, e2]
  show (_ : EReal) * _ = _
  exact route_step _ 7 128 b.val j.val s.val (by norm_num) hs _ _ (level_6 x fm W bias b _ _)
    (dec_apply x fm W bias b _ s)

/-- Level 9: the 512 children of the 256 nodes of level 8. -/
theorem level_8 (x : FVec Ideal S16384x2048 .f32) (fm : FVec Ideal S2048x1024 .f32) (W : FVec Ideal S1024x1024 .f32)
    (bias : FVec Ideal S1024 .f32) :
    Reads3 (val_main_v61 (F := Ideal) x fm W bias)
      (fun b j s => route (nat2 (dRef x fm W bias)) 9 b (2 * j + s)) := by
  intro b j s
  have hb : b.val < 16384 := b.isLt
  have hj : j.val < 256 := j.isLt
  have hs : s.val < 2 := s.isLt
  rw [val_main_v61_apply, val_main_v59_apply, val_main_v58_apply, val_main_v57_apply, val_main_v60_apply]
  -- the parent's weight sits at (b, j / 2, j % 2) of the level before
  have e1 : idx_main_v57 (idx_main_v58 (idx_main_v59 (ix3 b j s)))
      = ix3 b (⟨j.val / 2, by omega⟩ : Fin 128) (⟨j.val % 2, by omega⟩ : Fin 2) :=
    funext fun a => Fin.ext (by
      match a with
      | ⟨0, _⟩ => show ((((b.val * 256 + j.val) * 2 + s.val) / 512 * 256 + ((b.val * 256 + j.val) * 2 + s.val) / 2 % 256) * 1 + 0) / 256 = b.val; omega
      | ⟨1, _⟩ => show ((((b.val * 256 + j.val) * 2 + s.val) / 512 * 256 + ((b.val * 256 + j.val) * 2 + s.val) / 2 % 256) * 1 + 0) / 2 % 128 = j.val / 2; omega
      | ⟨2, _⟩ => show ((((b.val * 256 + j.val) * 2 + s.val) / 512 * 256 + ((b.val * 256 + j.val) * 2 + s.val) / 2 % 256) * 1 + 0) % 2 = j.val % 2; omega)
  -- this level's decisions are entries 256 … 511 of the stack
  have e2 : idx_main_v60 (ix3 b j s) = ix3 b (⟨256 + j.val, by omega⟩ : Fin 1024) s :=
    funext fun a => by match a with | ⟨0, _⟩ => rfl | ⟨1, _⟩ => rfl | ⟨2, _⟩ => rfl
  rw [e1, e2]
  show (_ : EReal) * _ = _
  exact route_step _ 8 256 b.val j.val s.val (by norm_num) hs _ _ (level_7 x fm W bias b _ _)
    (dec_apply x fm W bias b _ s)

/-- Level 10: the 1024 children of the 512 nodes of level 9. -/
theorem level_9 (x : FVec Ideal S16384x2048 .f32) (fm : FVec Ideal S2048x1024 .f32) (W : FVec Ideal S1024x1024 .f32)
    (bias : FVec Ideal S1024 .f32) :
    Reads3 (val_main_v66 (F := Ideal) x fm W bias)
      (fun b j s => route (nat2 (dRef x fm W bias)) 10 b (2 * j + s)) := by
  intro b j s
  have hb : b.val < 16384 := b.isLt
  have hj : j.val < 512 := j.isLt
  have hs : s.val < 2 := s.isLt
  rw [val_main_v66_apply, val_main_v64_apply, val_main_v63_apply, val_main_v62_apply, val_main_v65_apply]
  -- the parent's weight sits at (b, j / 2, j % 2) of the level before
  have e1 : idx_main_v62 (idx_main_v63 (idx_main_v64 (ix3 b j s)))
      = ix3 b (⟨j.val / 2, by omega⟩ : Fin 256) (⟨j.val % 2, by omega⟩ : Fin 2) :=
    funext fun a => Fin.ext (by
      match a with
      | ⟨0, _⟩ => show ((((b.val * 512 + j.val) * 2 + s.val) / 1024 * 512 + ((b.val * 512 + j.val) * 2 + s.val) / 2 % 512) * 1 + 0) / 512 = b.val; omega
      | ⟨1, _⟩ => show ((((b.val * 512 + j.val) * 2 + s.val) / 1024 * 512 + ((b.val * 512 + j.val) * 2 + s.val) / 2 % 512) * 1 + 0) / 2 % 256 = j.val / 2; omega
      | ⟨2, _⟩ => show ((((b.val * 512 + j.val) * 2 + s.val) / 1024 * 512 + ((b.val * 512 + j.val) * 2 + s.val) / 2 % 512) * 1 + 0) % 2 = j.val % 2; omega)
  -- this level's decisions are entries 512 … 1023 of the stack
  have e2 : idx_main_v65 (ix3 b j s) = ix3 b (⟨512 + j.val, by omega⟩ : Fin 1024) s :=
    funext fun a => by match a with | ⟨0, _⟩ => rfl | ⟨1, _⟩ => rfl | ⟨2, _⟩ => rfl
  rw [e1, e2]
  show (_ : EReal) * _ = _
  exact route_step _ 9 512 b.val j.val s.val (by norm_num) hs _ _ (level_8 x fm W bias b _ _)
    (dec_apply x fm W bias b _ s)

/-- The reference's result: entry `(b, j)` is the weight of leaf `j` in row `b`. The last product, of shape
    [16384, 512, 2], is read row-major as [16384, 1024]: entry `(b, j)` is entry `(b, j / 2, j % 2)`. -/
theorem ref_reads (x : FVec Ideal S16384x2048 .f32) (fm : FVec Ideal S2048x1024 .f32) (W : FVec Ideal S1024x1024 .f32)
    (bias : FVec Ideal S1024 .f32) :
    Reads2 (val_main_v67 (F := Ideal) x fm W bias) (route (nat2 (dRef x fm W bias)) 10) := by
  intro b j
  have hb : b.val < 16384 := b.isLt
  have hj : j.val < 1024 := j.isLt
  rw [val_main_v67_apply]
  have e : idx_main_v67 (ix2 b j) = ix3 b (⟨j.val / 2, by omega⟩ : Fin 512) (⟨j.val % 2, by omega⟩ : Fin 2) :=
    funext fun a => Fin.ext (by
      match a with
      | ⟨0, _⟩ => show (b.val * 1024 + j.val) / 1024 = b.val; omega
      | ⟨1, _⟩ => show (b.val * 1024 + j.val) / 2 % 512 = j.val / 2; omega
      | ⟨2, _⟩ => show (b.val * 1024 + j.val) % 2 = j.val % 2; omega)
  rw [e, level_9 x fm W bias b _ _]
  show route _ 10 b.val (2 * (j.val / 2) + j.val % 2) = route _ 10 b.val j.val
  rw [show 2 * (j.val / 2) + j.val % 2 = j.val by omega]

/-- The same for the term the run of the reference program ends with, at the launch contents of its four arguments. -/
theorem ref_run_reads (m : (ℓ : Loc nD τ sig) → Buf (Elt Ideal) ℓ) (c : Dev nD) :
    Reads2 (Cert.ReferenceIdeal.Value.res_main_v67 (F := Ideal) m c)
      (route (nat2 (dRef (m ((c.tc : Thread nD τ).loc main_arg0)) (m ((c.tc : Thread nD τ).loc main_arg1))
        (m ((c.tc : Thread nD τ).loc main_arg2)) (m ((c.tc : Thread nD τ).loc main_arg3)))) 10) := by
  rw [val_main_v67_eq]
  exact ref_reads _ _ _ _

end Cert.RefRoute

end
-- ==== Proof.lean ====
/-
  The five claims for the soft decision tree: `d = sigmoid(x · feature_mask · Wᵀ + b)`, then ten levels of soft routing.

  The kernel multiplies `x` by the folded weight `feature_mask · Wᵀ` in one pallas_call over 32 row tiles and routes
  with rank-2 arrays; the reference multiplies `x · feature_mask` by `Wᵀ`, spells the sigmoid as `1 / (1 + exp(-·))` and
  routes with a rank-3 decision stack. At the ideal instance a change of format is the identity and the sigmoid's two
  spellings are one function, so the two decision arrays differ only in the grouping of a double sum:
  `∑ k, x b k · (∑ j, f k j · w l j) = ∑ j, (∑ k, x b k · f k j) · w l j`, which holds because every input is finite
  (distributivity fails at the infinities: this is where the precondition is used). Both routings are the same
  function `route` of the decision array (proof/Proof/Spec.lean): each level multiplies a node's weight by its branch
  probability, in the same order on both sides.

  Frames: the kernel's two programs by the launch theorem for a region followed by host lines
  (proof/Proof/FrameBits.lean, FrameIdeal.lean: one text at two instances); the reference's by its run.
  `preserves` has no entry to state: the ideal pass rewrote nothing.
-/
import proofs.«168763_j2963527434844_2_alg».proof.Defs
import proofs.«168763_j2963527434844_2_alg».proof.Proof.Gen.Kernel
import proofs.«168763_j2963527434844_2_alg».proof.Proof.Gen.KernelIdeal
import proofs.«168763_j2963527434844_2_alg».proof.Proof.Gen.ReferenceIdeal
import proofs.«168763_j2963527434844_2_alg».proof.Proof.Gen.Pre_finite_inputs
import proofs.«168763_j2963527434844_2_alg».proof.Proof.Gen.ReferenceIdeal.Run
import proofs.«168763_j2963527434844_2_alg».proof.Proof.Gen.ReferenceIdeal.Read
import proofs.«168763_j2963527434844_2_alg».proof.Proof.Spec
import proofs.«168763_j2963527434844_2_alg».proof.Proof.LibMatAssoc
import proofs.«168763_j2963527434844_2_alg».proof.Proof.Finite
import proofs.«168763_j2963527434844_2_alg».proof.Proof.FrameBits
import proofs.«168763_j2963527434844_2_alg».proof.Proof.FrameIdeal
import proofs.«168763_j2963527434844_2_alg».proof.Proof.KPay
import proofs.«168763_j2963527434844_2_alg».proof.Proof.KTailDefs
import proofs.«168763_j2963527434844_2_alg».proof.Proof.KTail
import proofs.«168763_j2963527434844_2_alg».proof.Proof.KLevels
import proofs.«168763_j2963527434844_2_alg».proof.Proof.KValue
import proofs.«168763_j2963527434844_2_alg».proof.Proof.KRun
import proofs.«168763_j2963527434844_2_alg».proof.Proof.RefRoute
import Idealize.ShloMosaic.Adequacy
import Idealize.ShloMosaic.Init

set_option maxRecDepth 16384

noncomputable section

namespace Cert.Proof

open Idealize.ShloMosaic Idealize.ShloMosaic.ValueIdx Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- On finite inputs the kernel's decision array is the reference's: entry by entry the two logits are one double sum
    grouped two ways. -/
theorem dK_eq_dRef (x : FVec Ideal Cert.KernelIdeal.S16384x2048 .f32) (fm : FVec Ideal Cert.KernelIdeal.S2048x1024 .f32)
    (W : FVec Ideal Cert.KernelIdeal.S1024x1024 .f32) (bias : FVec Ideal Cert.KernelIdeal.S1024 .f32)
    (hx : ∀ i, ∃ r : ℝ, x i = (r : EReal)) (hfm : ∀ i, ∃ r : ℝ, fm i = (r : EReal)) (hW : ∀ i, ∃ r : ℝ, W i = (r : EReal)) :
    Cert.KernelIdeal.DValue.dK x fm W bias = Cert.RefRoute.dRef x fm W bias := by
  funext i
  obtain ⟨b, l, rfl⟩ : ∃ (b : Fin 16384) (l : Fin 1024), i = ix2 b l := ⟨i 0, i 1, eq_ix2 i⟩
  rw [Cert.KernelIdeal.DValue.dK_apply, Cert.RefRoute.dRef_apply]
  rw [Cert.Algebra.sum_mul_sum_assoc (fun k : Fin 2048 => x (ix2 b k)) (fun (k : Fin 2048) (j : Fin 1024) => fm (ix2 k j))
    (fun j : Fin 1024 => W (ix2 l j)) (fun k => hx _) (fun k j => hfm _) (fun j => hW _)]

set_option maxHeartbeats 4000000 in
theorem algebraic : Cert.algebraic_KernelIdeal_ReferenceIdeal := by
  intro m ρ m' ρ' hpre hagree
  refine ⟨fun c => Cert.KTail.tail (Cert.KernelIdeal.DValue.dK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))),
    Cert.KernelIdeal.DValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hfm, hW, -⟩ := Cert.Finite.finite_of_pre _ _ _ _ (hpre c)
  have hR := Cert.RefRoute.ref_run_reads m' c
  rw [(hagree c).1, (hagree c).2.1, (hagree c).2.2.1, (hagree c).2.2.2] at hR
  rw [← dK_eq_dRef _ _ _ _ hx hfm hW] at hR
  exact Cert.Route.eq_of_reads2 hR (Cert.KLevels.tail_reads _)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
